-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S1024x16384 : Shape := ⟨2, ![1024, 16384]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel

variable [Facts]

def fn {F : FTy → Type} [FloatOps F] (main_arg0 : FVec F S1024x16384 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  main_v3
-- ==== Kernel.lean ====
abbrev S1024x1024 : Shape := ⟨2, ![1024, 1024]⟩
abbrev S16x2x1024 : Shape := ⟨3, ![16, 2, 1024]⟩
abbrev S16 : Shape := ⟨1, ![16]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S2x1024 : Shape := ⟨2, ![2, 1024]⟩
abbrev S1x2x1024 : Shape := ⟨3, ![1, 2, 1024]⟩
abbrev S1 : Shape := ⟨1, ![1]⟩
abbrev S16x1x1024 : Shape := ⟨3, ![16, 1, 1024]⟩
abbrev S16x1024 : Shape := ⟨2, ![16, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .local _ .vmem, ⟨0, _⟩ => ⟨S1024x1024, .f32⟩
  | .local _ .vmem, ⟨1, _⟩ => ⟨S1024x1024, .bf16⟩
  | .local _ .vmem, ⟨2, _⟩ => ⟨S16x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  { ofTc nBuf bufTy 1 34 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v79 : BitVec 32 := Scalar.addi v2 c1_i32_66
  let c16_i32_67 : BitVec 32 := 16#32
  let v80 : BitVec 32 := Scalar.remsi v79 c16_i32_67
  let c1_i32_72 : BitVec 32 := 1#32
  let v81 : BitVec 32 := Scalar.muli v80 c1_i32_72
  let v82 : BitVec 32 := Scalar.addi c0_i32_73 v81
  v82.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_78 : BitVec 32 := 2#32
  let v91 : BitVec 32 := Scalar.addi v2 c2_i32_78
  let c16_i32_79 : BitVec 32 := 16#32
  let v92 : BitVec 32 := Scalar.remsi v91 c16_i32_79
  let c1_i32_84 : BitVec 32 := 1#32
  let v93 : BitVec 32 := Scalar.muli v92 c1_i32_84
  let v94 : BitVec 32 := Scalar.addi c0_i32_85 v93
  v94.toNat
def k0_dev18 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_90 : BitVec 32 := 3#32
  let v103 : BitVec 32 := Scalar.addi v2 c3_i32_90
  let c16_i32_91 : BitVec 32 := 16#32
  let v104 : BitVec 32 := Scalar.remsi v103 c16_i32_91
  let c1_i32_96 : BitVec 32 := 1#32
  let v105 : BitVec 32 := Scalar.muli v104 c1_i32_96
  let v106 : BitVec 32 := Scalar.addi c0_i32_97 v105
  v106.toNat
def k0_dev19 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_102 : BitVec 32 := 4#32
  let v115 : BitVec 32 := Scalar.addi v2 c4_i32_102
  let c16_i32_103 : BitVec 32 := 16#32
  let v116 : BitVec 32 := Scalar.remsi v115 c16_i32_103
  let c1_i32_108 : BitVec 32 := 1#32
  let v117 : BitVec 32 := Scalar.muli v116 c1_i32_108
  let v118 : BitVec 32 := Scalar.addi c0_i32_109 v117
  v118.toNat
def k0_dev20 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_114 : BitVec 32 := 5#32
  let v127 : BitVec 32 := Scalar.addi v2 c5_i32_114
  let c16_i32_115 : BitVec 32 := 16#32
  let v128 : BitVec 32 := Scalar.remsi v127 c16_i32_115
  let c1_i32_120 : BitVec 32 := 1#32
  let v129 : BitVec 32 := Scalar.muli v128 c1_i32_120
  let v130 : BitVec 32 := Scalar.addi c0_i32_121 v129
  v130.toNat
def k0_dev21 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_126 : BitVec 32 := 6#32
  let v139 : BitVec 32 := Scalar.addi v2 c6_i32_126
  let c16_i32_127 : BitVec 32 := 16#32
  let v140 : BitVec 32 := Scalar.remsi v139 c16_i32_127
  let c1_i32_132 : BitVec 32 := 1#32
  let v141 : BitVec 32 := Scalar.muli v140 c1_i32_132
  let v142 : BitVec 32 := Scalar.addi c0_i32_133 v141
  v142.toNat
def k0_dev22 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_138 : BitVec 32 := 7#32
  let v151 : BitVec 32 := Scalar.addi v2 c7_i32_138
  let c16_i32_139 : BitVec 32 := 16#32
  let v152 : BitVec 32 := Scalar.remsi v151 c16_i32_139
  let c1_i32_144 : BitVec 32 := 1#32
  let v153 : BitVec 32 := Scalar.muli v152 c1_i32_144
  let v154 : BitVec 32 := Scalar.addi c0_i32_145 v153
  v154.toNat
def k0_dev23 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_150 : BitVec 32 := 8#32
  let v163 : BitVec 32 := Scalar.addi v2 c8_i32_150
  let c16_i32_151 : BitVec 32 := 16#32
  let v164 : BitVec 32 := Scalar.remsi v163 c16_i32_151
  let c1_i32_156 : BitVec 32 := 1#32
  let v165 : BitVec 32 := Scalar.muli v164 c1_i32_156
  let v166 : BitVec 32 := Scalar.addi c0_i32_157 v165
  v166.toNat
def k0_dev24 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_162 : BitVec 32 := 9#32
  let v175 : BitVec 32 := Scalar.addi v2 c9_i32_162
  let c16_i32_163 : BitVec 32 := 16#32
  let v176 : BitVec 32 := Scalar.remsi v175 c16_i32_163
  let c1_i32_168 : BitVec 32 := 1#32
  let v177 : BitVec 32 := Scalar.muli v176 c1_i32_168
  let v178 : BitVec 32 := Scalar.addi c0_i32_169 v177
  v178.toNat
def k0_dev25 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_174 : BitVec 32 := 10#32
  let v187 : BitVec 32 := Scalar.addi v2 c10_i32_174
  let c16_i32_175 : BitVec 32 := 16#32
  let v188 : BitVec 32 := Scalar.remsi v187 c16_i32_175
  let c1_i32_180 : BitVec 32 := 1#32
  let v189 : BitVec 32 := Scalar.muli v188 c1_i32_180
  let v190 : BitVec 32 := Scalar.addi c0_i32_181 v189
  v190.toNat
def k0_dev26 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_186 : BitVec 32 := 11#32
  let v199 : BitVec 32 := Scalar.addi v2 c11_i32_186
  let c16_i32_187 : BitVec 32 := 16#32
  let v200 : BitVec 32 := Scalar.remsi v199 c16_i32_187
  let c1_i32_192 : BitVec 32 := 1#32
  let v201 : BitVec 32 := Scalar.muli v200 c1_i32_192
  let v202 : BitVec 32 := Scalar.addi c0_i32_193 v201
  v202.toNat
def k0_dev27 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_198 : BitVec 32 := 12#32
  let v211 : BitVec 32 := Scalar.addi v2 c12_i32_198
  let c16_i32_199 : BitVec 32 := 16#32
  let v212 : BitVec 32 := Scalar.remsi v211 c16_i32_199
  let c1_i32_204 : BitVec 32 := 1#32
  let v213 : BitVec 32 := Scalar.muli v212 c1_i32_204
  let v214 : BitVec 32 := Scalar.addi c0_i32_205 v213
  v214.toNat
def k0_dev28 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_210 : BitVec 32 := 13#32
  let v223 : BitVec 32 := Scalar.addi v2 c13_i32_210
  let c16_i32_211 : BitVec 32 := 16#32
  let v224 : BitVec 32 := Scalar.remsi v223 c16_i32_211
  let c1_i32_216 : BitVec 32 := 1#32
  let v225 : BitVec 32 := Scalar.muli v224 c1_i32_216
  let v226 : BitVec 32 := Scalar.addi c0_i32_217 v225
  v226.toNat
def k0_dev29 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_222 : BitVec 32 := 14#32
  let v235 : BitVec 32 := Scalar.addi v2 c14_i32_222
  let c16_i32_223 : BitVec 32 := 16#32
  let v236 : BitVec 32 := Scalar.remsi v235 c16_i32_223
  let c1_i32_228 : BitVec 32 := 1#32
  let v237 : BitVec 32 := Scalar.muli v236 c1_i32_228
  let v238 : BitVec 32 := Scalar.addi c0_i32_229 v237
  v238.toNat
def k0_dev30 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_234 : BitVec 32 := 15#32
  let v247 : BitVec 32 := Scalar.addi v2 c15_i32_234
  let c16_i32_235 : BitVec 32 := 16#32
  let v248 : BitVec 32 := Scalar.remsi v247 c16_i32_235
  let c1_i32_240 : BitVec 32 := 1#32
  let v249 : BitVec 32 := Scalar.muli v248 c1_i32_240
  let v250 : BitVec 32 := Scalar.addi c0_i32_241 v249
  v250.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  shapeCasts_S1024_S1x1024 : S1024.ShapeCasts S1x1024
  concatenates_S1x1024_S1x1024_S2x1024_d0 : Shape.Concatenates [S1x1024, S1x1024] S2x1024 0
  inb_S16x2x1024_S1x2x1024_0_0_0 : ∀ a, (![0, 0, 0] : Fin 3 → Nat) a + S1x2x1024.size a ≤ S16x2x1024.size a
  h_S1x2x1024 : 0 < S1x2x1024.numel
  shapeCasts_S1x2x1024_S2x1024 : S1x2x1024.ShapeCasts S2x1024
  shapeCasts_S2x1024_S1x2x1024 : S2x1024.ShapeCasts S1x2x1024
  hamt_15 : (15#32 : BitVec 32).msb = false
  inb_S16_S1_1 : ∀ a, (![1] : Fin 1 → Nat) a + S1.size a ≤ S16.size a
  squeezes_S1_S_ : S1.Squeezes S_
  inb_S16x2x1024_S1x2x1024_1_0_0 : ∀ a, (![1, 0, 0] : Fin 3 → Nat) a + S1x2x1024.size a ≤ S16x2x1024.size a
  squeezes_S1x2x1024_S2x1024 : S1x2x1024.Squeezes S2x1024
  inb_S16_S1_2 : ∀ a, (![2] : Fin 1 → Nat) a + S1.size a ≤ S16.size a
  inb_S16x2x1024_S1x2x1024_2_0_0 : ∀ a, (![2, 0, 0] : Fin 3 → Nat) a + S1x2x1024.size a ≤ S16x2x1024.size a
  inb_S16_S1_3 : ∀ a, (![3] : Fin 1 → Nat) a + S1.size a ≤ S16.size a
  inb_S16x2x1024_S1x2x1024_3_0_0 : ∀ a, (![3, 0, 0] : Fin 3 → Nat) a + S1x2x1024.size a ≤ S16x2x1024.size a
  inb_S16_S1_4 : ∀ a, (![4] : Fin 1 → Nat) a + S1.size a ≤ S16.size a
  inb_S16x2x1024_S1x2x1024_4_0_0 : ∀ a, (![4, 0, 0] : Fin 3 → Nat) a + S1x2x1024.size a ≤ S16x2x1024.size a
  inb_S16_S1_5 : ∀ a, (![5] : Fin 1 → Nat) a + S1.size a ≤ S16.size a
  inb_S16x2x1024_S1x2x1024_5_0_0 : ∀ a, (![5, 0, 0] : Fin 3 → Nat) a + S1x2x1024.size a ≤ S16x2x1024.size a
  inb_S16_S1_6 : ∀ a, (![6] : Fin 1 → Nat) a + S1.size a ≤ S16.size a
  inb_S16x2x1024_S1x2x1024_6_0_0 : ∀ a, (![6, 0, 0] : Fin 3 → Nat) a + S1x2x1024.size a ≤ S16x2x1024.size a
  inb_S16_S1_7 : ∀ a, (![7] : Fin 1 → Nat) a + S1.size a ≤ S16.size a
  inb_S16x2x1024_S1x2x1024_7_0_0 : ∀ a, (![7, 0, 0] : Fin 3 → Nat) a + S1x2x1024.size a ≤ S16x2x1024.size a
  inb_S16_S1_8 : ∀ a, (![8] : Fin 1 → Nat) a + S1.size a ≤ S16.size a
  inb_S16x2x1024_S1x2x1024_8_0_0 : ∀ a, (![8, 0, 0] : Fin 3 → Nat) a + S1x2x1024.size a ≤ S16x2x1024.size a
  inb_S16_S1_9 : ∀ a, (![9] : Fin 1 → Nat) a + S1.size a ≤ S16.size a
  inb_S16x2x1024_S1x2x1024_9_0_0 : ∀ a, (![9, 0, 0] : Fin 3 → Nat) a + S1x2x1024.size a ≤ S16x2x1024.size a
  inb_S16_S1_10 : ∀ a, (![10] : Fin 1 → Nat) a + S1.size a ≤ S16.size a
  inb_S16x2x1024_S1x2x1024_10_0_0 : ∀ a, (![10, 0, 0] : Fin 3 → Nat) a + S1x2x1024.size a ≤ S16x2x1024.size a
  inb_S16_S1_11 : ∀ a, (![11] : Fin 1 → Nat) a + S1.size a ≤ S16.size a
  inb_S16x2x1024_S1x2x1024_11_0_0 : ∀ a, (![11, 0, 0] : Fin 3 → Nat) a + S1x2x1024.size a ≤ S16x2x1024.size a
  inb_S16_S1_12 : ∀ a, (![12] : Fin 1 → Nat) a + S1.size a ≤ S16.size a
  inb_S16x2x1024_S1x2x1024_12_0_0 : ∀ a, (![12, 0, 0] : Fin 3 → Nat) a + S1x2x1024.size a ≤ S16x2x1024.size a
  inb_S16_S1_13 : ∀ a, (![13] : Fin 1 → Nat) a + S1.size a ≤ S16.size a
  inb_S16x2x1024_S1x2x1024_13_0_0 : ∀ a, (![13, 0, 0] : Fin 3 → Nat) a + S1x2x1024.size a ≤ S16x2x1024.size a
  inb_S16_S1_14 : ∀ a, (![14] : Fin 1 → Nat) a + S1.size a ≤ S16.size a
  inb_S16x2x1024_S1x2x1024_14_0_0 : ∀ a, (![14, 0, 0] : Fin 3 → Nat) a + S1x2x1024.size a ≤ S16x2x1024.size a
  inb_S16_S1_15 : ∀ a, (![15] : Fin 1 → Nat) a + S1.size a ≤ S16.size a
  inb_S16x2x1024_S1x2x1024_15_0_0 : ∀ a, (![15, 0, 0] : Fin 3 → Nat) a + S1x2x1024.size a ≤ S16x2x1024.size a
  packedbf16_S1024x1024_S1024x1024_0_0 : (Rect.unit (s := S1024x1024) ![0, 0] S1024x1024.size inb_S1024x1024_S1024x1024_0_0).PackedRows (EltTy.packing .bf16)
  inb_S16x2x1024_S16x1x1024_0_0_0 : ∀ a, (![0, 0, 0] : Fin 3 → Nat) a + S16x1x1024.size a ≤ S16x2x1024.size a
  h_S16x1x1024 : 0 < S16x1x1024.numel
  shapeCasts_S16x1x1024_S16x1024 : S16x1x1024.ShapeCasts S16x1024
  inb_S16x2x1024_S16x1x1024_0_1_0 : ∀ a, (![0, 1, 0] : Fin 3 → Nat) a + S16x1x1024.size a ≤ S16x2x1024.size a
  reduces_S16x1024_S1024 : S16x1024.Reduces [0] S1024
  broadcasts_S1x1024_S16x1024 : S1x1024.Broadcasts S16x1024
  hcc0_scratch1 : 2 + S16.numel ≤ 34
  hcc0_scratch2 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S_ : Shape := ⟨0, ![]⟩
abbrev S1024 : Shape := ⟨1, ![1024]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x16384, .f32⟩
  | .hbm, ⟨5, _⟩ => ⟨S1024x16384, .f32⟩
  | .hbm, ⟨6, _⟩ => ⟨S1024x16384, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x16384, .f32⟩
  | .hbm, ⟨11, _⟩ => ⟨S1024x16384, .f32⟩
  | .hbm, ⟨12, _⟩ => ⟨S1024x16384, .bf16⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S1024x16384_S1024_d1 : S1024x16384.ReducesTo [1] S1024
  h_S_ : 0 < S_.numel
  bcast_S1024_S1024x1_0 : S1024.BroadcastsInDim S1024x1 (![0] : Fin 1 → Fin S1024x1.rank)
  bcast_S1024x1_S1024x16384_0_1 : S1024x1.BroadcastsInDim S1024x16384 (![0, 1] : Fin 2 → Fin S1024x16384.rank)
  bitsLt_bf16_f32 : FTy.bits .bf16 < FTy.bits .f32

variable [Facts₀]

class Facts : Prop extends Facts₀ where

variable [Facts]
-- ==== Proof.Spec.lean ====
import proofs.«900480_g7700000000000481_dist_softmax_colshard_i_m1024_n1024_v7x_i16_bf16_1_alg».proof.Proof.Gen.KernelIdeal.Skeleton
import Idealize.ShloMosaic.Lib.ValueIdx

/-!
# What each device ends with, as a pure function of all devices' blocks

Device `c` holds the block `X c` (1024 rows, 1024 columns) of the input. Its statistics are the row maxima and the
row sums of `exp (x - rowmax)` of its own block. After the exchange, slot `o` of device `c`'s statistics scratch
holds the statistics of device `c - o` (indices modulo 16); slot `0` is its own. The result block is the local
exponentials rescaled by `exp (m_loc - m_glob) / s_glob`, the global maximum and sum combined from the sixteen slots.
-/

noncomputable section

namespace Cert.KernelIdeal.Spec

open Idealize.ShloMosaic Idealize.ShloMosaic.ValueIdx Cert.KernelIdeal Cert.KernelIdeal.Gen

variable {F : FTy → Type} [FloatOps F]

/-- The statistics scratch of device `c` once every transfer has landed: slot `o` (first coordinate) holds row maxima
    (second coordinate 0) and row sums (second coordinate 1) of the block of device `c - o`. -/
def scrOf (X : Dev nD → Vec F S1024x1024 .f32) (c : Dev nD) : Vec F S16x2x1024 .f32 :=
  fun i => k0_pay6 (X (c - (⟨(i 0).val, (i 0).isLt⟩ : Fin 16))) (ix3 (0 : Fin 1) (⟨(i 1).val, (i 1).isLt⟩ : Fin 2) (⟨(i 2).val, (i 2).isLt⟩ : Fin 1024))

/-- The rectangle of all sixteen slots' maxima, and of their sums. -/
abbrev rMax : Rect S16x2x1024 := Rect.unit (s := S16x2x1024) ![0, 0, 0] S16x1x1024.size inb_S16x2x1024_S16x1x1024_0_0_0
abbrev rSum : Rect S16x2x1024 := Rect.unit (s := S16x2x1024) ![0, 1, 0] S16x1x1024.size inb_S16x2x1024_S16x1x1024_0_1_0

/-- Device `c`'s result block: its own exponentials (rounded to the result's format) times the rescaling factor computed
    from the sixteen slots of its statistics scratch. -/
def outOf (X : Dev nD → Vec F S1024x1024 .f32) (c : Dev nD) : Vec F S1024x1024 .bf16 :=
  k0_pay1 (k0_pay3 (X c))
    ((Memref.whole cc0_scratch0 : Memref sig .tc .vmem S16x2x1024 .f32).view.readAt (Elt F) rMax.toLoadRect (scrOf X c))
    ((Memref.whole cc0_scratch0 : Memref sig .tc .vmem S16x2x1024 .f32).view.readAt (Elt F) rSum.toLoadRect (scrOf X c))
    (k0_pay5 (X c))

end Cert.KernelIdeal.Spec

end
-- ==== Proof.Slots.lean ====
import proofs.«900480_g7700000000000481_dist_softmax_colshard_i_m1024_n1024_v7x_i16_bf16_1_alg».proof.Proof.Spec
import Idealize.ShloMosaic.Lib.Pipeline.Launch
import Idealize.ShloMosaic.Lib.Pipeline.Kit
import Idealize.ShloMosaic.Lib.Tactic

/-!
# The sixteen slots of the statistics scratch

The scratch is a 16 x 2 x 1024 array; slot `k` is the 2 x 1024 sub-array at first coordinate `k`. A transfer reads slot 0
of the sender and writes slot `k` of the receiver. The source slot is read by fifteen transfers at once, so its
ownership is cut into sixteen shares, a leaf of a depth-four binary splitting of the full share for each offset.
-/

noncomputable section

namespace Cert.KernelIdeal.Slots

open Idealize.ShloMosaic Idealize.ShloMosaic.TcCoe Idealize.ShloMosaic.ValueIdx Cert.KernelIdeal Cert.KernelIdeal.Gen
open Idealize.SL Idealize.SL.RA

/-- The whole statistics scratch. -/
abbrev scrM : Memref sig .tc .vmem S16x2x1024 .f32 := Memref.whole cc0_scratch0

theorem inbK (k : Nat) (hk : k < 16) : ∀ a, (![k, 0, 0] : Fin 3 → Nat) a + S1x2x1024.size a ≤ S16x2x1024.size a := by
  intro a; fin_cases a
  · show k + 1 ≤ 16; omega
  · show 0 + 2 ≤ 2; omega
  · show 0 + 1024 ≤ 1024; omega

/-- Slot `k` as a rectangle of the scratch, and as the 2 x 1024 memref a transfer names. -/
abbrev slotR (k : Nat) (hk : k < 16) : Rect S16x2x1024 := Rect.unit (s := S16x2x1024) ![k, 0, 0] S1x2x1024.size (inbK k hk)
abbrev slotM (k : Nat) (hk : k < 16) : Memref sig .tc .vmem S2x1024 .f32 :=
  (scrM.slice (slotR k hk) (fun _ => rfl)).squeeze S2x1024 squeezes_S1x2x1024_S2x1024

/-- The elements of slot `o`. -/
def slotSet (o : Fin 16) : Finset (S16x2x1024.Idx) := (slotM o.val o.isLt).view.set

/-- The send and receive semaphores of offset `k`. -/
abbrev sendSem (k : Nat) (hk : k < 16) : DmaSem sig := ⟨2 + k, by show 2 + k < 34; omega⟩
abbrev recvSem (k : Nat) (hk : k < 16) : DmaSem sig := ⟨18 + k, by show 18 + k < 34; omega⟩

/-- One of sixteen shares: a leaf of the depth-four binary splitting of the full share. -/
def shr (o : Fin 16) : PosShare TreeShare :=
  let h (b : Bool) (q : PosShare TreeShare) : PosShare TreeShare := if b then q.right else q.left
  h (o.val.testBit 0) (h (o.val.testBit 1) (h (o.val.testBit 2) (h (o.val.testBit 3) fullShare)))

end Cert.KernelIdeal.Slots

end
-- ==== Proof.Protocol.lean ====
import proofs.«900480_g7700000000000481_dist_softmax_colshard_i_m1024_n1024_v7x_i16_bf16_1_alg».proof.Proof.Slots
import proofs.«900480_g7700000000000481_dist_softmax_colshard_i_m1024_n1024_v7x_i16_bf16_1_alg».proof.Proof.Gen.KernelIdeal.Launch

/-!
# The exchange protocol

Sixteen devices. Each device signals the barrier semaphore of each of the fifteen others and waits for fifteen units
on its own; then it copies its statistics (slot 0 of its scratch) into slot `o` of device `c + o` for every offset
`o = 1 … 15`, on a send and a receive semaphore of that offset; then it waits for its fifteen arrivals and its fifteen
departures. Every semaphore is a cell with one round. A device's barrier cell has fifteen unit duties, named by the slot
`d` they unlock: duty `d` is paid by device `p + d` and hands over slot `d` of that device's scratch, which is where
`p` will write. A receive cell's one duty hands its owner slot `o` holding the sender's statistics; a send cell's one
duty hands back the share of slot 0 the transfer was reading.
-/

noncomputable section

namespace Cert.KernelIdeal.Proto

open Cert.KernelIdeal Cert.KernelIdeal.Gen Cert.KernelIdeal.Slots Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- Device `d`'s block of the input, as staged. -/
def X (d : Dev nD) : Vec F S1024x1024 .f32 :=
  (win0_0.blk (0 : Fin 1)).view.read (Elt F) (m ((d : Thread nD τ).loc main_arg0))

/-! ## The cells -/

abbrev barS : Sem sig := (SemArray.scalar (sig.barrier 0 rfl) : Sems sig S_).sem
abbrev barCell (c : Dev nD) : GSem nD τ sig := ((c : Thread nD τ), .reg barS)
abbrev sendCell (c : Dev nD) (o : Fin 16) : GSem nD τ sig := ((c : Thread nD τ), .dma (sendSem o.val o.isLt))
abbrev recvCell (c : Dev nD) (o : Fin 16) : GSem nD τ sig := ((c : Thread nD τ), .dma (recvSem o.val o.isLt))

/-- A transfer's credit: the words of one slot. -/
abbrev N : ℕ := (slotM 0 (by decide)).view.dmaCredit
theorem N_pos : 0 < N := View.dmaCredit_pos _ (by decide)

/-- The fifteen offsets. -/
abbrev E : Finset (Fin 16) := Finset.univ.erase 0

/-! ## Contents and payloads -/

/-- Slot `o` of device `c`'s scratch held at share `q` with contents `f`. -/
abbrev slotPts (c : Dev nD) (o : Fin 16) (q : PosShare TreeShare) (f : Buf (Elt F) ((c : Thread nD τ).loc cc0_scratch0)) : sProp 𝕄 :=
  ((c : Thread nD τ).loc cc0_scratch0) ↦[slotSet o]{q} f

instance slotPts_storable (c : Dev nD) (o : Fin 16) (q) (f) : BI.Storable (upEmb : UEmb _ 𝕄) (slotPts (F := F) c o q f) := by
  unfold slotPts; infer_instance

/-- Duty `d` of device `p`'s barrier cell: slot `d` of device `p + d`, at any contents, and that this device has
    reached round 0 of its receive cell of offset `d`. -/
def barPay (p : Dev nD) (d : Fin 16) : sProp 𝕄 :=
  iprop((∃ f, slotPts (p + d) d fullShare f) ∗ reached ER (recvCell (p + d) d) 0)
/-- A receive cell's duty: slot `o` holding what the exchange leaves there. -/
def recvPay (c : Dev nD) (o : Fin 16) : sProp 𝕄 := slotPts c o fullShare (scrOf (X m) c)
/-- A send cell's duty: the share of slot 0 its transfer read. -/
def sendPay (c : Dev nD) (o : Fin 16) : sProp 𝕄 := slotPts c 0 (shr o) (scrOf (X m) c)

/-- The offset of a receive / send semaphore. -/
def offR (q : DmaSem sig) : Fin 16 := ⟨(q.val - 18) % 16, Nat.mod_lt _ (by decide)⟩
def offS (q : DmaSem sig) : Fin 16 := ⟨(q.val - 2) % 16, Nat.mod_lt _ (by decide)⟩

/-- One round, round 0. -/
def sched : Rounds.Schedule (GSem nD τ sig) (Fin 16) 𝕄 where
  duties g r := if r = 0 ∧ g.1.2 = .tc then
      (match g.2 with
        | .reg _ => E
        | .dma q => if (3 ≤ q.val ∧ q.val < 18) ∨ 19 ≤ q.val then {0} else ∅)
    else ∅
  unitless _ := False
  amount g _ _ := match g.2 with
    | .reg _ => 1
    | .dma _ => N
  payload g _ d := match g.2 with
    | .reg _ => barPay g.1.1 d
    | .dma q => if 18 ≤ q.val then recvPay m g.1.1 (offR q) else sendPay m g.1.1 (offS q)
  amount_pos g _ _ _ := by
    cases h : g.2 with
    | reg s => simp only [h]; exact Nat.one_pos
    | dma q => simp only [h]; exact N_pos

instance sched_payload_storable (g : GSem nD τ sig) (r : ℕ) (d : Fin 16) :
    BI.Storable (upEmb : UEmb _ 𝕄) ((sched (F := F) m).payload g r d) := by
  show BI.Storable upEmb (match g.2 with
    | .reg _ => barPay g.1.1 d
    | .dma q => if 18 ≤ q.val then recvPay m g.1.1 (offR q) else sendPay m g.1.1 (offS q))
  unfold barPay recvPay sendPay
  (repeat' split) <;> infer_instance

section Sched
variable (c : Dev nD) (o : Fin 16)

theorem offR_recv : offR (recvSem o.val o.isLt) = o := Fin.ext (by show (18 + o.val - 18) % 16 = o.val; have := o.isLt; omega)
theorem offS_send : offS (sendSem o.val o.isLt) = o := Fin.ext (by show (2 + o.val - 2) % 16 = o.val; have := o.isLt; omega)

theorem duties_bar : (sched (F := F) m).duties (barCell c) 0 = E := by
  dsimp only [sched]; rw [if_pos ⟨rfl, rfl⟩]
theorem duties_send (ho : o ≠ 0) : (sched (F := F) m).duties (sendCell c o) 0 = {0} := by
  dsimp only [sched]; rw [if_pos ⟨rfl, rfl⟩]
  have h1 := o.isLt; have h2 : o.val ≠ 0 := fun h => ho (Fin.ext h)
  exact if_pos (Or.inl ⟨by show 3 ≤ 2 + o.val; omega, by show 2 + o.val < 18; omega⟩)
theorem duties_recv (ho : o ≠ 0) : (sched (F := F) m).duties (recvCell c o) 0 = {0} := by
  dsimp only [sched]; rw [if_pos ⟨rfl, rfl⟩]
  have h1 := o.isLt; have h2 : o.val ≠ 0 := fun h => ho (Fin.ext h)
  exact if_pos (Or.inr (by show 19 ≤ 18 + o.val; omega))
theorem duties_send0 (r : ℕ) : (sched (F := F) m).duties (sendCell c 0) r = ∅ := by
  dsimp only [sched]; split
  · exact if_neg (by decide)
  · rfl
theorem duties_recv0 (r : ℕ) : (sched (F := F) m).duties (recvCell c 0) r = ∅ := by
  dsimp only [sched]; split
  · exact if_neg (by decide)
  · rfl
theorem duties_later (g : GSem nD τ sig) : ∀ r, 1 ≤ r → (sched (F := F) m).duties g r = ∅ :=
  fun r hr => by dsimp only [sched]; rw [if_neg fun h => by omega]

theorem amount_bar (d : Fin 16) : (sched (F := F) m).amount (barCell c) 0 d = 1 := rfl
theorem amount_send (d : Fin 16) : (sched (F := F) m).amount (sendCell c o) 0 d = N := rfl
theorem amount_recv (d : Fin 16) : (sched (F := F) m).amount (recvCell c o) 0 d = N := rfl

theorem expect_bar : (sched (F := F) m).expect (barCell c) 0 = 15 := by
  unfold Schedule.expect Schedule.amountOf
  rw [duties_bar, Finset.sum_congr rfl fun d _ => amount_bar m c d, Finset.sum_const, smul_eq_mul, Nat.mul_one]; decide
theorem expect_send (ho : o ≠ 0) : (sched (F := F) m).expect (sendCell c o) 0 = N := by
  unfold Schedule.expect Schedule.amountOf; rw [duties_send m c o ho, Finset.sum_singleton, amount_send]
theorem expect_recv (ho : o ≠ 0) : (sched (F := F) m).expect (recvCell c o) 0 = N := by
  unfold Schedule.expect Schedule.amountOf; rw [duties_recv m c o ho, Finset.sum_singleton, amount_recv]

theorem payload_bar (d : Fin 16) : (sched (F := F) m).payload (barCell c) 0 d = barPay c d := rfl
theorem payload_send (d : Fin 16) : (sched (F := F) m).payload (sendCell c o) 0 d = sendPay m c o := by
  dsimp only [sched]; rw [if_neg (by show ¬ 18 ≤ 2 + o.val; have := o.isLt; omega), offS_send]
theorem payload_recv (d : Fin 16) : (sched (F := F) m).payload (recvCell c o) 0 d = recvPay m c o := by
  dsimp only [sched]; rw [if_pos (by show 18 ≤ 18 + o.val; omega), offR_recv]

/-- The rest of the barrier cell's round, nothing taken: every slot this device will write. -/
theorem rest_bar : bigSep ((sched (F := F) m).duties (barCell c) 0 \ ∅) (fun d => (sched (F := F) m).payload (barCell c) 0 d) = bigSep E (fun d => barPay c d) := by
  rw [Finset.sdiff_empty, duties_bar]; rfl
theorem rest_send (ho : o ≠ 0) : bigSep ((sched (F := F) m).duties (sendCell c o) 0 \ ∅) (fun d => (sched (F := F) m).payload (sendCell c o) 0 d) = sendPay m c o := by
  rw [Finset.sdiff_empty, duties_send m c o ho, bigSep_singleton, payload_send]
theorem rest_recv (ho : o ≠ 0) : bigSep ((sched (F := F) m).duties (recvCell c o) 0 \ ∅) (fun d => (sched (F := F) m).payload (recvCell c o) 0 d) = recvPay m c o := by
  rw [Finset.sdiff_empty, duties_recv m c o ho, bigSep_singleton, payload_recv]

end Sched

/-! ## What each device owes at launch; the levels -/

/-- The arrival credits device `c` still owes, offsets `S`; and the barrier units, slots `S` (the unit for slot `k` goes
    to device `c - k`). -/
def owedR (c : Dev nD) (S : Finset (Fin 16)) : CellTallies nD τ sig Unit := ∑ o ∈ S, tallyAt (recvCell (c + o) o) () N
def owedB (c : Dev nD) (S : Finset (Fin 16)) : CellTallies nD τ sig Unit := ∑ k ∈ S, tallyAt (barCell (c - k)) () 1
def O₀ (c : Dev nD) : CellTallies nD τ sig Unit := owedR c E + owedB c E

theorem owedB_erase (c : Dev nD) {S : Finset (Fin 16)} {k : Fin 16} (hk : k ∈ S) (R : CellTallies nD τ sig Unit) :
    R + owedB c S = (R + owedB c (S.erase k)) + tallyAt (barCell (c - k)) () 1 := by
  unfold owedB; rw [← Finset.sum_erase_add S _ hk, add_assoc]
theorem owedR_erase (c : Dev nD) {S : Finset (Fin 16)} {o : Fin 16} (ho : o ∈ S) :
    owedR c S = owedR c (S.erase o) + tallyAt (recvCell (c + o) o) () N := by
  unfold owedR; rw [← Finset.sum_erase_add S _ ho]
theorem owedB_empty (c : Dev nD) : owedB c ∅ = 0 := Finset.sum_empty
theorem owedR_empty (c : Dev nD) : owedR c ∅ = 0 := Finset.sum_empty

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {S : Finset (Fin 16)} {g : GSem nD τ sig} {u : Unit} (h : 0 < owedR c S g u) :
    ∃ o ∈ S, g = recvCell (c + o) o := by
  obtain ⟨o, ho, h⟩ := Pipeline.sum_pos_exists h
  refine ⟨o, ho, ?_⟩
  rw [tallyAt_apply] at h
  by_contra hn
  rw [if_neg (fun h' => hn h'.1)] at h
  exact Nat.lt_irrefl 0 h
theorem owedB_pos {c : Dev nD} {S : Finset (Fin 16)} {g : GSem nD τ sig} {u : Unit} (h : 0 < owedB c S g u) :
    ∃ k ∈ S, g = barCell (c - k) := by
  obtain ⟨o, ho, h⟩ := Pipeline.sum_pos_exists h
  refine ⟨o, ho, ?_⟩
  rw [tallyAt_apply] at h
  by_contra hn
  rw [if_neg (fun h' => hn h'.1)] at h
  exact Nat.lt_irrefl 0 h

theorem lv_recv (c : Dev nD) (o : Fin 16) (u : Unit) : lv (recvCell c o) u = 2 := by
  dsimp only [lv]; exact if_pos (by show 18 ≤ 18 + o.val; omega)
theorem lv_bar (c : Dev nD) (u : Unit) : lv (barCell c) u = 1 := rfl

/-- A wait on a cell at level 0 (a staging or a send semaphore) while owing at most the launch tallies. -/
theorem mayWait_low (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) (fun g u hg => ?_)
    have hl : lv ((c : Thread nD τ), SemLoc.dma q) () = 0 := by dsimp only [lv]; exact if_neg (by omega)
    rw [hl]
    unfold O₀ at hg
    rcases Pipeline.add_pos_cases hg with h | h
    · obtain ⟨o, _, rfl⟩ := owedR_pos h
      exact ⟨by rw [L_tc]; exact Finset.mem_singleton_self _, by rw [lv_recv]; decide⟩
    · obtain ⟨k, _, rfl⟩ := owedB_pos h
      exact ⟨by rw [L_tc]; exact Finset.mem_singleton_self _, by rw [lv_bar]; decide⟩
  · rw [MayWait_zero]; iintro -; iempintro

/-- At its barrier wait a device owes arrival credits only: receive cells, above its barrier cell. -/
theorem mayWait_bar (c : Dev nD) (S : Finset (Fin 16)) :
    (levAts L lv : sProp 𝕄) ⊢ MayWait (c : Thread nD τ) (.reg barS) () (owedR c S) :=
  Pipeline.mayWait_of_levAts (by rw [L_tc]; exact Finset.mem_singleton_self _) (fun g u hg => by
    obtain ⟨o, _, rfl⟩ := owedR_pos hg
    exact ⟨by rw [L_tc]; exact Finset.mem_singleton_self _, by rw [lv_recv]; show (1 : ℕ) < 2; decide⟩)

end Cert.KernelIdeal.Proto

end
-- ==== Proof.Ghost.lean ====
import proofs.«900480_g7700000000000481_dist_softmax_colshard_i_m1024_n1024_v7x_i16_bf16_1_alg».proof.Proof.Protocol

/-!
# The ghost state a device starts from, and the pipeline's proof data

Every cell's invariant and the fact that round 0 of every cell is reached are persistent records all devices share.
What stays with one device: its positions in its own thirty-three cells, and the tokens of the duties it pays — for each
slot `k` the barrier duty `k` of device `c - k`, and for each offset `o` the arrival duty of device `c + o` and its own
departure duty.
-/

noncomputable section

namespace Cert.KernelIdeal.Proto

open Cert.KernelIdeal Cert.KernelIdeal.Gen Cert.KernelIdeal.Slots Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, indexed: the barrier, or (departure / arrival, offset) -/

abbrev CI : Type := Unit ⊕ (Fin 16 ⊕ Fin 16)
abbrev csem : CI → SemLoc sig
  | .inl _ => .reg barS
  | .inr (.inl o) => .dma (sendSem o.val o.isLt)
  | .inr (.inr o) => .dma (recvSem o.val o.isLt)
abbrev kcell (ck : Dev nD × CI) : GSem nD τ sig := ((ck.1 : Thread nD τ), csem ck.2)
/-- The kernel's own (scoped) semaphores: all but the barrier. -/
abbrev osem : Fin 16 ⊕ Fin 16 → SemLoc sig := fun j => csem (.inr j)

def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) :
    records m K ⊢ cellInv ER (sched m) (K ck) (kcell ck) := by
  unfold records; exact (BI.sep_and.trans BI.and_elimL).trans (bigSep_elim (Finset.mem_univ ck))
theorem reached_at (K : Dev nD × CI → ℕ) (ck : Dev nD × CI) :
    records m K ⊢ (reached ER (kcell ck) 0 : sProp 𝕄) := by
  unfold records; exact (BI.sep_and.trans BI.and_elimR).trans (bigSep_elim (Finset.mem_univ ck))

/-- The tokens device `c` pays with. -/
def tokB (c : Dev nD) (k : Fin 16) : sProp 𝕄 := dutyTok ER (barCell (c - k)) 0 k
def tokR (c : Dev nD) (o : Fin 16) : sProp 𝕄 := dutyTok ER (recvCell (c + o) o) 0 0
def tokS (c : Dev nD) (o : Fin 16) : sProp 𝕄 := dutyTok ER (sendCell c o) 0 0

def payToks (c : Dev nD) : sProp 𝕄 :=
  iprop((bigSep E fun k => tokB c k) ∗ (bigSep E fun o => tokR c o) ∗ bigSep E fun o => tokS c o)
def positions (c : Dev nD) : sProp 𝕄 := bigSep Finset.univ fun j : CI => atPos ER (kcell (c, j)) 0 ∅ 0
def linear (c : Dev nD) : sProp 𝕄 := iprop(positions c ∗ payToks c)
def ghost (K : Dev nD × CI → ℕ) (c : Dev nD) : sProp 𝕄 := iprop(records m K ∗ linear c)

/-- What device `c`'s body starts from: the ghost state at some names, the credit tokens for its waits on what others
    pay (fifteen barrier units, fifteen arrivals), and the level facts. -/
def start (c : Dev nD) : sProp 𝕄 :=
  iprop((∃ K, ghost m K c) ∗ cred (tallyAt (barCell c) () 15) ∗ (bigSep E fun o => cred (tallyAt (recvCell c o) () N)) ∗ levAts L lv)

/-- The whole scratch of device `c` at contents `f`. -/
def scrPts (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m c ∗ ∃ f, scrPts c f)
/-- After the body: the scratch holding every device's statistics, the thirty-two own cells closed at zero. -/
def Φ₁ (c : Dev nD) : sProp 𝕄 :=
  iprop(scrPts c (scrOf (X m) c) ∗ bigSep Finset.univ fun j : Fin 16 ⊕ Fin 16 => semVal (kcell (c, .inr j)) 0)

/-- The result block on device `c`. -/
def outAt (c : Dev nD) : (cc0_stg1_0 : Ref sig .tc).ty.Contents (Elt F) := outOf (X m) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.Steps.lean ====
import proofs.«900480_g7700000000000481_dist_softmax_colshard_i_m1024_n1024_v7x_i16_bf16_1_alg».proof.Proof.Ghost

/-!
# One rule per kind of step of the body

Each phase of the body (fifteen signals; fifteen transfers; fifteen waits for arrivals; fifteen waits for departures)
keeps what it still has to spend as one assertion indexed by the offsets, an entry being either "still to do" or "done";
a step moves one offset from the first form to the second. The set `S` of offsets still to do is read off the assertion
held, so the side conditions on it come last, as a pure conjunct.
-/

noncomputable section

namespace Cert.KernelIdeal.Proto

open Cert.KernelIdeal Cert.KernelIdeal.Gen Cert.KernelIdeal.Slots Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Moving one index of a family from "to do" to "done" -/

theorem bigSep_take {I : Type} [DecidableEq I] {S : Finset I} {Φ : I → sProp 𝕄} {o : I} (ho : o ∈ S) :
    bigSep S Φ = iprop(Φ o ∗ bigSep (S.erase o) Φ) := by
  rw [bigSep_erase ho]; rfl

theorem phase_take {I : Type} [DecidableEq I] {T S : Finset I} {A B : I → sProp 𝕄} {o : I} (hoT : o ∈ T) (ho : o ∈ S) :
    bigSep T (fun i => if i ∈ S then A i else B i) = iprop(A o ∗ bigSep (T.erase o) (fun i => if i ∈ S then A i else B i)) := by
  rw [bigSep_erase hoT, if_pos ho]; rfl

theorem phase_put {I : Type} [DecidableEq I] {T S : Finset I} {A B : I → sProp 𝕄} {o : I} (hoT : o ∈ T) :
    iprop(B o ∗ bigSep (T.erase o) (fun i => if i ∈ S then A i else B i)) = bigSep T (fun i => if i ∈ S.erase o then A i else B i) := by
  rw [bigSep_erase hoT (Φ := fun i => if i ∈ S.erase o then A i else B i), if_neg (Finset.notMem_erase o S)]
  show BI.sep (B o) _ = BI.sep (B o) _
  congr 1
  exact bigSep_congr fun i hi => by
    have hne : i ≠ o := (Finset.mem_erase.mp hi).1
    by_cases h : i ∈ S
    · rw [if_pos h, if_pos (Finset.mem_erase.mpr ⟨hne, h⟩)]
    · rw [if_neg h, if_neg (fun h' => h (Finset.mem_erase.mp h').2)]

theorem phase_done {I : Type} [DecidableEq I] {T S : Finset I} {A B : I → sProp 𝕄} (hS : S = ∅) :
    bigSep T (fun i => if i ∈ S then A i else B i) = bigSep T B := by
  subst hS; exact bigSep_congr fun i _ => if_neg (Finset.notMem_empty i)

theorem phase_all {I : Type} [DecidableEq I] {T : Finset I} {A B : I → sProp 𝕄} :
    bigSep T A = bigSep T (fun i => if i ∈ T then A i else B i) :=
  bigSep_congr fun i hi => (if_pos hi).symm

section Steps
variable (K : Dev nD × CI → ℕ)

/-! ## A signal -/

/-- What the signal for slot `k` spends: its token and the slot it hands over. -/
def sigRes (c : Dev nD) (k : Fin 16) : sProp 𝕄 := iprop(tokB c k ∗ ∃ f, slotPts c k fullShare f)

theorem sig_step (c n : Dev nD) (k : Fin 16) (hn : n = c - k) {S : Finset (Fin 16)}
    (R : CellTallies nD τ sig Unit) (W : Waits sig Unit) {n1 : ℕ} (hn1 : n1 = 1)
    {α : Type} {Q : α → sProp 𝕄} {k' : PUnit → Prog (TpuEff nD τ sig (Elt F) Λ₀ .tc) α} :
    iprop(records m K ∗ owes (c : Thread nD τ) (R + owedB c S) W ∗ bigSep S (sigRes c) ∗ ⌜k ∈ S ∧ S ⊆ E⌝)
      ⊢ iprop(((owes (c : Thread nD τ) (R + owedB c (S.erase k)) W ∗ bigSep (S.erase k) (sigRes c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) barS n1) k') Q) := by
  subst hn hn1
  iintro ⟨#HR, HO, Hst, %h⟩ Hk
  obtain ⟨hk, hS⟩ := h
  ihave Hst := (Entails.of_eq (bigSep_take hk)) $$ Hst
  unfold sigRes tokB
  icases Hst with ⟨⟨Htok, ⟨%f, Hs⟩⟩, Hrest⟩
  iapply (Rounds.wp_signal 𝒱₀ ER (sched m) (c : Thread nD τ) none (dst := ((c - k : Dev nD) : Thread nD τ)) (κ := K (c - k, .inl ()))
      (d := k) (by rw [duties_bar]; exact hS hk) (amount_bar m (c - k) k) () (R + owedB c (S.erase k)) (owedB_erase c hk R)) $$ [HO Htok Hs]
  · isplitr; · iapply (inv_at m K (c - k, .inl ())); iexact HR
    isplitl [HO]; · iexact HO
    isplitl [Htok]; · iexact Htok
    isplitl [Hs]
    · rw [payload_bar]; unfold barPay; rw [sub_add_cancel]
      isplitl [Hs]; · iexists f; iexact Hs
      iapply (reached_at m K (c, .inr (.inr k))); iexact HR
    · iapply (reached_at m K (c - k, .inl ())); iexact HR
  iintro HO
  iapply Hk
  isplitl [HO]; · iexact HO
  iexact Hrest

theorem sig_done (c : Dev nD) {S : Finset (Fin 16)} (R : CellTallies nD τ sig Unit) (W : Waits sig Unit) :
    iprop(owes (c : Thread nD τ) (R + owedB c S) W ∗ ⌜S = ∅⌝) ⊢ (owes (c : Thread nD τ) R W : sProp 𝕄) := by
  iintro ⟨HO, %h⟩
  subst h
  rw [owedB_empty, add_zero]
  iexact HO

/-! ## The barrier wait -/

theorem wait_bar_step (c : Dev nD) (S : Finset (Fin 16)) (W : Waits sig Unit) {n15 : ℕ} (h15 : n15 = 15)
    {α : Type} {Q : α → sProp 𝕄} {k' : PUnit → Prog (TpuEff nD τ sig (Elt F) Λ₀ .tc) α} :
    iprop(records m K ∗ cred (tallyAt (barCell c) () 15) ∗ owes (c : Thread nD τ) (owedR c S) W ∗ levAts L lv ∗ atPos ER (barCell c) 0 ∅ 0)
      ⊢ iprop(((owes (c : Thread nD τ) (owedR c S) (insert (SemLoc.reg barS, ()) W) ∗ atPos ER (barCell c) 1 ∅ 0 ∗ bigSep E (fun d => barPay c d))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS n15) k') Q) := by
  subst h15
  iintro ⟨#HR, Hc, HO, #Hlev, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := owedR c S) (W := W) (R := 0) (m := 0) (T := ∅)
      (by rw [expect_bar])) $$ [Hc HO Hat]
  · isplitr; · iapply (inv_at m K (c, .inl ())); iexact HR
    isplitl [Hc]; · iexact Hc
    isplitl [HO]; · iexact HO
    isplitr; · iapply (mayWait_bar c S); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## A transfer -/

/-- What the transfer of offset `o` spends: the arrival token of the target's cell, its own departure token, the target's
    slot (what the barrier's duty `o` handed over) and a share of its own statistics. -/
def sendRes (c : Dev nD) (o : Fin 16) : sProp 𝕄 :=
  iprop(tokR c o ∗ tokS c o ∗ barPay c o ∗ slotPts c 0 (shr o) (scrOf (X m) c))

theorem send_step (c n : Dev nD) (k : ℕ) (hk : k < 16) (hn : n = c + (⟨k, hk⟩ : Fin 16)) {S : Finset (Fin 16)}
    (W : Waits sig Unit)
    (hland : ∀ fd : Buf (Elt F) (((c + (⟨k, hk⟩ : Fin 16) : Dev nD) : Thread nD τ).loc cc0_scratch0), ∀ i ∈ slotSet (⟨k, hk⟩ : Fin 16),
      (slotM k hk).view.write (Elt F) fd ((slotM 0 (Nat.zero_lt_succ 15)).view.read (Elt F) (scrOf (X m) c)) Finset.univ i = scrOf (X m) (c + (⟨k, hk⟩ : Fin 16)) i)
    {hsc : (slotM k hk : Memref sig (Dev.tc n : Thread nD τ).2.kind .vmem S2x1024 .f32).view.ref.isScScratch = false}
    {hsrc : (slotM 0 (Nat.zero_lt_succ 15) : Memref sig .tc .vmem S2x1024 .f32).view.WordExact} {hdst : (slotM k hk : Memref sig .tc .vmem S2x1024 .f32).view.WordExact}
    {hsem : DmaTarget.Typed .vmem (.dma (recvSem k hk)) (.remote (Dev.tc n : Thread nD τ) (slotM k hk : Memref sig .tc .vmem S2x1024 .f32) (.dma (sendSem k hk)) hsc)}
    {α : Type} {Q : α → sProp 𝕄} {k' : PUnit → Prog (TpuEff nD τ sig (Elt F) Λ₀ .tc) α} :
    iprop(records m K ∗ owes (c : Thread nD τ) (owedR c S) W
        ∗ bigSep E (fun o => if o ∈ S then sendRes m c o else cred (tallyAt (sendCell c o) () N)) ∗ ⌜(⟨k, hk⟩ : Fin 16) ∈ S ∧ S ⊆ E⌝)
      ⊢ iprop(((owes (c : Thread nD τ) (owedR c (S.erase ⟨k, hk⟩)) W
              ∗ bigSep E (fun o => if o ∈ S.erase ⟨k, hk⟩ then sendRes m c o else cred (tallyAt (sendCell c o) () N)))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (slotM 0 (Nat.zero_lt_succ 15)) (.remote (Dev.tc n : Thread nD τ) (slotM k hk) (.dma (sendSem k hk)) hsc) (.dma (recvSem k hk)) hsrc hdst hsem) k') Q) := by
  subst hn
  iintro ⟨#HR, HO, Hst, %h⟩ Hk
  obtain ⟨ho, hS⟩ := h
  ihave Hst := (Entails.of_eq (phase_take (hS ho) ho)) $$ Hst
  unfold sendRes tokR tokS barPay
  icases Hst with ⟨⟨HtR, HtS, ⟨⟨%fd, Hd⟩, #Hreach⟩, Hsrc⟩, Hrest⟩
  unfold slotPts slotSet
  iapply (Rounds.wp_send_pointsTo 𝒱₀ ER (sched m) (c : Thread nD τ) none (src := slotM 0 (Nat.zero_lt_succ 15)) (dst := slotM k hk)
      (c' := ((c + (⟨k, hk⟩ : Fin 16) : Dev nD) : Thread nD τ)) (q := shr ⟨k, hk⟩) (fs := scrOf (X m) c) (fd := fd)
      (κ₁ := K (c, .inr (.inl ⟨k, hk⟩))) (κ₂ := K (c + (⟨k, hk⟩ : Fin 16), .inr (.inr ⟨k, hk⟩)))
      (r₁ := 0) (r₂ := 0) (d₁ := 0) (d₂ := 0)
      (by rw [duties_send m c ⟨k, hk⟩ (Finset.ne_of_mem_erase (hS ho))]; exact Finset.mem_singleton_self _)
      (by rw [duties_recv m (c + (⟨k, hk⟩ : Fin 16)) ⟨k, hk⟩ (Finset.ne_of_mem_erase (hS ho))]; exact Finset.mem_singleton_self _)
      () () N rfl (amount_send m c ⟨k, hk⟩ 0) (amount_recv m (c + (⟨k, hk⟩ : Fin 16)) ⟨k, hk⟩ 0) (owedR c (S.erase ⟨k, hk⟩)) (owedR_erase c ho) (W := W)
      (Entails.of_eq (by rw [payload_send]; rfl))
      (Entails.of_eq (by rw [payload_recv]; unfold recvPay slotPts; exact pointsTo_congr (hland fd)))) $$ [HO HtR HtS Hd Hsrc]
  · isplitr; · iapply (inv_at m K (c, .inr (.inl ⟨k, hk⟩))); iexact HR
    isplitr; · iapply (inv_at m K (c + (⟨k, hk⟩ : Fin 16), .inr (.inr ⟨k, hk⟩))); iexact HR
    isplitl [Hsrc]; · iexact Hsrc
    isplitl [Hd]; · iexact Hd
    isplitl [HO]; · iexact HO
    isplitl [HtS]; · iexact HtS
    isplitr; · iapply (reached_at m K (c, .inr (.inl ⟨k, hk⟩))); iexact HR
    isplitl [HtR]; · iexact HtR
    iexact Hreach
  iintro ⟨Hc, HO⟩
  iapply Hk
  isplitl [HO]; · iexact HO
  iapply (Entails.of_eq (phase_put (hS ho)))
  isplitl [Hc]; · iexact Hc
  iexact Hrest

theorem send_done (c : Dev nD) {S : Finset (Fin 16)} (W : Waits sig Unit) :
    iprop(owes (c : Thread nD τ) (owedR c S) W ∗ ⌜S = ∅⌝) ⊢ (owes (c : Thread nD τ) 0 W : sProp 𝕄) := by
  iintro ⟨HO, %h⟩
  subst h
  rw [owedR_empty]
  iexact HO

theorem phase_finish {T S : Finset (Fin 16)} {A B : Fin 16 → sProp 𝕄} :
    iprop(bigSep T (fun i => if i ∈ S then A i else B i) ∗ ⌜S = ∅⌝) ⊢ bigSep T B := by
  iintro ⟨H, %h⟩
  iapply (Entails.of_eq (phase_done h)); iexact H

/-! ## The waits on the transfers' semaphores, each followed by closing the cell -/

/-- An arrival: before the wait its credit token and the position; after it slot `o` holding the sender's statistics, and
    the semaphore closed at zero. A departure likewise, with the share of slot 0 coming back. -/
def recvTodo (c : Dev nD) (o : Fin 16) : sProp 𝕄 := iprop(cred (tallyAt (recvCell c o) () N) ∗ atPos ER (recvCell c o) 0 ∅ 0)
def recvDone (c : Dev nD) (o : Fin 16) : sProp 𝕄 := iprop(recvPay m c o ∗ semVal (recvCell c o) 0)
def sendTodo (c : Dev nD) (o : Fin 16) : sProp 𝕄 := iprop(cred (tallyAt (sendCell c o) () N) ∗ atPos ER (sendCell c o) 0 ∅ 0)
def sendDone (c : Dev nD) (o : Fin 16) : sProp 𝕄 := iprop(sendPay m c o ∗ semVal (sendCell c o) 0)

theorem wait_recv_step (c : Dev nD) (k : ℕ) (hk : k < 16) {S : Finset (Fin 16)}
    (W : Waits sig Unit) {sp' : Space} {s' : Shape} {e' : EltTy}
    {src : Memref sig .tc sp' s' e'} {κ' : Kind} {sp : Space} {s : Shape} {e : EltTy} {dst : Memref sig κ' sp s e} {hsrc : src.view.WordExact} {hdst : dst.view.WordExact}
    (hd : dst.view.dmaCredit = N)
    {α : Type} {Q : α → sProp 𝕄} {k' : PUnit → Prog (TpuEff nD τ sig (Elt F) Λ₀ .tc) α} :
    iprop(records m K ∗ owes (c : Thread nD τ) 0 W ∗ bigSep E (fun o => if o ∈ S then recvTodo c o else recvDone m c o) ∗ ⌜(⟨k, hk⟩ : Fin 16) ∈ S ∧ S ⊆ E⌝)
      ⊢ iprop(((owes (c : Thread nD τ) 0 (insert (SemLoc.dma (recvSem k hk), ()) W)
              ∗ bigSep E (fun o => if o ∈ S.erase ⟨k, hk⟩ then recvTodo c o else recvDone m c o))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (recvSem k hk) src dst hsrc hdst) k') Q) := by
  iintro ⟨#HR, HO, Hst, %h⟩ Hk
  obtain ⟨ho, hS⟩ := h
  ihave Hst := (Entails.of_eq (phase_take (hS ho) ho)) $$ Hst
  unfold recvTodo
  icases Hst with ⟨⟨Hc, Hat⟩, Hrest⟩
  iapply (Rounds.wp_wait_rest_token 𝒱₀ ER (sched m) (c : Thread nD τ) none (κ := K (c, .inr (.inr ⟨k, hk⟩)))
      (wpE_waitDma2_eq 𝒱₀ (c : Thread nD τ) none Set.univ) (Set.mem_univ _) () (O := 0) (W := W) (R := 0) (m := 0) (T := ∅)
      (by rw [Nat.zero_add, expect_recv m c ⟨k, hk⟩ (Finset.ne_of_mem_erase (hS ho)), hd])) $$ [Hc HO Hat]
  · isplitr; · iapply (inv_at m K (c, .inr (.inr ⟨k, hk⟩))); iexact HR
    isplitl [Hc]; · rw [hd]; iexact Hc
    isplitl [HO]; · iexact HO
    isplitr; · rw [MayWait_zero]; iempintro
    iexact Hat
  iintro ⟨HO, Hat, -, Hpay⟩
  ihave Hp := (Entails.of_eq (rest_recv m c ⟨k, hk⟩ (Finset.ne_of_mem_erase (hS ho)))) $$ Hpay
  imod (Rounds.cell_close ER (sched m) (Set.mem_univ (K (c, .inr (.inr ⟨k, hk⟩)))) (fun h => h) (R := 0 + 1) (duties_later m (recvCell c ⟨k, hk⟩))) $$ [Hat] with Hz
  · isplitr; · iapply (inv_at m K (c, .inr (.inr ⟨k, hk⟩))); iexact HR
    iexact Hat
  iapply Hk
  isplitl [HO]; · iexact HO
  iapply (Entails.of_eq (phase_put (hS ho)))
  isplitl [Hp Hz]
  · unfold recvDone; isplitl [Hp]; · iexact Hp
    iexact Hz
  iexact Hrest

theorem wait_send_step (c : Dev nD) (k : ℕ) (hk : k < 16) {S : Finset (Fin 16)}
    (W : Waits sig Unit) {sp' : Space} {s' : Shape} {e' : EltTy}
    {src : Memref sig .tc sp' s' e'} {κ' : Kind} {sp : Space} {s : Shape} {e : EltTy} {dst : Memref sig κ' sp s e} {hsrc : src.view.WordExact} {hdst : dst.view.WordExact}
    (hd : dst.view.dmaCredit = N)
    {α : Type} {Q : α → sProp 𝕄} {k' : PUnit → Prog (TpuEff nD τ sig (Elt F) Λ₀ .tc) α} :
    iprop(records m K ∗ owes (c : Thread nD τ) 0 W ∗ bigSep E (fun o => if o ∈ S then sendTodo c o else sendDone m c o) ∗ ⌜(⟨k, hk⟩ : Fin 16) ∈ S ∧ S ⊆ E⌝)
      ⊢ iprop(((owes (c : Thread nD τ) 0 (insert (SemLoc.dma (sendSem k hk), ()) W)
              ∗ bigSep E (fun o => if o ∈ S.erase ⟨k, hk⟩ then sendTodo c o else sendDone m c o))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (sendSem k hk) src dst hsrc hdst) k') Q) := by
  iintro ⟨#HR, HO, Hst, %h⟩ Hk
  obtain ⟨ho, hS⟩ := h
  ihave Hst := (Entails.of_eq (phase_take (hS ho) ho)) $$ Hst
  unfold sendTodo
  icases Hst with ⟨⟨Hc, Hat⟩, Hrest⟩
  iapply (Rounds.wp_wait_rest_token 𝒱₀ ER (sched m) (c : Thread nD τ) none (κ := K (c, .inr (.inl ⟨k, hk⟩)))
      (wpE_waitDma2_eq 𝒱₀ (c : Thread nD τ) none Set.univ) (Set.mem_univ _) () (O := 0) (W := W) (R := 0) (m := 0) (T := ∅)
      (by rw [Nat.zero_add, expect_send m c ⟨k, hk⟩ (Finset.ne_of_mem_erase (hS ho)), hd])) $$ [Hc HO Hat]
  · isplitr; · iapply (inv_at m K (c, .inr (.inl ⟨k, hk⟩))); iexact HR
    isplitl [Hc]; · rw [hd]; iexact Hc
    isplitl [HO]; · iexact HO
    isplitr; · rw [MayWait_zero]; iempintro
    iexact Hat
  iintro ⟨HO, Hat, -, Hpay⟩
  ihave Hp := (Entails.of_eq (rest_send m c ⟨k, hk⟩ (Finset.ne_of_mem_erase (hS ho)))) $$ Hpay
  imod (Rounds.cell_close ER (sched m) (Set.mem_univ (K (c, .inr (.inl ⟨k, hk⟩)))) (fun h => h) (R := 0 + 1) (duties_later m (sendCell c ⟨k, hk⟩))) $$ [Hat] with Hz
  · isplitr; · iapply (inv_at m K (c, .inr (.inl ⟨k, hk⟩))); iexact HR
    iexact Hat
  iapply Hk
  isplitl [HO]; · iexact HO
  iapply (Entails.of_eq (phase_put (hS ho)))
  isplitl [Hp Hz]
  · unfold sendDone; isplitl [Hp]; · iexact Hp
    iexact Hz
  iexact Hrest

/-- The two cells of offset 0 carry no duty: their owner closes them where it stands. -/
theorem close_send0 (c : Dev nD) : iprop(records m K ∗ atPos ER (sendCell c 0) 0 ∅ 0) ⊢ iprop(|={Set.univ}=> semVal (sendCell c 0) 0) := by
  iintro ⟨#HR, Hat⟩
  iapply (Rounds.cell_close ER (sched m) (Set.mem_univ (K (c, .inr (.inl 0)))) (fun h => h) (R := 0) (fun r _ => duties_send0 m c r))
  isplitr; · iapply (inv_at m K (c, .inr (.inl 0))); iexact HR
  iexact Hat
theorem close_recv0 (c : Dev nD) : iprop(records m K ∗ atPos ER (recvCell c 0) 0 ∅ 0) ⊢ iprop(|={Set.univ}=> semVal (recvCell c 0) 0) := by
  iintro ⟨#HR, Hat⟩
  iapply (Rounds.cell_close ER (sched m) (Set.mem_univ (K (c, .inr (.inr 0)))) (fun h => h) (R := 0) (fun r _ => duties_recv0 m c r))
  isplitr; · iapply (inv_at m K (c, .inr (.inr 0))); iexact HR
  iexact Hat

end Steps

end Cert.KernelIdeal.Proto

end
-- ==== Proof.Views.lean ====
import proofs.«900480_g7700000000000481_dist_softmax_colshard_i_m1024_n1024_v7x_i16_bf16_1_alg».proof.Proof.Slots

/-!
# Elements and contents of the sixteen slots

Slot `o` of the 16 x 2 x 1024 statistics scratch is the set of elements whose first coordinate is `o`. The sixteen
slots are pairwise disjoint and cover the scratch, so the ownership of the scratch is the separating conjunction of the
ownerships of its slots; the ownership of any set of elements at the full share is the separating conjunction of sixteen
leaf shares of it. A transfer out of slot 0 of one scratch into slot `k` of another leaves, at position `(k, a, b)`,
the source's element at `(0, a, b)`.
-/

noncomputable section

namespace Cert.KernelIdeal.Views

open Idealize.ShloMosaic Idealize.ShloMosaic.TcCoe Idealize.ShloMosaic.ValueIdx Cert.KernelIdeal Cert.KernelIdeal.Gen
open Cert.KernelIdeal.Slots
open Idealize.SL Idealize.SL.RA Idealize.SL.BI
open scoped Idealize.SL.BI
open Idealize.SL.BI.BIBase Idealize.SL.BI.Laws

variable {F : FTy → Type} [FloatOps F] {Ix : Type} [DecidableEq Ix] {Name : Type} [DecidableEq Name] {U : Type} [URA U]
  {Lvl : Type}

local notation "𝕄" => MT nD τ sig Ix (Elt F) Name U Lvl

/-- The elements of slot `o` are those of the rectangle at first coordinate `o`. -/
theorem slotSet_eq (o : Fin 16) : slotSet o = (slotR o.val o.isLt).set := by
  unfold slotSet
  simp only [Memref.view_squeeze, Memref.view_slice, Memref.view_whole, View.set_reshape, View.set_slice_whole]

/-- An element is in slot `o` exactly when its first coordinate is `o`. -/
theorem mem_slotSet {o : Fin 16} {i : S16x2x1024.Idx} : i ∈ slotSet o ↔ (i 0).val = o.val := by
  rw [slotSet_eq, Rect.mem_set_unit]
  constructor
  · intro h
    have h0 := h 0
    simp only [Matrix.cons_val_zero] at h0
    have : S1x2x1024.size 0 = 1 := rfl
    omega
  · intro h a
    match a with
    | ⟨0, _⟩ =>
      show o.val ≤ (i 0).val ∧ (i 0).val < o.val + 1
      omega
    | ⟨1, _⟩ =>
      have h1 : (i 1).val < 2 := (i 1).isLt
      show 0 ≤ (i 1).val ∧ (i 1).val < 0 + 2
      omega
    | ⟨2, _⟩ =>
      have h2 : (i 2).val < 1024 := (i 2).isLt
      show 0 ≤ (i 2).val ∧ (i 2).val < 0 + 1024
      omega

/-- Distinct slots have no element in common. -/
theorem slotSet_disjoint (o o' : Fin 16) (h : o ≠ o') : Disjoint (slotSet o) (slotSet o') := by
  rw [Finset.disjoint_left]
  intro i hi hi'
  rw [mem_slotSet] at hi hi'
  exact h (Fin.ext (hi.symm.trans hi'))

/-- The sixteen slots cover the scratch. -/
theorem biUnion_slotSet : (Finset.univ : Finset (Fin 16)).biUnion slotSet = Finset.univ := by
  ext i
  simp only [Finset.mem_biUnion, Finset.mem_univ, true_and, iff_true]
  exact ⟨⟨(i 0).val, (i 0).isLt⟩, mem_slotSet.mpr rfl⟩

/-- The ownership of the whole scratch is the separating conjunction of the ownerships of its sixteen slots. -/
theorem scr_split (c : Dev nD) (q : PosShare TreeShare) (f : Buf (Elt F) ((c : Thread nD τ).loc cc0_scratch0)) :
    (((c : Thread nD τ).loc cc0_scratch0) ↦{q} f : sProp 𝕄)
      = bigSep Finset.univ (fun o : Fin 16 => ((c : Thread nD τ).loc cc0_scratch0) ↦[slotSet o]{q} f) := by
  have h := pointsTo_biUnion (nD := nD) (τ := τ) (sig := sig) (Ix := Ix) (Val := Elt F) (Name := Name) (U := U) (Lvl := Lvl)
    (ℓ := ((c : Thread nD τ).loc cc0_scratch0)) (q := q) (f := f) (Finset.univ : Finset (Fin 16)) slotSet
    (fun o _ o' _ hne => slotSet_disjoint o o' hne)
  rw [biUnion_slotSet] at h
  exact h

/-- Where the element `(a, b)` of slot `k`, seen as a 2 x 1024 array, sits in the scratch: at `(k, a, b)`. -/
theorem slotM_emb (k : Nat) (hk : k < 16) (a : Fin 2) (b : Fin 1024) :
    (slotM k hk).view.emb (ix2 a b) = ix3 (⟨k, hk⟩ : Fin 16) a b := by
  show (slotR k hk).emb (Shape.reshapeEquiv (squeezes_S1x2x1024_S2x1024).numel_eq (ix2 a b)) = _
  rw [Shape.reshapeEquiv_cons_one (n := 2) (d := ![2, 1024])]
  funext x
  apply Fin.ext
  match x with
  | ⟨0, _⟩ => show k + 1 * 0 = k; omega
  | ⟨1, _⟩ => show 0 + 1 * a.val = a.val; omega
  | ⟨2, _⟩ => show 0 + 1 * b.val = b.val; omega

/-- Every element of slot `k` is `(k, a, b)` for some position `(a, b)`. -/
theorem exists_of_mem_slotSet {k : Nat} {hk : k < 16} {i : S16x2x1024.Idx} (hi : i ∈ slotSet ⟨k, hk⟩) :
    ∃ (a : Fin 2) (b : Fin 1024), i = ix3 (⟨k, hk⟩ : Fin 16) a b := by
  have h0 : (i 0).val = k := mem_slotSet.mp hi
  refine ⟨⟨(i 1).val, (i 1).isLt⟩, ⟨(i 2).val, (i 2).isLt⟩, ?_⟩
  funext x
  apply Fin.ext
  match x with
  | ⟨0, _⟩ => exact h0
  | ⟨1, _⟩ => rfl
  | ⟨2, _⟩ => rfl

/-- What a transfer out of slot 0 of a scratch holding `fs` into slot `k` of a scratch holding `fd` leaves at an element
    of slot `k`: the source's element at the same position of slot 0. -/
theorem landed_at (c c' : Dev nD) (k : Nat) (hk : k < 16)
    (fd : Buf (Elt F) ((c' : Thread nD τ).loc cc0_scratch0)) (fs : Buf (Elt F) ((c : Thread nD τ).loc cc0_scratch0)) :
    ∀ i ∈ slotSet ⟨k, hk⟩,
      (slotM k hk).view.write (Elt F) fd ((slotM 0 (Nat.zero_lt_succ 15)).view.read (Elt F) fs) Finset.univ i
        = fs (ix3 (0 : Fin 16) (⟨(i 1).val, (i 1).isLt⟩ : Fin 2) (⟨(i 2).val, (i 2).isLt⟩ : Fin 1024)) := by
  intro i hi
  obtain ⟨a, b, rfl⟩ := exists_of_mem_slotSet hi
  show (slotM k hk).view.write (Elt F) fd ((slotM 0 (Nat.zero_lt_succ 15)).view.read (Elt F) fs) Finset.univ
      (ix3 (⟨k, hk⟩ : Fin 16) a b) = fs (ix3 (0 : Fin 16) a b)
  refine (congrArg ((slotM k hk).view.write (Elt F) fd ((slotM 0 (Nat.zero_lt_succ 15)).view.read (Elt F) fs) Finset.univ)
    (slotM_emb k hk a b).symm).trans ?_
  refine (View.write_emb_of_mem (v := (slotM k hk).view) (Val := Elt F) fd
    ((slotM 0 (Nat.zero_lt_succ 15)).view.read (Elt F) fs) (M := Finset.univ) (x := ix2 a b) (Finset.mem_univ _)).trans ?_
  refine (cast_eq _ _).trans ((View.read_apply _ _).trans ((cast_eq _ _).trans ?_))
  exact congrArg fs (slotM_emb 0 (Nat.zero_lt_succ 15) a b)

/-! ## Sixteen leaf shares of the full share -/

/-- One step down the binary splitting of a share: its right half for `true`, its left half for `false`. -/
def half (b : Bool) (q : PosShare TreeShare) : PosShare TreeShare := if b then q.right else q.left

/-- The four binary digits of an offset, most significant first. -/
def bits : Fin 16 ≃ Bool × Bool × Bool × Bool where
  toFun o := (o.val.testBit 3, o.val.testBit 2, o.val.testBit 1, o.val.testBit 0)
  invFun p := ⟨p.1.toNat * 8 + p.2.1.toNat * 4 + p.2.2.1.toNat * 2 + p.2.2.2.toNat, by
    obtain ⟨a, b, c, d⟩ := p
    cases a <;> cases b <;> cases c <;> cases d <;> decide⟩
  left_inv := fun o => by revert o; decide
  right_inv := fun p => by revert p; decide

/-- The leaf of the depth-four splitting of the full share reached by four digits. -/
def leaf (p : Bool × Bool × Bool × Bool) : PosShare TreeShare :=
  half p.2.2.2 (half p.2.2.1 (half p.2.1 (half p.1 fullShare)))

theorem shr_eq_leaf (o : Fin 16) : shr o = leaf (bits o) := rfl

section Share
variable (ℓ : Loc nD τ sig) (S : Finset (Idx ℓ)) (f : Buf (Elt F) ℓ)

/-- A share of a set of elements is the separating conjunction of its two halves. -/
theorem share_bool (q : PosShare TreeShare) :
    (ℓ ↦[S]{q} f : sProp 𝕄) = bigSep Finset.univ (fun b : Bool => ℓ ↦[S]{half b q} f) := by
  have hu : (Finset.univ : Finset Bool) = insert false {true} := by decide
  have hs : (ℓ ↦[S]{q} f : sProp 𝕄) ⊣⊢ iprop((ℓ ↦[S]{q.left} f) ∗ ℓ ↦[S]{q.right} f) :=
    pointsTo_share (PosShare.mem_left_op_right q)
  rw [hu, bigSep_insert (by decide), bigSep_singleton]
  exact BI.equiv_iff.mp ⟨hs.1, hs.2⟩

/-- The full share of a set of elements is the separating conjunction of sixteen leaf shares of it. -/
theorem share_split :
    (ℓ ↦[S]{fullShare} f : sProp 𝕄) = bigSep Finset.univ (fun o : Fin 16 => ℓ ↦[S]{shr o} f) := by
  refine Eq.trans ?_ (bigSep_univ_equiv bits (fun p => (ℓ ↦[S]{leaf p} f : sProp 𝕄)))
  refine Eq.trans ?_ (bigSep_univ_prod (fun p : Bool × Bool × Bool × Bool => (ℓ ↦[S]{leaf p} f : sProp 𝕄))).symm
  refine (share_bool ℓ S f fullShare).trans (bigSep_congr fun a _ => ?_)
  refine Eq.trans ?_ (bigSep_univ_prod (fun p : Bool × Bool × Bool => (ℓ ↦[S]{leaf (a, p)} f : sProp 𝕄))).symm
  refine (share_bool ℓ S f (half a fullShare)).trans (bigSep_congr fun b _ => ?_)
  refine Eq.trans ?_ (bigSep_univ_prod (fun p : Bool × Bool => (ℓ ↦[S]{leaf (a, b, p)} f : sProp 𝕄))).symm
  refine (share_bool ℓ S f (half b (half a fullShare))).trans (bigSep_congr fun c _ => ?_)
  exact share_bool ℓ S f (half c (half b (half a fullShare)))

end Share

/-! ## The body's own load and store of slot 0 -/

/-- The rectangle of the body's load and store of its own statistics: slot 0. -/
abbrev r0 : Rect S16x2x1024 := Rect.unit (s := S16x2x1024) ![0, 0, 0] S1x2x1024.size inb_S16x2x1024_S1x2x1024_0_0_0

theorem r0_set : r0.set = slotSet 0 := (slotSet_eq 0).symm

/-- A load of slot 0 reads elements of slot 0 only. -/
theorem load0_sub : scrM.view.setOn r0.toLoadRect.set ⊆ slotSet 0 := by
  intro i hi
  obtain ⟨x, hx, rfl⟩ := Finset.mem_map.mp hi
  rw [← r0_set]
  exact hx

/-- A store to slot 0 writes elements of slot 0 only. -/
theorem store0_sub : (scrM.access r0).setOn Finset.univ ⊆ slotSet 0 := by
  rw [View.setOn_univ, ← r0_set]
  exact (View.set_slice_whole cc0_scratch0 r0).le

/-- Where the element `(0, a, b)` of the stored 1 x 2 x 1024 array sits in the scratch: at `(0, a, b)`. -/
theorem access0_emb (a : Fin 2) (b : Fin 1024) :
    (scrM.access r0).emb (ix3 (0 : Fin 1) a b) = ix3 (0 : Fin 16) a b := by
  show r0.emb (ix3 (0 : Fin 1) a b) = _
  funext x
  apply Fin.ext
  match x with
  | ⟨0, _⟩ => show 0 + 1 * 0 = 0; omega
  | ⟨1, _⟩ => show 0 + 1 * a.val = a.val; omega
  | ⟨2, _⟩ => show 0 + 1 * b.val = b.val; omega

/-- The store's value at an element of slot 0: the payload at the same position. -/
theorem store0_at (c : Dev nD) (f : Buf (Elt F) ((c : Thread nD τ).loc cc0_scratch0)) (w : r0.shape.Idx → Elt F .f32) :
    ∀ i ∈ slotSet 0,
      (scrM.access r0).write (Elt F) f w Finset.univ i
        = w (ix3 (0 : Fin 1) (⟨(i 1).val, (i 1).isLt⟩ : Fin 2) (⟨(i 2).val, (i 2).isLt⟩ : Fin 1024)) := by
  intro i hi
  obtain ⟨a, b, rfl⟩ := exists_of_mem_slotSet (k := 0) (hk := Nat.zero_lt_succ 15) hi
  show (scrM.access r0).write (Elt F) f w Finset.univ (ix3 (0 : Fin 16) a b) = w (ix3 (0 : Fin 1) a b)
  refine (congrArg ((scrM.access r0).write (Elt F) f w Finset.univ) (access0_emb a b).symm).trans ?_
  refine (View.write_emb_of_mem (v := scrM.access r0) (Val := Elt F) f w (M := Finset.univ)
    (x := ix3 (0 : Fin 1) a b) (Finset.mem_univ _)).trans ?_
  exact cast_eq _ _

/-! ## The slots' contents against the specification -/

/-- Slot `k` of device `c + k`, once the transfer out of slot 0 of device `c` has landed, holds what the specification
    says: the statistics of device `(c + k) - k = c`. -/
theorem landed_scrOf_of (X : Dev nD → Vec F S1024x1024 .f32) (c c' : Dev nD) (k : Nat) (hk : k < 16)
    (hc : c' = c + (⟨k, hk⟩ : Fin 16))
    (fd : Buf (Elt F) ((c' : Thread nD τ).loc cc0_scratch0)) (fs : Buf (Elt F) ((c : Thread nD τ).loc cc0_scratch0))
    (hfs : ∀ i ∈ slotSet 0, fs i = Cert.KernelIdeal.Spec.scrOf X c i) :
    ∀ i ∈ slotSet ⟨k, hk⟩,
      (slotM k hk).view.write (Elt F) fd ((slotM 0 (Nat.zero_lt_succ 15)).view.read (Elt F) fs) Finset.univ i
        = Cert.KernelIdeal.Spec.scrOf X c' i := by
  intro i hi
  refine (landed_at c c' k hk fd fs i hi).trans ?_
  obtain ⟨a, b, rfl⟩ := exists_of_mem_slotSet hi
  refine (hfs (ix3 (0 : Fin 16) a b) (mem_slotSet.mpr rfl)).trans ?_
  subst hc
  show k0_pay6 (X (c - (0 : Fin 16))) (ix3 (0 : Fin 1) a b)
    = k0_pay6 (X (c + (⟨k, hk⟩ : Fin 16) - (⟨k, hk⟩ : Fin 16))) (ix3 (0 : Fin 1) a b)
  rw [sub_zero, add_sub_cancel_right]

/-- The same with the source scratch holding exactly what the specification says. -/
theorem landed_scrOf (X : Dev nD → Vec F S1024x1024 .f32) (c : Dev nD) (k : Nat) (hk : k < 16)
    (fd : Buf (Elt F) (((c + (⟨k, hk⟩ : Fin 16) : Dev nD) : Thread nD τ).loc cc0_scratch0)) :
    ∀ i ∈ slotSet (⟨k, hk⟩ : Fin 16),
      (slotM k hk).view.write (Elt F) fd
          ((slotM 0 (Nat.zero_lt_succ 15)).view.read (Elt F) (Cert.KernelIdeal.Spec.scrOf X c)) Finset.univ i
        = Cert.KernelIdeal.Spec.scrOf X (c + (⟨k, hk⟩ : Fin 16)) i :=
  landed_scrOf_of X c (c + (⟨k, hk⟩ : Fin 16)) k hk rfl fd (Cert.KernelIdeal.Spec.scrOf X c) (fun _ _ => rfl)

/-- Slot 0 of device `c`, once the body has stored its own statistics, holds what the specification says. -/
theorem stored_scrOf (X : Dev nD → Vec F S1024x1024 .f32) (c : Dev nD)
    (f : Buf (Elt F) ((c : Thread nD τ).loc cc0_scratch0)) :
    ∀ i ∈ slotSet 0, (scrM.access r0).write (Elt F) f (k0_pay6 (X c)) Finset.univ i = Cert.KernelIdeal.Spec.scrOf X c i := by
  intro i hi
  refine (store0_at c f (k0_pay6 (X c)) i hi).trans ?_
  obtain ⟨a, b, rfl⟩ := exists_of_mem_slotSet (k := 0) (hk := Nat.zero_lt_succ 15) hi
  show k0_pay6 (X c) (ix3 (0 : Fin 1) a b) = k0_pay6 (X (c - (0 : Fin 16))) (ix3 (0 : Fin 1) a b)
  rw [sub_zero]

/-- info: 'Cert.KernelIdeal.Views.stored_scrOf' depends on axioms: [propext, Classical.choice, Quot.sound] -/
#guard_msgs in
#print axioms stored_scrOf

end Cert.KernelIdeal.Views

end
-- ==== Proof.BodyAux.lean ====
import proofs.«900480_g7700000000000481_dist_softmax_colshard_i_m1024_n1024_v7x_i16_bf16_1_alg».proof.Proof.Steps
import proofs.«900480_g7700000000000481_dist_softmax_colshard_i_m1024_n1024_v7x_i16_bf16_1_alg».proof.Proof.Views
import proofs.«900480_g7700000000000481_dist_softmax_colshard_i_m1024_n1024_v7x_i16_bf16_1_alg».proof.Proof.Gen.KernelIdeal.Points

/-!
# Bookkeeping around the body

The devices the kernel's signals and transfers address, in closed form; how a device's holdings at entry are regrouped
into the assertions the phases spend, and how what the phases leave is regrouped into the whole scratch and the
semaphores at zero.
-/

noncomputable section

namespace Cert.KernelIdeal.Proto

open Cert.KernelIdeal Cert.KernelIdeal.Gen Cert.KernelIdeal.Slots Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The addressed devices: the `j`-th signal goes to `c + j = c - (16 - j)`, the `j`-th transfer to `c + j` -/

theorem devS1_eq (c : Dev nD) : (⟨k0_dev1 c, k0_dev1_lt c⟩ : Dev nD) = c - (15 : Fin 16) :=
  Fin.ext ((k0_dev1_eq c).trans (by revert c; decide))
theorem devS2_eq (c : Dev nD) : (⟨k0_dev2 c, k0_dev2_lt c⟩ : Dev nD) = c - (14 : Fin 16) :=
  Fin.ext ((k0_dev2_eq c).trans (by revert c; decide))
theorem devS3_eq (c : Dev nD) : (⟨k0_dev3 c, k0_dev3_lt c⟩ : Dev nD) = c - (13 : Fin 16) :=
  Fin.ext ((k0_dev3_eq c).trans (by revert c; decide))
theorem devS4_eq (c : Dev nD) : (⟨k0_dev4 c, k0_dev4_lt c⟩ : Dev nD) = c - (12 : Fin 16) :=
  Fin.ext ((k0_dev4_eq c).trans (by revert c; decide))
theorem devS5_eq (c : Dev nD) : (⟨k0_dev5 c, k0_dev5_lt c⟩ : Dev nD) = c - (11 : Fin 16) :=
  Fin.ext ((k0_dev5_eq c).trans (by revert c; decide))
theorem devS6_eq (c : Dev nD) : (⟨k0_dev6 c, k0_dev6_lt c⟩ : Dev nD) = c - (10 : Fin 16) :=
  Fin.ext ((k0_dev6_eq c).trans (by revert c; decide))
theorem devS7_eq (c : Dev nD) : (⟨k0_dev7 c, k0_dev7_lt c⟩ : Dev nD) = c - (9 : Fin 16) :=
  Fin.ext ((k0_dev7_eq c).trans (by revert c; decide))
theorem devS8_eq (c : Dev nD) : (⟨k0_dev8 c, k0_dev8_lt c⟩ : Dev nD) = c - (8 : Fin 16) :=
  Fin.ext ((k0_dev8_eq c).trans (by revert c; decide))
theorem devS9_eq (c : Dev nD) : (⟨k0_dev9 c, k0_dev9_lt c⟩ : Dev nD) = c - (7 : Fin 16) :=
  Fin.ext ((k0_dev9_eq c).trans (by revert c; decide))
theorem devS10_eq (c : Dev nD) : (⟨k0_dev10 c, k0_dev10_lt c⟩ : Dev nD) = c - (6 : Fin 16) :=
  Fin.ext ((k0_dev10_eq c).trans (by revert c; decide))
theorem devS11_eq (c : Dev nD) : (⟨k0_dev11 c, k0_dev11_lt c⟩ : Dev nD) = c - (5 : Fin 16) :=
  Fin.ext ((k0_dev11_eq c).trans (by revert c; decide))
theorem devS12_eq (c : Dev nD) : (⟨k0_dev12 c, k0_dev12_lt c⟩ : Dev nD) = c - (4 : Fin 16) :=
  Fin.ext ((k0_dev12_eq c).trans (by revert c; decide))
theorem devS13_eq (c : Dev nD) : (⟨k0_dev13 c, k0_dev13_lt c⟩ : Dev nD) = c - (3 : Fin 16) :=
  Fin.ext ((k0_dev13_eq c).trans (by revert c; decide))
theorem devS14_eq (c : Dev nD) : (⟨k0_dev14 c, k0_dev14_lt c⟩ : Dev nD) = c - (2 : Fin 16) :=
  Fin.ext ((k0_dev14_eq c).trans (by revert c; decide))
theorem devS15_eq (c : Dev nD) : (⟨k0_dev15 c, k0_dev15_lt c⟩ : Dev nD) = c - (1 : Fin 16) :=
  Fin.ext ((k0_dev15_eq c).trans (by revert c; decide))
theorem devT1_eq (c : Dev nD) : (⟨k0_dev16 c, k0_dev16_lt c⟩ : Dev nD) = c + (⟨1, by decide⟩ : Fin 16) :=
  Fin.ext ((k0_dev16_eq c).trans (by revert c; decide))
theorem devT2_eq (c : Dev nD) : (⟨k0_dev17 c, k0_dev17_lt c⟩ : Dev nD) = c + (⟨2, by decide⟩ : Fin 16) :=
  Fin.ext ((k0_dev17_eq c).trans (by revert c; decide))
theorem devT3_eq (c : Dev nD) : (⟨k0_dev18 c, k0_dev18_lt c⟩ : Dev nD) = c + (⟨3, by decide⟩ : Fin 16) :=
  Fin.ext ((k0_dev18_eq c).trans (by revert c; decide))
theorem devT4_eq (c : Dev nD) : (⟨k0_dev19 c, k0_dev19_lt c⟩ : Dev nD) = c + (⟨4, by decide⟩ : Fin 16) :=
  Fin.ext ((k0_dev19_eq c).trans (by revert c; decide))
theorem devT5_eq (c : Dev nD) : (⟨k0_dev20 c, k0_dev20_lt c⟩ : Dev nD) = c + (⟨5, by decide⟩ : Fin 16) :=
  Fin.ext ((k0_dev20_eq c).trans (by revert c; decide))
theorem devT6_eq (c : Dev nD) : (⟨k0_dev21 c, k0_dev21_lt c⟩ : Dev nD) = c + (⟨6, by decide⟩ : Fin 16) :=
  Fin.ext ((k0_dev21_eq c).trans (by revert c; decide))
theorem devT7_eq (c : Dev nD) : (⟨k0_dev22 c, k0_dev22_lt c⟩ : Dev nD) = c + (⟨7, by decide⟩ : Fin 16) :=
  Fin.ext ((k0_dev22_eq c).trans (by revert c; decide))
theorem devT8_eq (c : Dev nD) : (⟨k0_dev23 c, k0_dev23_lt c⟩ : Dev nD) = c + (⟨8, by decide⟩ : Fin 16) :=
  Fin.ext ((k0_dev23_eq c).trans (by revert c; decide))
theorem devT9_eq (c : Dev nD) : (⟨k0_dev24 c, k0_dev24_lt c⟩ : Dev nD) = c + (⟨9, by decide⟩ : Fin 16) :=
  Fin.ext ((k0_dev24_eq c).trans (by revert c; decide))
theorem devT10_eq (c : Dev nD) : (⟨k0_dev25 c, k0_dev25_lt c⟩ : Dev nD) = c + (⟨10, by decide⟩ : Fin 16) :=
  Fin.ext ((k0_dev25_eq c).trans (by revert c; decide))
theorem devT11_eq (c : Dev nD) : (⟨k0_dev26 c, k0_dev26_lt c⟩ : Dev nD) = c + (⟨11, by decide⟩ : Fin 16) :=
  Fin.ext ((k0_dev26_eq c).trans (by revert c; decide))
theorem devT12_eq (c : Dev nD) : (⟨k0_dev27 c, k0_dev27_lt c⟩ : Dev nD) = c + (⟨12, by decide⟩ : Fin 16) :=
  Fin.ext ((k0_dev27_eq c).trans (by revert c; decide))
theorem devT13_eq (c : Dev nD) : (⟨k0_dev28 c, k0_dev28_lt c⟩ : Dev nD) = c + (⟨13, by decide⟩ : Fin 16) :=
  Fin.ext ((k0_dev28_eq c).trans (by revert c; decide))
theorem devT14_eq (c : Dev nD) : (⟨k0_dev29 c, k0_dev29_lt c⟩ : Dev nD) = c + (⟨14, by decide⟩ : Fin 16) :=
  Fin.ext ((k0_dev29_eq c).trans (by revert c; decide))
theorem devT15_eq (c : Dev nD) : (⟨k0_dev30 c, k0_dev30_lt c⟩ : Dev nD) = c + (⟨15, by decide⟩ : Fin 16) :=
  Fin.ext ((k0_dev30_eq c).trans (by revert c; decide))

/-! ## The one grid point, the windows -/

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev rX : Rect S1024x1024 := Rect.unit (s := S1024x1024) ![0, 0] S1024x1024.size inb_S1024x1024_S1024x1024_0_0
theorem hz2 : (![0, 0] : Fin 2 → Nat) = fun _ => 0 := funext fun a => by fin_cases a <;> rfl
theorem read_x (f : (cc0_stg0_0 : Ref sig .tc).ty.Contents (Elt F)) :
    (Memref.whole cc0_stg0_0 : Memref sig .tc .vmem S1024x1024 .f32).view.readAt (Elt F) rX.toLoadRect f = f :=
  Memref.readAt_unit_zero (Elt F) cc0_stg0_0 hz2 _ f
theorem read_out (f : (cc0_stg1_0 : Ref sig .tc).ty.Contents (Elt F)) :
    (Memref.whole cc0_stg1_0 : Memref sig .tc .vmem S1024x1024 .bf16).view.readAt (Elt F) rX.toLoadRect f = f :=
  Memref.readAt_unit_zero (Elt F) cc0_stg1_0 hz2 _ f
theorem write_out (f w : (cc0_stg1_0 : Ref sig .tc).ty.Contents (Elt F)) :
    ((Memref.whole cc0_stg1_0 : Memref sig .tc .vmem S1024x1024 .bf16).access rX : View sig .tc _ _ _).write (Elt F) f w Finset.univ = w :=
  Memref.write_access_unit_zero_univ (Elt F) cc0_stg1_0 hz2 _ f w

/-! ## Regrouping -/

/-- A device's positions: its barrier cell's, and for departures and arrivals the unused offset 0 apart from the fifteen. -/
theorem positions_eq (c : Dev nD) :
    positions (F := F) c = iprop(atPos ER (barCell c) 0 ∅ 0
      ∗ (atPos ER (sendCell c 0) 0 ∅ 0 ∗ bigSep E (fun o => atPos ER (sendCell c o) 0 ∅ 0))
      ∗ (atPos ER (recvCell c 0) 0 ∅ 0 ∗ bigSep E (fun o => atPos ER (recvCell c o) 0 ∅ 0))) := by
  unfold positions
  rw [bigSep_univ_sum, bigSep_univ_sum, bigSep_univ_of_subsingleton (), bigSep_univ_split (0 : Fin 16), bigSep_univ_split (0 : Fin 16)]
  rfl

/-- The own semaphores at zero, the same way. -/
theorem semVals_eq (c : Dev nD) :
    (bigSep Finset.univ fun j : Fin 16 ⊕ Fin 16 => (semVal (kcell (c, .inr j)) 0 : sProp 𝕄))
      = iprop((semVal (sendCell c 0) 0 ∗ bigSep E (fun o => semVal (sendCell c o) 0))
        ∗ (semVal (recvCell c 0) 0 ∗ bigSep E (fun o => semVal (recvCell c o) 0))) := by
  rw [bigSep_univ_sum, bigSep_univ_split (0 : Fin 16), bigSep_univ_split (0 : Fin 16)]
  rfl

/-- The whole scratch is its sixteen slots: slot 0 and the fifteen others. -/
theorem scr_slots (c : Dev nD) (f : Buf (Elt F) ((c : Thread nD τ).loc cc0_scratch0)) :
    scrPts (F := F) c f = iprop(slotPts c 0 fullShare f ∗ bigSep E (fun k => slotPts c k fullShare f)) := by
  unfold scrPts slotPts
  rw [Views.scr_split c fullShare f, bigSep_univ_split (0 : Fin 16)]
  rfl

/-- Slot 0 at the full share is its sixteen shares: the one kept and the fifteen lent to the transfers. -/
theorem slot0_shares (c : Dev nD) (f : Buf (Elt F) ((c : Thread nD τ).loc cc0_scratch0)) :
    slotPts (F := F) c 0 fullShare f = iprop(slotPts c 0 (shr 0) f ∗ bigSep E (fun o => slotPts c 0 (shr o) f)) := by
  unfold slotPts
  rw [Views.share_split ((c : Thread nD τ).loc cc0_scratch0) (slotSet 0) f, bigSep_univ_split (0 : Fin 16)]
  rfl

theorem mk_sig (c : Dev nD) (f : Buf (Elt F) ((c : Thread nD τ).loc cc0_scratch0)) :
    iprop((bigSep E fun k => tokB (F := F) c k) ∗ bigSep E (fun k => slotPts c k fullShare f)) ⊢ bigSep E (sigRes c) := by
  rw [← bigSep_sep']
  exact bigSep_mono fun k _ => show iprop(tokB c k ∗ slotPts c k fullShare f) ⊢ sigRes c k from by
    unfold sigRes
    iintro ⟨H1, H2⟩
    isplitl [H1]; · iexact H1
    iexists f; iexact H2

theorem mk_send (c : Dev nD) :
    iprop((bigSep E fun o => tokR (F := F) c o) ∗ (bigSep E fun o => tokS c o) ∗ (bigSep E fun o => barPay c o)
        ∗ bigSep E (fun o => slotPts c 0 (shr o) (scrOf (X m) c)))
      ⊢ bigSep E (fun o => if o ∈ E then sendRes m c o else cred (tallyAt (sendCell c o) () N)) := by
  rw [← phase_all, ← bigSep_sep', ← bigSep_sep', ← bigSep_sep']
  exact bigSep_mono fun o _ => by unfold sendRes; exact BI.Entails.refl _

theorem mk_recv (c : Dev nD) :
    iprop((bigSep E fun o => cred (tallyAt (recvCell c o) () N)) ∗ bigSep E (fun o => atPos ER (recvCell c o) 0 ∅ 0))
      ⊢ bigSep E (fun o => if o ∈ E then recvTodo (F := F) c o else recvDone m c o) := by
  rw [← phase_all, ← bigSep_sep']
  exact bigSep_mono fun o _ => by unfold recvTodo; exact BI.Entails.refl _

theorem mk_sendw (c : Dev nD) :
    iprop((bigSep E fun o => cred (tallyAt (sendCell c o) () N)) ∗ bigSep E (fun o => atPos ER (sendCell c o) 0 ∅ 0))
      ⊢ bigSep E (fun o => if o ∈ E then sendTodo (F := F) c o else sendDone m c o) := by
  rw [← phase_all, ← bigSep_sep']
  exact bigSep_mono fun o _ => by unfold sendTodo; exact BI.Entails.refl _

theorem recvDone_eq (c : Dev nD) :
    bigSep E (recvDone m c) = iprop((bigSep E fun o => slotPts c o fullShare (scrOf (X m) c)) ∗ bigSep E (fun o => semVal (recvCell c o) 0)) := by
  rw [← bigSep_sep']; rfl
theorem sendDone_eq (c : Dev nD) :
    bigSep E (sendDone m c) = iprop((bigSep E fun o => slotPts c 0 (shr o) (scrOf (X m) c)) ∗ bigSep E (fun o => semVal (sendCell c o) 0)) := by
  rw [← bigSep_sep']; rfl

end Cert.KernelIdeal.Proto

end
-- ==== Proof.Body.lean ====
import proofs.«900480_g7700000000000481_dist_softmax_colshard_i_m1024_n1024_v7x_i16_bf16_1_alg».proof.Proof.BodyAux

/-!
# One device's body

From what the launch hands a device — the shared records, its positions and tokens, its credit for the waits others pay,
its scratch and its two staged blocks — the body runs: fifteen signals, each handing the target the slot it will write;
the local maxima, exponentials and sums; the barrier wait, which brings the fifteen slots to write; the fifteen transfers
of slot 0, each reading its own share of it; the waits for the fifteen arrivals and the fifteen departures, which bring
the slots back filled and the shares back; and the rescaling from the sixteen slots.
-/

noncomputable section

namespace Cert.KernelIdeal.Proto

open Cert.KernelIdeal Cert.KernelIdeal.Gen Cert.KernelIdeal.Slots Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × CI → ℕ)

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop((ghost m K c ∗ cred (tallyAt (barCell c) () 15) ∗ (bigSep E fun o => cred (tallyAt (recvCell c o) () N)) ∗ levAts L lv ∗ ∃ f, scrPts c f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (X m c) ∗ stg c cc0_stg1_0 (outAt m c))

theorem owes_any (c : Dev nD) {W' : Waits sig Unit} {B : Set (SemLoc sig × Unit)} (hB : ∀ x, x ∈ B) :
    (owes (c : Thread nD τ) 0 W' : sProp 𝕄) ⊢ iprop(∃ W : Waits sig Unit, ⌜(↑W : Set (SemLoc sig × Unit)) ⊆ B⌝ ∗ owes (c : Thread nD τ) 0 W) := by
  iintro H
  iexists W'
  isplitr; · ipureintro; exact fun x _ => hB x
  iexact H

set_option maxHeartbeats 4000000 in
set_option maxRecDepth 65536 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost linear payToks
  iintro ⟨⟨⟨⟨#HR, Hpos, HtB, HtR, HtS⟩, HcB, HcR, #Hlev, ⟨%f0, Hscr⟩⟩, Ho, ⟨%d0, %g0, %hg0, Hx⟩, ⟨%d1, %g1, %hg1, Hout⟩⟩, Hk⟩
  have hx : g0 = X m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  unfold O₀
  ihave Hpos := (Entails.of_eq (positions_eq c)) $$ Hpos
  icases Hpos with ⟨HatB, ⟨HaS0, HaS⟩, ⟨HaR0, HaR⟩⟩
  ihave Hscr := (Entails.of_eq (scr_slots c f0)) $$ Hscr
  icases Hscr with ⟨Hs0, Hsl⟩
  ihave Hsig := (mk_sig c f0) $$ [HtB Hsl]
  · isplitl [HtB]; · iexact HtB
    iexact Hsl
  -- the fifteen signals
  iapply (sig_step m K c _ (15 : Fin 16) (devS1_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (14 : Fin 16) (devS2_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (13 : Fin 16) (devS3_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (12 : Fin 16) (devS4_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (11 : Fin 16) (devS5_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (10 : Fin 16) (devS6_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (9 : Fin 16) (devS7_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (8 : Fin 16) (devS8_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (7 : Fin 16) (devS9_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (6 : Fin 16) (devS10_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (5 : Fin 16) (devS11_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (4 : Fin 16) (devS12_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (3 : Fin 16) (devS13_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (2 : Fin 16) (devS14_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (1 : Fin 16) (devS15_eq c) (owedR c E) _ rfl) $$ [HO Hsig]
  · isplitr; · iexact HR
    isplitl [HO]; · iexact HO
    isplitl [Hsig]; · iexact Hsig
    ipureintro; decide
  iintro ⟨HO, Hsig⟩
  ihave HO := (sig_done (F := F) c (owedR c E) _) $$ [HO]
  · isplitl [HO]; · iexact HO
    ipureintro; decide
  -- its own block, and its statistics into slot 0
  iapply (wp_load 𝒱₀ (c : Thread nD τ) none Set.univ (m := (Memref.whole cc0_stg0_0 : Memref sig .tc .vmem S1024x1024 .f32)) (Finset.subset_univ _)) $$ Hx; iintro Hx
  rw [read_x]
  iapply (wp_load 𝒱₀ (c : Thread nD τ) none Set.univ (m := scrM) Views.load0_sub) $$ Hs0; iintro Hs0
  iapply (wp_store 𝒱₀ (c : Thread nD τ) none Set.univ (m := scrM) (r := Views.r0) (Mk := Finset.univ) Views.store0_sub) $$ Hs0; iintro Hs0
  ihave Hs0 := (Entails.of_eq (pointsTo_congr (Views.stored_scrOf (X m) c f0))) $$ Hs0
  -- the barrier
  iapply (wait_bar_step m K c E _ rfl) $$ [HcB HO HatB]
  · isplitr; · iexact HR
    isplitl [HcB]; · iexact HcB
    isplitl [HO]; · iexact HO
    isplitr; · iexact Hlev
    iexact HatB
  iintro ⟨HO, HatB, Hpay⟩
  -- the fifteen transfers
  ihave Hs0 := (Entails.of_eq (slot0_shares c (scrOf (X m) c))) $$ Hs0
  icases Hs0 with ⟨Hsh0, Hshs⟩
  ihave Hst := (mk_send m c) $$ [HtR HtS Hpay Hshs]
  · isplitl [HtR]; · iexact HtR
    isplitl [HtS]; · iexact HtS
    isplitl [Hpay]; · iexact Hpay
    iexact Hshs
  iapply (send_step m K c _ 1 (by decide) (devT1_eq c) _ (Views.landed_scrOf (X m) c 1 (by decide))) $$ [HO Hst]
  · isplitr; · iexact HR
    isplitl [HO]; · iexact HO
    isplitl [Hst]; · iexact Hst
    ipureintro; decide
  iintro ⟨HO, Hst⟩
  iapply (send_step m K c _ 2 (by decide) (devT2_eq c) _ (Views.landed_scrOf (X m) c 2 (by decide))) $$ [HO Hst]
  · isplitr; · iexact HR
    isplitl [HO]; · iexact HO
    isplitl [Hst]; · iexact Hst
    ipureintro; decide
  iintro ⟨HO, Hst⟩
  iapply (send_step m K c _ 3 (by decide) (devT3_eq c) _ (Views.landed_scrOf (X m) c 3 (by decide))) $$ [HO Hst]
  · isplitr; · iexact HR
    isplitl [HO]; · iexact HO
    isplitl [Hst]; · iexact Hst
    ipureintro; decide
  iintro ⟨HO, Hst⟩
  iapply (send_step m K c _ 4 (by decide) (devT4_eq c) _ (Views.landed_scrOf (X m) c 4 (by decide))) $$ [HO Hst]
  · isplitr; · iexact HR
    isplitl [HO]; · iexact HO
    isplitl [Hst]; · iexact Hst
    ipureintro; decide
  iintro ⟨HO, Hst⟩
  iapply (send_step m K c _ 5 (by decide) (devT5_eq c) _ (Views.landed_scrOf (X m) c 5 (by decide))) $$ [HO Hst]
  · isplitr; · iexact HR
    isplitl [HO]; · iexact HO
    isplitl [Hst]; · iexact Hst
    ipureintro; decide
  iintro ⟨HO, Hst⟩
  iapply (send_step m K c _ 6 (by decide) (devT6_eq c) _ (Views.landed_scrOf (X m) c 6 (by decide))) $$ [HO Hst]
  · isplitr; · iexact HR
    isplitl [HO]; · iexact HO
    isplitl [Hst]; · iexact Hst
    ipureintro; decide
  iintro ⟨HO, Hst⟩
  iapply (send_step m K c _ 7 (by decide) (devT7_eq c) _ (Views.landed_scrOf (X m) c 7 (by decide))) $$ [HO Hst]
  · isplitr; · iexact HR
    isplitl [HO]; · iexact HO
    isplitl [Hst]; · iexact Hst
    ipureintro; decide
  iintro ⟨HO, Hst⟩
  iapply (send_step m K c _ 8 (by decide) (devT8_eq c) _ (Views.landed_scrOf (X m) c 8 (by decide))) $$ [HO Hst]
  · isplitr; · iexact HR
    isplitl [HO]; · iexact HO
    isplitl [Hst]; · iexact Hst
    ipureintro; decide
  iintro ⟨HO, Hst⟩
  iapply (send_step m K c _ 9 (by decide) (devT9_eq c) _ (Views.landed_scrOf (X m) c 9 (by decide))) $$ [HO Hst]
  · isplitr; · iexact HR
    isplitl [HO]; · iexact HO
    isplitl [Hst]; · iexact Hst
    ipureintro; decide
  iintro ⟨HO, Hst⟩
  iapply (send_step m K c _ 10 (by decide) (devT10_eq c) _ (Views.landed_scrOf (X m) c 10 (by decide))) $$ [HO Hst]
  · isplitr; · iexact HR
    isplitl [HO]; · iexact HO
    isplitl [Hst]; · iexact Hst
    ipureintro; decide
  iintro ⟨HO, Hst⟩
  iapply (send_step m K c _ 11 (by decide) (devT11_eq c) _ (Views.landed_scrOf (X m) c 11 (by decide))) $$ [HO Hst]
  · isplitr; · iexact HR
    isplitl [HO]; · iexact HO
    isplitl [Hst]; · iexact Hst
    ipureintro; decide
  iintro ⟨HO, Hst⟩
  iapply (send_step m K c _ 12 (by decide) (devT12_eq c) _ (Views.landed_scrOf (X m) c 12 (by decide))) $$ [HO Hst]
  · isplitr; · iexact HR
    isplitl [HO]; · iexact HO
    isplitl [Hst]; · iexact Hst
    ipureintro; decide
  iintro ⟨HO, Hst⟩
  iapply (send_step m K c _ 13 (by decide) (devT13_eq c) _ (Views.landed_scrOf (X m) c 13 (by decide))) $$ [HO Hst]
  · isplitr; · iexact HR
    isplitl [HO]; · iexact HO
    isplitl [Hst]; · iexact Hst
    ipureintro; decide
  iintro ⟨HO, Hst⟩
  iapply (send_step m K c _ 14 (by decide) (devT14_eq c) _ (Views.landed_scrOf (X m) c 14 (by decide))) $$ [HO Hst]
  · isplitr; · iexact HR
    isplitl [HO]; · iexact HO
    isplitl [Hst]; · iexact Hst
    ipureintro; decide
  iintro ⟨HO, Hst⟩
  iapply (send_step m K c _ 15 (by decide) (devT15_eq c) _ (Views.landed_scrOf (X m) c 15 (by decide))) $$ [HO Hst]
  · isplitr; · iexact HR
    isplitl [HO]; · iexact HO
    isplitl [Hst]; · iexact Hst
    ipureintro; decide
  iintro ⟨HO, Hst⟩
  ihave HO := (send_done (F := F) c _) $$ [HO]
  · isplitl [HO]; · iexact HO
    ipureintro; decide
  ihave HcS := (phase_finish (F := F)) $$ [Hst]
  · isplitl [Hst]; · iexact Hst
    ipureintro; decide
  -- the local exponentials into the result block
  iapply (wp_load 𝒱₀ (c : Thread nD τ) none Set.univ (m := (Memref.whole cc0_stg1_0 : Memref sig .tc .vmem S1024x1024 .bf16)) (Finset.subset_univ _)) $$ Hout; iintro Hout
  iapply (wp_store 𝒱₀ (c : Thread nD τ) none Set.univ (m := (Memref.whole cc0_stg1_0 : Memref sig .tc .vmem S1024x1024 .bf16)) (r := rX) (Mk := Finset.univ) (Finset.subset_univ _)) $$ Hout; iintro Hout
  rw [write_out]
  -- the fifteen arrivals
  ihave HstR := (mk_recv m c) $$ [HcR HaR]
  · isplitl [HcR]; · iexact HcR
    iexact HaR
  iapply (wait_recv_step m K c 1 (by decide) _ (dst := slotM 1 (by decide)) rfl) $$ [HO HstR]
  · isplitr; · iexact HR
    isplitl [HO]; · iexact HO
    isplitl [HstR]; · iexact HstR
    ipureintro; decide
  iintro ⟨HO, HstR⟩
  iapply (wait_recv_step m K c 2 (by decide) _ (dst := slotM 2 (by decide)) rfl) $$ [HO HstR]
  · isplitr; · iexact HR
    isplitl [HO]; · iexact HO
    isplitl [HstR]; · iexact HstR
    ipureintro; decide
  iintro ⟨HO, HstR⟩
  iapply (wait_recv_step m K c 3 (by decide) _ (dst := slotM 3 (by decide)) rfl) $$ [HO HstR]
  · isplitr; · iexact HR
    isplitl [HO]; · iexact HO
    isplitl [HstR]; · iexact HstR
    ipureintro; decide
  iintro ⟨HO, HstR⟩
  iapply (wait_recv_step m K c 4 (by decide) _ (dst := slotM 4 (by decide)) rfl) $$ [HO HstR]
  · isplitr; · iexact HR
    isplitl [HO]; · iexact HO
    isplitl [HstR]; · iexact HstR
    ipureintro; decide
  iintro ⟨HO, HstR⟩
  iapply (wait_recv_step m K c 5 (by decide) _ (dst := slotM 5 (by decide)) rfl) $$ [HO HstR]
  · isplitr; · iexact HR
    isplitl [HO]; · iexact HO
    isplitl [HstR]; · iexact HstR
    ipureintro; decide
  iintro ⟨HO, HstR⟩
  iapply (wait_recv_step m K c 6 (by decide) _ (dst := slotM 6 (by decide)) rfl) $$ [HO HstR]
  · isplitr; · iexact HR
    isplitl [HO]; · iexact HO
    isplitl [HstR]; · iexact HstR
    ipureintro; decide
  iintro ⟨HO, HstR⟩
  iapply (wait_recv_step m K c 7 (by decide) _ (dst := slotM 7 (by decide)) rfl) $$ [HO HstR]
  · isplitr; · iexact HR
    isplitl [HO]; · iexact HO
    isplitl [HstR]; · iexact HstR
    ipureintro; decide
  iintro ⟨HO, HstR⟩
  iapply (wait_recv_step m K c 8 (by decide) _ (dst := slotM 8 (by decide)) rfl) $$ [HO HstR]
  · isplitr; · iexact HR
    isplitl [HO]; · iexact HO
    isplitl [HstR]; · iexact HstR
    ipureintro; decide
  iintro ⟨HO, HstR⟩
  iapply (wait_recv_step m K c 9 (by decide) _ (dst := slotM 9 (by decide)) rfl) $$ [HO HstR]
  · isplitr; · iexact HR
    isplitl [HO]; · iexact HO
    isplitl [HstR]; · iexact HstR
    ipureintro; decide
  iintro ⟨HO, HstR⟩
  iapply (wait_recv_step m K c 10 (by decide) _ (dst := slotM 10 (by decide)) rfl) $$ [HO HstR]
  · isplitr; · iexact HR
    isplitl [HO]; · iexact HO
    isplitl [HstR]; · iexact HstR
    ipureintro; decide
  iintro ⟨HO, HstR⟩
  iapply (wait_recv_step m K c 11 (by decide) _ (dst := slotM 11 (by decide)) rfl) $$ [HO HstR]
  · isplitr; · iexact HR
    isplitl [HO]; · iexact HO
    isplitl [HstR]; · iexact HstR
    ipureintro; decide
  iintro ⟨HO, HstR⟩
  iapply (wait_recv_step m K c 12 (by decide) _ (dst := slotM 12 (by decide)) rfl) $$ [HO HstR]
  · isplitr; · iexact HR
    isplitl [HO]; · iexact HO
    isplitl [HstR]; · iexact HstR
    ipureintro; decide
  iintro ⟨HO, HstR⟩
  iapply (wait_recv_step m K c 13 (by decide) _ (dst := slotM 13 (by decide)) rfl) $$ [HO HstR]
  · isplitr; · iexact HR
    isplitl [HO]; · iexact HO
    isplitl [HstR]; · iexact HstR
    ipureintro; decide
  iintro ⟨HO, HstR⟩
  iapply (wait_recv_step m K c 14 (by decide) _ (dst := slotM 14 (by decide)) rfl) $$ [HO HstR]
  · isplitr; · iexact HR
    isplitl [HO]; · iexact HO
    isplitl [HstR]; · iexact HstR
    ipureintro; decide
  iintro ⟨HO, HstR⟩
  iapply (wait_recv_step m K c 15 (by decide) _ (dst := slotM 15 (by decide)) rfl) $$ [HO HstR]
  · isplitr; · iexact HR
    isplitl [HO]; · iexact HO
    isplitl [HstR]; · iexact HstR
    ipureintro; decide
  iintro ⟨HO, HstR⟩
  ihave HstR := (phase_finish (F := F)) $$ [HstR]
  · isplitl [HstR]; · iexact HstR
    ipureintro; decide
  -- the fifteen departures
  ihave HstS := (mk_sendw m c) $$ [HcS HaS]
  · isplitl [HcS]; · iexact HcS
    iexact HaS
  iapply (wait_send_step m K c 1 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 2 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 3 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 4 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 5 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 6 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 7 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 8 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 9 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 10 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 11 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 12 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 13 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 14 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 15 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  ihave HstS := (phase_finish (F := F)) $$ [HstS]
  · isplitl [HstS]; · iexact HstS
    ipureintro; decide
  -- the two unused cells close; the slots and the shares rejoin
  imod (close_send0 m K c) $$ [HaS0] with HzS0
  · isplitr; · iexact HR
    iexact HaS0
  imod (close_recv0 m K c) $$ [HaR0] with HzR0
  · isplitr; · iexact HR
    iexact HaR0
  ihave HstR := (Entails.of_eq (recvDone_eq m c)) $$ HstR
  icases HstR with ⟨Hslots, HzR⟩
  ihave HstS := (Entails.of_eq (sendDone_eq m c)) $$ HstS
  icases HstS with ⟨Hshs, HzS⟩
  ihave Hs0 := (Entails.of_eq (slot0_shares c (scrOf (X m) c)).symm) $$ [Hsh0 Hshs]
  · isplitl [Hsh0]; · iexact Hsh0
    iexact Hshs
  ihave Hscr := (Entails.of_eq (scr_slots c (scrOf (X m) c)).symm) $$ [Hs0 Hslots]
  · isplitl [Hs0]; · iexact Hs0
    iexact Hslots
  unfold scrPts
  -- the global statistics, and the rescaled result
  iapply (wp_load 𝒱₀ (c : Thread nD τ) none Set.univ (m := scrM) (Finset.subset_univ _)) $$ Hscr; iintro Hscr
  iapply (wp_load 𝒱₀ (c : Thread nD τ) none Set.univ (m := scrM) (Finset.subset_univ _)) $$ Hscr; iintro Hscr
  iapply (wp_load 𝒱₀ (c : Thread nD τ) none Set.univ (m := (Memref.whole cc0_stg1_0 : Memref sig .tc .vmem S1024x1024 .bf16)) (Finset.subset_univ _)) $$ Hout; iintro Hout
  rw [read_out]
  iapply (wp_load 𝒱₀ (c : Thread nD τ) none Set.univ (m := (Memref.whole cc0_stg1_0 : Memref sig .tc .vmem S1024x1024 .bf16)) (Finset.subset_univ _)) $$ Hout; iintro Hout
  iapply (wp_store 𝒱₀ (c : Thread nD τ) none Set.univ (m := (Memref.whole cc0_stg1_0 : Memref sig .tc .vmem S1024x1024 .bf16)) (r := rX) (Mk := Finset.univ) (Finset.subset_univ _)) $$ Hout; iintro Hout
  rw [write_out, wp_ret]; imodintro
  iapply Hk
  unfold bodyPost Φ₁ Dat.owesAt Pipeline.owesWithin
  rw [show (dats m ρ 0 c).owed t0_0.succ = 0 from rfl, semVals_eq]
  isplitl [Hscr HzS0 HzS HzR0 HzR]
  · isplitl [Hscr]; · unfold scrPts; iexact Hscr
    isplitl [HzS0 HzS]
    · isplitl [HzS0]; · iexact HzS0
      iexact HzS
    isplitl [HzR0]; · iexact HzR0
    iexact HzR
  isplitl [HO]
  · iapply (owes_any (F := F) c (fun _ => Or.inl trivial))
    iexact HO
  isplitl [Hx]
  · iexists _; isplitr; · (ipureintro; rfl)
    iexact Hx
  iexists _; isplitr; · (ipureintro; rfl)
  iexact Hout

set_option maxRecDepth 65536 in
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 65536 in
/-- The pipeline's body obligation on device `c`: its one grid point is the body above. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.Proto.body_obligation' depends on axioms: [propext, Classical.choice, Quot.sound] -/
#guard_msgs in #print axioms body_obligation

end Body

end Cert.KernelIdeal.Proto

end
-- ==== Proof.Launch.lean ====
import proofs.«900480_g7700000000000481_dist_softmax_colshard_i_m1024_n1024_v7x_i16_bf16_1_alg».proof.Proof.Ghost
import proofs.«900480_g7700000000000481_dist_softmax_colshard_i_m1024_n1024_v7x_i16_bf16_1_alg».proof.Proof.Gen.KernelIdeal.Points

/-!
# From the devices' bodies to the run of the program

Every device holds thirty-three cells: its barrier cell, and a departure and an arrival cell per offset. The launch mints,
for every cell, the tokens of its duties, and deals them to the devices that pay: the token of duty `k` of device `p`'s
barrier cell goes to device `p + k`, the token of the arrival cell `(p, o)` to device `p - o`, the token of a departure cell
stays. What the sixteen devices owe at launch adds up, cell by cell, to fifteen units on every barrier cell and one
transfer's credit on every arrival cell of a nonzero offset: the credit each device waits with.
-/

noncomputable section

namespace Cert.KernelIdeal.Proto

open Cert.KernelIdeal Cert.KernelIdeal.Gen Cert.KernelIdeal.Slots Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

theorem ownSemFacts : Pipeline.OwnSemFacts cfg0.spec osem := by decide

theorem share_eq (c : Dev nD) (w : Fin cfg0.W) : (dats m ρ 0 c).share w = fullShare := by unfold Dat.share; split <;> rfl

/-- A number for each semaphore: distinct cell indices name semaphores of distinct numbers. -/
def semCode : SemLoc sig → ℕ
  | .reg _ => 0
  | .dma q => q.val + 1

theorem csem_injective : Function.Injective csem := by
  intro a b h
  have hc := congrArg semCode h
  rcases a with u | o | o <;> rcases b with u' | o' | o'
  · rfl
  · have : (0 : ℕ) = 2 + o'.val + 1 := hc; omega
  · have : (0 : ℕ) = 18 + o'.val + 1 := hc; omega
  · have : 2 + o.val + 1 = (0 : ℕ) := hc; omega
  · have : 2 + o.val + 1 = 2 + o'.val + 1 := hc
    exact congrArg (fun x => Sum.inr (Sum.inl x)) (Fin.ext (by omega))
  · have : 2 + o.val + 1 = 18 + o'.val + 1 := hc; have := o.isLt; omega
  · have : 18 + o.val + 1 = (0 : ℕ) := hc; omega
  · have : 18 + o.val + 1 = 2 + o'.val + 1 := hc; have := o'.isLt; omega
  · have : 18 + o.val + 1 = 18 + o'.val + 1 := hc
    exact congrArg (fun x => Sum.inr (Sum.inr x)) (Fin.ext (by omega))

theorem kcell_injective : Function.Injective (kcell : Dev nD × CI → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def xCells : Finset (GSem nD τ sig) := Finset.univ.map ⟨kcell, kcell_injective⟩

/-- The tokens minted on one device: one per duty name of its barrier cell, one per departure and per arrival cell. -/
abbrev TI : Type := Fin 16 ⊕ (Fin 16 ⊕ Fin 16)
abbrev tcell : TI → CI
  | .inl _ => .inl ()
  | .inr j => .inr j
abbrev tduty : TI → Fin 16
  | .inl k => k
  | .inr _ => 0
abbrev tokOf (cj : Dev nD × TI) : GSem nD τ sig × ℕ × Fin 16 := (kcell (cj.1, tcell cj.2), 0, tduty cj.2)

theorem tokOf_injective : Function.Injective (tokOf : Dev nD × TI → GSem nD τ sig × ℕ × Fin 16) := by
  rintro ⟨c, j⟩ ⟨c', j'⟩ h
  have hk : (c, tcell j) = (c', tcell j') := kcell_injective (congrArg (fun x : GSem nD τ sig × ℕ × Fin 16 => x.1) h)
  have hd : tduty j = tduty j' := congrArg (fun x : GSem nD τ sig × ℕ × Fin 16 => x.2.2) h
  have h1 : c = c' := congrArg Prod.fst hk
  have h2 : tcell j = tcell j' := congrArg Prod.snd hk
  subst h1
  rcases j with k | j <;> rcases j' with k' | j'
  · have : k = k' := hd
    rw [this]
  · exact absurd h2 (fun h => by cases h)
  · exact absurd h2 (fun h => by cases h)
  · have : j = j' := Sum.inr.inj h2
    rw [this]

def xToks : Finset (GSem nD τ sig × ℕ × Fin 16) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun k : Fin 16 => dutyTok ER (barCell c) 0 k)
    ∗ (bigSep Finset.univ fun o : Fin 16 => dutyTok ER (sendCell c o) 0 0)
    ∗ bigSep Finset.univ fun o : Fin 16 => dutyTok ER (recvCell c o) 0 0)

/-- What the launch element deals device `c`. -/
def G (c : Dev nD) : sProp 𝕄 :=
  iprop((bigSep Finset.univ fun j : CI => roundState ER (sched m) (kcell (c, j)) 0)
    ∗ (bigSep Finset.univ fun j : CI => iprop(atPos ER (kcell (c, j)) 0 ∅ 0 ∗ reached ER (kcell (c, j)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) :
      bigSep xCells Φ = bigSep Finset.univ fun c : Dev nD => bigSep Finset.univ fun j : CI => Φ (kcell (c, j)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_univ_sum]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated, every device's share made -/

/-- The departure and arrival semaphores are the kernel's own thirty-two; -/
theorem ownSems0_eq (c : Dev nD) :
    (Pipeline.ownSems0 (Ix := Unit) (Name := ℕ) (U := UU) (Lvl := ℕ) (Val := Elt F) (τ := τ) osem c : sProp 𝕄)
      = bigSep Finset.univ fun j : Fin 16 ⊕ Fin 16 => semVal (kcell (c, .inr j)) 0 := rfl

/-- the barrier semaphore is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CI => semVal (kcell (c, j)) 0 : sProp 𝕄) := by
  rw [ownSems0_eq, unscopedSems0_eq, bigSep_univ_sum (fun j : CI => (semVal (kcell (c, j)) 0 : sProp 𝕄)),
    bigSep_univ_of_subsingleton () (Φ := fun u : Unit => (semVal (kcell (c, Sum.inl u)) 0 : sProp 𝕄))]
  show (_ : sProp 𝕄) ⊢ iprop(semVal (kcell (c, Sum.inl ())) 0 ∗ bigSep Finset.univ fun b : Fin 16 ⊕ Fin 16 => semVal (kcell (c, Sum.inr b)) 0)
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CI => iprop(∃ κ : ℕ, cellInv ER (sched m) κ (kcell (c, j))))
          ∗ (bigSep Finset.univ fun j : CI => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CI => semVal (kcell (c, j)) 0) ∗ bigSep Finset.univ fun j : CI => roundState ER (sched m) (kcell (c, j)) 0)
      ⊢ (|={Set.univ}=> bigSep Finset.univ fun j : CI => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CI → ℕ) (c : Dev nD) : iprop(records m K ∗ linear c) ⊢ G' m c := by
  unfold G' ghost
  iintro H
  iexists K
  iexact H

/-- The devices' places: by a fixed offset down, and up. -/
def downBy (k : Fin 16) : Dev nD ≃ Dev nD :=
  ⟨fun c => c - k, fun c => c + k, fun c => by revert c k; decide, fun c => by revert c k; decide⟩
def upBy (o : Fin 16) : Dev nD ≃ Dev nD :=
  ⟨fun c => c + o, fun c => c - o, fun c => by revert c o; decide, fun c => by revert c o; decide⟩

/-- A family over (device, name) dealt along a bijection of the devices per name, the name 0 left out. -/
theorem deal (Ψ : Dev nD → Fin 16 → sProp 𝕄) (e : Fin 16 → Dev nD ≃ Dev nD) :
    (bigSep Finset.univ fun c : Dev nD => bigSep Finset.univ fun k : Fin 16 => Ψ c k)
      ⊢ bigSep Finset.univ fun c : Dev nD => bigSep E fun k => Ψ (e k c) k := by
  rw [bigSep_univ_comm (fun (c : Dev nD) (k : Fin 16) => Ψ c k),
    bigSep_congr (s := Finset.univ) (fun (k : Fin 16) _ => bigSep_univ_equiv (e k) (fun c : Dev nD => Ψ c k)),
    bigSep_univ_comm (fun (k : Fin 16) (c : Dev nD) => Ψ (e k c) k)]
  exact bigSep_mono fun c _ => bigSep_subset (Finset.subset_univ _)

/-- The tokens dealt to their payers. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨HB, HS, HR⟩
  isplitl [HB]
  · iapply (deal (fun (c : Dev nD) (k : Fin 16) => (dutyTok ER (barCell c) 0 k : sProp 𝕄)) downBy); iexact HB
  isplitl [HR]
  · iapply (deal (fun (c : Dev nD) (o : Fin 16) => (dutyTok ER (recvCell c o) 0 0 : sProp 𝕄)) upBy); iexact HR
  · iapply (deal (fun (c : Dev nD) (o : Fin 16) => (dutyTok ER (sendCell c o) 0 0 : sProp 𝕄)) (fun _ => Equiv.refl _)); iexact HS

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : CI => iprop(∃ κ : ℕ, cellInv ER (sched m) κ (kcell (c, j))))
          ∗ (bigSep Finset.univ fun j : CI => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun j : CI => (atPos ER (kcell (c, j)) 0 ∅ 0 : sProp 𝕄)) (fun j => reached ER (kcell (c, j)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : CI => (atPos ER (kcell (c, j)) 0 ∅ 0 : sProp 𝕄)) payToks).symm).trans
      (bigSep_mono fun c _ => show _ ⊢ linear c from Entails.of_eq (by unfold linear positions; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem E_card : E.card = 15 := by decide

theorem add_sub_dev (x k : Fin 16) : x + k - k = x := by revert x k; decide
theorem sub_add_dev (x k : Fin 16) : x - k + k = x := by revert x k; decide

/-- Unit tallies on one cell add up to their number. -/
theorem sum_tallyAt_one (g : GSem nD τ sig) (s : Finset (Fin 16)) :
    (∑ _k ∈ s, (tallyAt g () 1 : CellTallies nD τ sig Unit)) = tallyAt g () s.card := by
  classical
  induction s using Finset.induction_on with
  | empty => rw [Finset.sum_empty, Finset.card_empty, tallyAt_zero]
  | insert a s ha ih => rw [Finset.sum_insert ha, ih, Finset.card_insert_of_notMem ha, tallyAt_add, Nat.add_comm]

/-- The barrier units the devices owe device `c`: one from each of the fifteen others. -/
theorem cred_bar (c : Dev nD) :
    (bigSep E fun k => Pipeline.launchCred (fun d : Dev nD => (tallyAt (barCell (d - k)) () 1 : CellTallies nD τ sig Unit)) c : sProp 𝕄)
      ⊢ cred (tallyAt (barCell c) () 15) := by
  refine (bigSep_mono (Ψ := fun _ => (cred (tallyAt (barCell c) () 1) : sProp 𝕄)) fun k _ =>
    Pipeline.launchCred_tallyAt (.reg barS) (fun d => d - k) (fun d => d + k) (fun x => add_sub_dev x k) (fun x => sub_add_dev x k) () 1 c).trans ?_
  rw [← Pipeline.cred_finsetSum, sum_tallyAt_one, E_card]
  exact BI.Entails.refl _

/-- The arrival credits the devices owe device `c`: one per nonzero offset. -/
theorem cred_recv (c : Dev nD) :
    (bigSep E fun o => Pipeline.launchCred (fun d : Dev nD => (tallyAt (recvCell (d + o) o) () N : CellTallies nD τ sig Unit)) c : sProp 𝕄)
      ⊢ bigSep E fun o => cred (tallyAt (recvCell c o) () N) :=
  bigSep_mono fun o _ =>
    Pipeline.launchCred_tallyAt (.dma (recvSem o.val o.isLt)) (fun d => d + o) (fun d => d - o) (fun x => sub_add_dev x o) (fun x => add_sub_dev x o) () N c

theorem creds (c : Dev nD) :
    (Pipeline.launchCred O₀ c : sProp 𝕄)
      ⊢ iprop(cred (tallyAt (barCell c) () 15) ∗ bigSep E fun o => cred (tallyAt (recvCell c o) () N)) := by
  rw [show (O₀ : Dev nD → CellTallies nD τ sig Unit)
      = fun d => (∑ o ∈ E, tallyAt (recvCell (d + o) o) () N) + ∑ k ∈ E, tallyAt (barCell (d - k)) () 1 from rfl,
    Pipeline.launchCred_add (fun d : Dev nD => ∑ o ∈ E, (tallyAt (recvCell (d + o) o) () N : CellTallies nD τ sig Unit))
      (fun d : Dev nD => ∑ k ∈ E, (tallyAt (barCell (d - k)) () 1 : CellTallies nD τ sig Unit)) c,
    Pipeline.launchCred_sum E (fun (o : Fin 16) (d : Dev nD) => (tallyAt (recvCell (d + o) o) () N : CellTallies nD τ sig Unit)) c,
    Pipeline.launchCred_sum E (fun (k : Fin 16) (d : Dev nD) => (tallyAt (barCell (d - k)) () 1 : CellTallies nD τ sig Unit)) c]
  iintro ⟨HR, HB⟩
  isplitl [HB]
  · iapply (cred_bar (F := F) c); iexact HB
  · iapply (cred_recv (F := F) c); iexact HR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (scrOf (X m) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given each
    device's body: every weakly fair execution of the program terminates, and every final state has each windowed array
    at its computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-! ## The final arrays read back -/

/-- A device's block as staged is its argument array as launched. -/
theorem X_eq (d : Dev nD) : X m d = m ((d : Thread nD τ).loc main_arg0) := by
  unfold X
  exact Memref.read_access_unit_zero (Elt F) main_arg0 (funext fun a => Nat.zero_mul _) _ _

/-- The result array after the run holds the device's result block. -/
theorem finalA_out (c : Dev nD) : finalA m ρ c (1 : Fin 2) = outAt m c := by
  unfold finalA
  have h := (dats (F := F) m ρ 0 c).arrAt_succ (1 : Fin 2) t0_0
  rw [if_pos (flush0_1 t0_0)] at h
  refine (congrArg ((dats (F := F) m ρ 0 c).arrAt (1 : Fin 2)) (N_0 : cfg0.N = t0_0.val + 1)).trans (h.trans ?_)
  exact Memref.write_access_unit_zero_univ (Elt F) main_v1 (funext fun a => Nat.zero_mul _) _ _ _

/-- The run with every device's arrays named: the result block as specified, the argument unchanged. -/
theorem run_value (hbody : ∀ c : Dev nD, BodyObligation (dats (F := F) m ρ 0 c) (defs₀ (F := F)) 𝒱₀ () Set.univ) :
    θ_run (Cert.KernelIdeal.defs (F := F)) (onTc (τ := Cert.KernelIdeal.τ) (Cert.KernelIdeal.main (F := F))) ⟨m, fun _ => 0, ρ⟩
      (fun r => ∀ c : Dev nD,
        r.2.mem ((c.tc : Thread nD τ).loc main_v1) = Spec.outOf (F := F) (fun d => m ((d.tc : Thread nD τ).loc main_arg0)) c
        ∧ r.2.mem ((c.tc : Thread nD τ).loc main_arg0) = m ((c.tc : Thread nD τ).loc main_arg0)) :=
  (θ_run defs _ _).mono (fun r h c =>
    ⟨((h c (1 : Fin 2)).trans (finalA_out m ρ c)).trans (by
        unfold outAt
        rw [show X m = fun d : Dev nD => m ((d.tc : Thread nD τ).loc main_arg0) from funext (X_eq m)]),
      (h c (0 : Fin 2)).trans (finalA_x m ρ c)⟩) (run_main m ρ hbody)

/-- info: 'Cert.KernelIdeal.Proto.run_value' depends on axioms: [propext, Classical.choice, Quot.sound] -/
#guard_msgs in #print axioms run_value

end Cert.KernelIdeal.Proto

end
-- ==== Proof.Bits.Spec.lean ====
import proofs.«900480_g7700000000000481_dist_softmax_colshard_i_m1024_n1024_v7x_i16_bf16_1_alg».proof.Proof.Gen.Kernel.Skeleton
import Idealize.ShloMosaic.Lib.ValueIdx

/-!
# What each device ends with, as a pure function of all devices' blocks

Device `c` holds the block `X c` (1024 rows, 1024 columns) of the input. Its statistics are the row maxima and the
row sums of `exp (x - rowmax)` of its own block. After the exchange, slot `o` of device `c`'s statistics scratch
holds the statistics of device `c - o` (indices modulo 16); slot `0` is its own. The result block is the local
exponentials rescaled by `exp (m_loc - m_glob) / s_glob`, the global maximum and sum combined from the sixteen slots.
-/

noncomputable section

namespace Cert.Kernel.Spec

open Idealize.ShloMosaic Idealize.ShloMosaic.ValueIdx Cert.Kernel Cert.Kernel.Gen

variable {F : FTy → Type} [FloatOps F]

/-- The statistics scratch of device `c` once every transfer has landed: slot `o` (first coordinate) holds row maxima
    (second coordinate 0) and row sums (second coordinate 1) of the block of device `c - o`. -/
def scrOf (X : Dev nD → Vec F S1024x1024 .f32) (c : Dev nD) : Vec F S16x2x1024 .f32 :=
  fun i => k0_pay6 (X (c - (⟨(i 0).val, (i 0).isLt⟩ : Fin 16))) (ix3 (0 : Fin 1) (⟨(i 1).val, (i 1).isLt⟩ : Fin 2) (⟨(i 2).val, (i 2).isLt⟩ : Fin 1024))

/-- The rectangle of all sixteen slots' maxima, and of their sums. -/
abbrev rMax : Rect S16x2x1024 := Rect.unit (s := S16x2x1024) ![0, 0, 0] S16x1x1024.size inb_S16x2x1024_S16x1x1024_0_0_0
abbrev rSum : Rect S16x2x1024 := Rect.unit (s := S16x2x1024) ![0, 1, 0] S16x1x1024.size inb_S16x2x1024_S16x1x1024_0_1_0

/-- Device `c`'s result block: its own exponentials (rounded to the result's format) times the rescaling factor computed
    from the sixteen slots of its statistics scratch. -/
def outOf (X : Dev nD → Vec F S1024x1024 .f32) (c : Dev nD) : Vec F S1024x1024 .bf16 :=
  k0_pay1 (k0_pay3 (X c))
    ((Memref.whole cc0_scratch0 : Memref sig .tc .vmem S16x2x1024 .f32).view.readAt (Elt F) rMax.toLoadRect (scrOf X c))
    ((Memref.whole cc0_scratch0 : Memref sig .tc .vmem S16x2x1024 .f32).view.readAt (Elt F) rSum.toLoadRect (scrOf X c))
    (k0_pay5 (X c))

end Cert.Kernel.Spec

end
-- ==== Proof.Bits.Slots.lean ====
import proofs.«900480_g7700000000000481_dist_softmax_colshard_i_m1024_n1024_v7x_i16_bf16_1_alg».proof.Proof.Bits.Spec
import Idealize.ShloMosaic.Lib.Pipeline.Launch
import Idealize.ShloMosaic.Lib.Pipeline.Kit
import Idealize.ShloMosaic.Lib.Tactic

/-!
# The sixteen slots of the statistics scratch

The scratch is a 16 x 2 x 1024 array; slot `k` is the 2 x 1024 sub-array at first coordinate `k`. A transfer reads slot 0
of the sender and writes slot `k` of the receiver. The source slot is read by fifteen transfers at once, so its
ownership is cut into sixteen shares, a leaf of a depth-four binary splitting of the full share for each offset.
-/

noncomputable section

namespace Cert.Kernel.Slots

open Idealize.ShloMosaic Idealize.ShloMosaic.TcCoe Idealize.ShloMosaic.ValueIdx Cert.Kernel Cert.Kernel.Gen
open Idealize.SL Idealize.SL.RA

/-- The whole statistics scratch. -/
abbrev scrM : Memref sig .tc .vmem S16x2x1024 .f32 := Memref.whole cc0_scratch0

theorem inbK (k : Nat) (hk : k < 16) : ∀ a, (![k, 0, 0] : Fin 3 → Nat) a + S1x2x1024.size a ≤ S16x2x1024.size a := by
  intro a; fin_cases a
  · show k + 1 ≤ 16; omega
  · show 0 + 2 ≤ 2; omega
  · show 0 + 1024 ≤ 1024; omega

/-- Slot `k` as a rectangle of the scratch, and as the 2 x 1024 memref a transfer names. -/
abbrev slotR (k : Nat) (hk : k < 16) : Rect S16x2x1024 := Rect.unit (s := S16x2x1024) ![k, 0, 0] S1x2x1024.size (inbK k hk)
abbrev slotM (k : Nat) (hk : k < 16) : Memref sig .tc .vmem S2x1024 .f32 :=
  (scrM.slice (slotR k hk) (fun _ => rfl)).squeeze S2x1024 squeezes_S1x2x1024_S2x1024

/-- The elements of slot `o`. -/
def slotSet (o : Fin 16) : Finset (S16x2x1024.Idx) := (slotM o.val o.isLt).view.set

/-- The send and receive semaphores of offset `k`. -/
abbrev sendSem (k : Nat) (hk : k < 16) : DmaSem sig := ⟨2 + k, by show 2 + k < 34; omega⟩
abbrev recvSem (k : Nat) (hk : k < 16) : DmaSem sig := ⟨18 + k, by show 18 + k < 34; omega⟩

/-- One of sixteen shares: a leaf of the depth-four binary splitting of the full share. -/
def shr (o : Fin 16) : PosShare TreeShare :=
  let h (b : Bool) (q : PosShare TreeShare) : PosShare TreeShare := if b then q.right else q.left
  h (o.val.testBit 0) (h (o.val.testBit 1) (h (o.val.testBit 2) (h (o.val.testBit 3) fullShare)))

end Cert.Kernel.Slots

end
-- ==== Proof.Bits.Protocol.lean ====
import proofs.«900480_g7700000000000481_dist_softmax_colshard_i_m1024_n1024_v7x_i16_bf16_1_alg».proof.Proof.Bits.Slots
import proofs.«900480_g7700000000000481_dist_softmax_colshard_i_m1024_n1024_v7x_i16_bf16_1_alg».proof.Proof.Gen.Kernel.Launch

/-!
# The exchange protocol

Sixteen devices. Each device signals the barrier semaphore of each of the fifteen others and waits for fifteen units
on its own; then it copies its statistics (slot 0 of its scratch) into slot `o` of device `c + o` for every offset
`o = 1 … 15`, on a send and a receive semaphore of that offset; then it waits for its fifteen arrivals and its fifteen
departures. Every semaphore is a cell with one round. A device's barrier cell has fifteen unit duties, named by the slot
`d` they unlock: duty `d` is paid by device `p + d` and hands over slot `d` of that device's scratch, which is where
`p` will write. A receive cell's one duty hands its owner slot `o` holding the sender's statistics; a send cell's one
duty hands back the share of slot 0 the transfer was reading.
-/

noncomputable section

namespace Cert.Kernel.Proto

open Cert.Kernel Cert.Kernel.Gen Cert.Kernel.Slots Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- Device `d`'s block of the input, as staged. -/
def X (d : Dev nD) : Vec F S1024x1024 .f32 :=
  (win0_0.blk (0 : Fin 1)).view.read (Elt F) (m ((d : Thread nD τ).loc main_arg0))

/-! ## The cells -/

abbrev barS : Sem sig := (SemArray.scalar (sig.barrier 0 rfl) : Sems sig S_).sem
abbrev barCell (c : Dev nD) : GSem nD τ sig := ((c : Thread nD τ), .reg barS)
abbrev sendCell (c : Dev nD) (o : Fin 16) : GSem nD τ sig := ((c : Thread nD τ), .dma (sendSem o.val o.isLt))
abbrev recvCell (c : Dev nD) (o : Fin 16) : GSem nD τ sig := ((c : Thread nD τ), .dma (recvSem o.val o.isLt))

/-- A transfer's credit: the words of one slot. -/
abbrev N : ℕ := (slotM 0 (by decide)).view.dmaCredit
theorem N_pos : 0 < N := View.dmaCredit_pos _ (by decide)

/-- The fifteen offsets. -/
abbrev E : Finset (Fin 16) := Finset.univ.erase 0

/-! ## Contents and payloads -/

/-- Slot `o` of device `c`'s scratch held at share `q` with contents `f`. -/
abbrev slotPts (c : Dev nD) (o : Fin 16) (q : PosShare TreeShare) (f : Buf (Elt F) ((c : Thread nD τ).loc cc0_scratch0)) : sProp 𝕄 :=
  ((c : Thread nD τ).loc cc0_scratch0) ↦[slotSet o]{q} f

instance slotPts_storable (c : Dev nD) (o : Fin 16) (q) (f) : BI.Storable (upEmb : UEmb _ 𝕄) (slotPts (F := F) c o q f) := by
  unfold slotPts; infer_instance

/-- Duty `d` of device `p`'s barrier cell: slot `d` of device `p + d`, at any contents, and that this device has
    reached round 0 of its receive cell of offset `d`. -/
def barPay (p : Dev nD) (d : Fin 16) : sProp 𝕄 :=
  iprop((∃ f, slotPts (p + d) d fullShare f) ∗ reached ER (recvCell (p + d) d) 0)
/-- A receive cell's duty: slot `o` holding what the exchange leaves there. -/
def recvPay (c : Dev nD) (o : Fin 16) : sProp 𝕄 := slotPts c o fullShare (scrOf (X m) c)
/-- A send cell's duty: the share of slot 0 its transfer read. -/
def sendPay (c : Dev nD) (o : Fin 16) : sProp 𝕄 := slotPts c 0 (shr o) (scrOf (X m) c)

/-- The offset of a receive / send semaphore. -/
def offR (q : DmaSem sig) : Fin 16 := ⟨(q.val - 18) % 16, Nat.mod_lt _ (by decide)⟩
def offS (q : DmaSem sig) : Fin 16 := ⟨(q.val - 2) % 16, Nat.mod_lt _ (by decide)⟩

/-- One round, round 0. -/
def sched : Rounds.Schedule (GSem nD τ sig) (Fin 16) 𝕄 where
  duties g r := if r = 0 ∧ g.1.2 = .tc then
      (match g.2 with
        | .reg _ => E
        | .dma q => if (3 ≤ q.val ∧ q.val < 18) ∨ 19 ≤ q.val then {0} else ∅)
    else ∅
  unitless _ := False
  amount g _ _ := match g.2 with
    | .reg _ => 1
    | .dma _ => N
  payload g _ d := match g.2 with
    | .reg _ => barPay g.1.1 d
    | .dma q => if 18 ≤ q.val then recvPay m g.1.1 (offR q) else sendPay m g.1.1 (offS q)
  amount_pos g _ _ _ := by
    cases h : g.2 with
    | reg s => simp only [h]; exact Nat.one_pos
    | dma q => simp only [h]; exact N_pos

instance sched_payload_storable (g : GSem nD τ sig) (r : ℕ) (d : Fin 16) :
    BI.Storable (upEmb : UEmb _ 𝕄) ((sched (F := F) m).payload g r d) := by
  show BI.Storable upEmb (match g.2 with
    | .reg _ => barPay g.1.1 d
    | .dma q => if 18 ≤ q.val then recvPay m g.1.1 (offR q) else sendPay m g.1.1 (offS q))
  unfold barPay recvPay sendPay
  (repeat' split) <;> infer_instance

section Sched
variable (c : Dev nD) (o : Fin 16)

theorem offR_recv : offR (recvSem o.val o.isLt) = o := Fin.ext (by show (18 + o.val - 18) % 16 = o.val; have := o.isLt; omega)
theorem offS_send : offS (sendSem o.val o.isLt) = o := Fin.ext (by show (2 + o.val - 2) % 16 = o.val; have := o.isLt; omega)

theorem duties_bar : (sched (F := F) m).duties (barCell c) 0 = E := by
  dsimp only [sched]; rw [if_pos ⟨rfl, rfl⟩]
theorem duties_send (ho : o ≠ 0) : (sched (F := F) m).duties (sendCell c o) 0 = {0} := by
  dsimp only [sched]; rw [if_pos ⟨rfl, rfl⟩]
  have h1 := o.isLt; have h2 : o.val ≠ 0 := fun h => ho (Fin.ext h)
  exact if_pos (Or.inl ⟨by show 3 ≤ 2 + o.val; omega, by show 2 + o.val < 18; omega⟩)
theorem duties_recv (ho : o ≠ 0) : (sched (F := F) m).duties (recvCell c o) 0 = {0} := by
  dsimp only [sched]; rw [if_pos ⟨rfl, rfl⟩]
  have h1 := o.isLt; have h2 : o.val ≠ 0 := fun h => ho (Fin.ext h)
  exact if_pos (Or.inr (by show 19 ≤ 18 + o.val; omega))
theorem duties_send0 (r : ℕ) : (sched (F := F) m).duties (sendCell c 0) r = ∅ := by
  dsimp only [sched]; split
  · exact if_neg (by decide)
  · rfl
theorem duties_recv0 (r : ℕ) : (sched (F := F) m).duties (recvCell c 0) r = ∅ := by
  dsimp only [sched]; split
  · exact if_neg (by decide)
  · rfl
theorem duties_later (g : GSem nD τ sig) : ∀ r, 1 ≤ r → (sched (F := F) m).duties g r = ∅ :=
  fun r hr => by dsimp only [sched]; rw [if_neg fun h => by omega]

theorem amount_bar (d : Fin 16) : (sched (F := F) m).amount (barCell c) 0 d = 1 := rfl
theorem amount_send (d : Fin 16) : (sched (F := F) m).amount (sendCell c o) 0 d = N := rfl
theorem amount_recv (d : Fin 16) : (sched (F := F) m).amount (recvCell c o) 0 d = N := rfl

theorem expect_bar : (sched (F := F) m).expect (barCell c) 0 = 15 := by
  unfold Schedule.expect Schedule.amountOf
  rw [duties_bar, Finset.sum_congr rfl fun d _ => amount_bar m c d, Finset.sum_const, smul_eq_mul, Nat.mul_one]; decide
theorem expect_send (ho : o ≠ 0) : (sched (F := F) m).expect (sendCell c o) 0 = N := by
  unfold Schedule.expect Schedule.amountOf; rw [duties_send m c o ho, Finset.sum_singleton, amount_send]
theorem expect_recv (ho : o ≠ 0) : (sched (F := F) m).expect (recvCell c o) 0 = N := by
  unfold Schedule.expect Schedule.amountOf; rw [duties_recv m c o ho, Finset.sum_singleton, amount_recv]

theorem payload_bar (d : Fin 16) : (sched (F := F) m).payload (barCell c) 0 d = barPay c d := rfl
theorem payload_send (d : Fin 16) : (sched (F := F) m).payload (sendCell c o) 0 d = sendPay m c o := by
  dsimp only [sched]; rw [if_neg (by show ¬ 18 ≤ 2 + o.val; have := o.isLt; omega), offS_send]
theorem payload_recv (d : Fin 16) : (sched (F := F) m).payload (recvCell c o) 0 d = recvPay m c o := by
  dsimp only [sched]; rw [if_pos (by show 18 ≤ 18 + o.val; omega), offR_recv]

/-- The rest of the barrier cell's round, nothing taken: every slot this device will write. -/
theorem rest_bar : bigSep ((sched (F := F) m).duties (barCell c) 0 \ ∅) (fun d => (sched (F := F) m).payload (barCell c) 0 d) = bigSep E (fun d => barPay c d) := by
  rw [Finset.sdiff_empty, duties_bar]; rfl
theorem rest_send (ho : o ≠ 0) : bigSep ((sched (F := F) m).duties (sendCell c o) 0 \ ∅) (fun d => (sched (F := F) m).payload (sendCell c o) 0 d) = sendPay m c o := by
  rw [Finset.sdiff_empty, duties_send m c o ho, bigSep_singleton, payload_send]
theorem rest_recv (ho : o ≠ 0) : bigSep ((sched (F := F) m).duties (recvCell c o) 0 \ ∅) (fun d => (sched (F := F) m).payload (recvCell c o) 0 d) = recvPay m c o := by
  rw [Finset.sdiff_empty, duties_recv m c o ho, bigSep_singleton, payload_recv]

end Sched

/-! ## What each device owes at launch; the levels -/

/-- The arrival credits device `c` still owes, offsets `S`; and the barrier units, slots `S` (the unit for slot `k` goes
    to device `c - k`). -/
def owedR (c : Dev nD) (S : Finset (Fin 16)) : CellTallies nD τ sig Unit := ∑ o ∈ S, tallyAt (recvCell (c + o) o) () N
def owedB (c : Dev nD) (S : Finset (Fin 16)) : CellTallies nD τ sig Unit := ∑ k ∈ S, tallyAt (barCell (c - k)) () 1
def O₀ (c : Dev nD) : CellTallies nD τ sig Unit := owedR c E + owedB c E

theorem owedB_erase (c : Dev nD) {S : Finset (Fin 16)} {k : Fin 16} (hk : k ∈ S) (R : CellTallies nD τ sig Unit) :
    R + owedB c S = (R + owedB c (S.erase k)) + tallyAt (barCell (c - k)) () 1 := by
  unfold owedB; rw [← Finset.sum_erase_add S _ hk, add_assoc]
theorem owedR_erase (c : Dev nD) {S : Finset (Fin 16)} {o : Fin 16} (ho : o ∈ S) :
    owedR c S = owedR c (S.erase o) + tallyAt (recvCell (c + o) o) () N := by
  unfold owedR; rw [← Finset.sum_erase_add S _ ho]
theorem owedB_empty (c : Dev nD) : owedB c ∅ = 0 := Finset.sum_empty
theorem owedR_empty (c : Dev nD) : owedR c ∅ = 0 := Finset.sum_empty

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {S : Finset (Fin 16)} {g : GSem nD τ sig} {u : Unit} (h : 0 < owedR c S g u) :
    ∃ o ∈ S, g = recvCell (c + o) o := by
  obtain ⟨o, ho, h⟩ := Pipeline.sum_pos_exists h
  refine ⟨o, ho, ?_⟩
  rw [tallyAt_apply] at h
  by_contra hn
  rw [if_neg (fun h' => hn h'.1)] at h
  exact Nat.lt_irrefl 0 h
theorem owedB_pos {c : Dev nD} {S : Finset (Fin 16)} {g : GSem nD τ sig} {u : Unit} (h : 0 < owedB c S g u) :
    ∃ k ∈ S, g = barCell (c - k) := by
  obtain ⟨o, ho, h⟩ := Pipeline.sum_pos_exists h
  refine ⟨o, ho, ?_⟩
  rw [tallyAt_apply] at h
  by_contra hn
  rw [if_neg (fun h' => hn h'.1)] at h
  exact Nat.lt_irrefl 0 h

theorem lv_recv (c : Dev nD) (o : Fin 16) (u : Unit) : lv (recvCell c o) u = 2 := by
  dsimp only [lv]; exact if_pos (by show 18 ≤ 18 + o.val; omega)
theorem lv_bar (c : Dev nD) (u : Unit) : lv (barCell c) u = 1 := rfl

/-- A wait on a cell at level 0 (a staging or a send semaphore) while owing at most the launch tallies. -/
theorem mayWait_low (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) (fun g u hg => ?_)
    have hl : lv ((c : Thread nD τ), SemLoc.dma q) () = 0 := by dsimp only [lv]; exact if_neg (by omega)
    rw [hl]
    unfold O₀ at hg
    rcases Pipeline.add_pos_cases hg with h | h
    · obtain ⟨o, _, rfl⟩ := owedR_pos h
      exact ⟨by rw [L_tc]; exact Finset.mem_singleton_self _, by rw [lv_recv]; decide⟩
    · obtain ⟨k, _, rfl⟩ := owedB_pos h
      exact ⟨by rw [L_tc]; exact Finset.mem_singleton_self _, by rw [lv_bar]; decide⟩
  · rw [MayWait_zero]; iintro -; iempintro

/-- At its barrier wait a device owes arrival credits only: receive cells, above its barrier cell. -/
theorem mayWait_bar (c : Dev nD) (S : Finset (Fin 16)) :
    (levAts L lv : sProp 𝕄) ⊢ MayWait (c : Thread nD τ) (.reg barS) () (owedR c S) :=
  Pipeline.mayWait_of_levAts (by rw [L_tc]; exact Finset.mem_singleton_self _) (fun g u hg => by
    obtain ⟨o, _, rfl⟩ := owedR_pos hg
    exact ⟨by rw [L_tc]; exact Finset.mem_singleton_self _, by rw [lv_recv]; show (1 : ℕ) < 2; decide⟩)

end Cert.Kernel.Proto

end
-- ==== Proof.Bits.Ghost.lean ====
import proofs.«900480_g7700000000000481_dist_softmax_colshard_i_m1024_n1024_v7x_i16_bf16_1_alg».proof.Proof.Bits.Protocol

/-!
# The ghost state a device starts from, and the pipeline's proof data

Every cell's invariant and the fact that round 0 of every cell is reached are persistent records all devices share.
What stays with one device: its positions in its own thirty-three cells, and the tokens of the duties it pays — for each
slot `k` the barrier duty `k` of device `c - k`, and for each offset `o` the arrival duty of device `c + o` and its own
departure duty.
-/

noncomputable section

namespace Cert.Kernel.Proto

open Cert.Kernel Cert.Kernel.Gen Cert.Kernel.Slots Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, indexed: the barrier, or (departure / arrival, offset) -/

abbrev CI : Type := Unit ⊕ (Fin 16 ⊕ Fin 16)
abbrev csem : CI → SemLoc sig
  | .inl _ => .reg barS
  | .inr (.inl o) => .dma (sendSem o.val o.isLt)
  | .inr (.inr o) => .dma (recvSem o.val o.isLt)
abbrev kcell (ck : Dev nD × CI) : GSem nD τ sig := ((ck.1 : Thread nD τ), csem ck.2)
/-- The kernel's own (scoped) semaphores: all but the barrier. -/
abbrev osem : Fin 16 ⊕ Fin 16 → SemLoc sig := fun j => csem (.inr j)

def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) :
    records m K ⊢ cellInv ER (sched m) (K ck) (kcell ck) := by
  unfold records; exact (BI.sep_and.trans BI.and_elimL).trans (bigSep_elim (Finset.mem_univ ck))
theorem reached_at (K : Dev nD × CI → ℕ) (ck : Dev nD × CI) :
    records m K ⊢ (reached ER (kcell ck) 0 : sProp 𝕄) := by
  unfold records; exact (BI.sep_and.trans BI.and_elimR).trans (bigSep_elim (Finset.mem_univ ck))

/-- The tokens device `c` pays with. -/
def tokB (c : Dev nD) (k : Fin 16) : sProp 𝕄 := dutyTok ER (barCell (c - k)) 0 k
def tokR (c : Dev nD) (o : Fin 16) : sProp 𝕄 := dutyTok ER (recvCell (c + o) o) 0 0
def tokS (c : Dev nD) (o : Fin 16) : sProp 𝕄 := dutyTok ER (sendCell c o) 0 0

def payToks (c : Dev nD) : sProp 𝕄 :=
  iprop((bigSep E fun k => tokB c k) ∗ (bigSep E fun o => tokR c o) ∗ bigSep E fun o => tokS c o)
def positions (c : Dev nD) : sProp 𝕄 := bigSep Finset.univ fun j : CI => atPos ER (kcell (c, j)) 0 ∅ 0
def linear (c : Dev nD) : sProp 𝕄 := iprop(positions c ∗ payToks c)
def ghost (K : Dev nD × CI → ℕ) (c : Dev nD) : sProp 𝕄 := iprop(records m K ∗ linear c)

/-- What device `c`'s body starts from: the ghost state at some names, the credit tokens for its waits on what others
    pay (fifteen barrier units, fifteen arrivals), and the level facts. -/
def start (c : Dev nD) : sProp 𝕄 :=
  iprop((∃ K, ghost m K c) ∗ cred (tallyAt (barCell c) () 15) ∗ (bigSep E fun o => cred (tallyAt (recvCell c o) () N)) ∗ levAts L lv)

/-- The whole scratch of device `c` at contents `f`. -/
def scrPts (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m c ∗ ∃ f, scrPts c f)
/-- After the body: the scratch holding every device's statistics, the thirty-two own cells closed at zero. -/
def Φ₁ (c : Dev nD) : sProp 𝕄 :=
  iprop(scrPts c (scrOf (X m) c) ∗ bigSep Finset.univ fun j : Fin 16 ⊕ Fin 16 => semVal (kcell (c, .inr j)) 0)

/-- The result block on device `c`. -/
def outAt (c : Dev nD) : (cc0_stg1_0 : Ref sig .tc).ty.Contents (Elt F) := outOf (X m) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.Bits.Steps.lean ====
import proofs.«900480_g7700000000000481_dist_softmax_colshard_i_m1024_n1024_v7x_i16_bf16_1_alg».proof.Proof.Bits.Ghost

/-!
# One rule per kind of step of the body

Each phase of the body (fifteen signals; fifteen transfers; fifteen waits for arrivals; fifteen waits for departures)
keeps what it still has to spend as one assertion indexed by the offsets, an entry being either "still to do" or "done";
a step moves one offset from the first form to the second. The set `S` of offsets still to do is read off the assertion
held, so the side conditions on it come last, as a pure conjunct.
-/

noncomputable section

namespace Cert.Kernel.Proto

open Cert.Kernel Cert.Kernel.Gen Cert.Kernel.Slots Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Moving one index of a family from "to do" to "done" -/

theorem bigSep_take {I : Type} [DecidableEq I] {S : Finset I} {Φ : I → sProp 𝕄} {o : I} (ho : o ∈ S) :
    bigSep S Φ = iprop(Φ o ∗ bigSep (S.erase o) Φ) := by
  rw [bigSep_erase ho]; rfl

theorem phase_take {I : Type} [DecidableEq I] {T S : Finset I} {A B : I → sProp 𝕄} {o : I} (hoT : o ∈ T) (ho : o ∈ S) :
    bigSep T (fun i => if i ∈ S then A i else B i) = iprop(A o ∗ bigSep (T.erase o) (fun i => if i ∈ S then A i else B i)) := by
  rw [bigSep_erase hoT, if_pos ho]; rfl

theorem phase_put {I : Type} [DecidableEq I] {T S : Finset I} {A B : I → sProp 𝕄} {o : I} (hoT : o ∈ T) :
    iprop(B o ∗ bigSep (T.erase o) (fun i => if i ∈ S then A i else B i)) = bigSep T (fun i => if i ∈ S.erase o then A i else B i) := by
  rw [bigSep_erase hoT (Φ := fun i => if i ∈ S.erase o then A i else B i), if_neg (Finset.notMem_erase o S)]
  show BI.sep (B o) _ = BI.sep (B o) _
  congr 1
  exact bigSep_congr fun i hi => by
    have hne : i ≠ o := (Finset.mem_erase.mp hi).1
    by_cases h : i ∈ S
    · rw [if_pos h, if_pos (Finset.mem_erase.mpr ⟨hne, h⟩)]
    · rw [if_neg h, if_neg (fun h' => h (Finset.mem_erase.mp h').2)]

theorem phase_done {I : Type} [DecidableEq I] {T S : Finset I} {A B : I → sProp 𝕄} (hS : S = ∅) :
    bigSep T (fun i => if i ∈ S then A i else B i) = bigSep T B := by
  subst hS; exact bigSep_congr fun i _ => if_neg (Finset.notMem_empty i)

theorem phase_all {I : Type} [DecidableEq I] {T : Finset I} {A B : I → sProp 𝕄} :
    bigSep T A = bigSep T (fun i => if i ∈ T then A i else B i) :=
  bigSep_congr fun i hi => (if_pos hi).symm

section Steps
variable (K : Dev nD × CI → ℕ)

/-! ## A signal -/

/-- What the signal for slot `k` spends: its token and the slot it hands over. -/
def sigRes (c : Dev nD) (k : Fin 16) : sProp 𝕄 := iprop(tokB c k ∗ ∃ f, slotPts c k fullShare f)

theorem sig_step (c n : Dev nD) (k : Fin 16) (hn : n = c - k) {S : Finset (Fin 16)}
    (R : CellTallies nD τ sig Unit) (W : Waits sig Unit) {n1 : ℕ} (hn1 : n1 = 1)
    {α : Type} {Q : α → sProp 𝕄} {k' : PUnit → Prog (TpuEff nD τ sig (Elt F) Λ₀ .tc) α} :
    iprop(records m K ∗ owes (c : Thread nD τ) (R + owedB c S) W ∗ bigSep S (sigRes c) ∗ ⌜k ∈ S ∧ S ⊆ E⌝)
      ⊢ iprop(((owes (c : Thread nD τ) (R + owedB c (S.erase k)) W ∗ bigSep (S.erase k) (sigRes c))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) barS n1) k') Q) := by
  subst hn hn1
  iintro ⟨#HR, HO, Hst, %h⟩ Hk
  obtain ⟨hk, hS⟩ := h
  ihave Hst := (Entails.of_eq (bigSep_take hk)) $$ Hst
  unfold sigRes tokB
  icases Hst with ⟨⟨Htok, ⟨%f, Hs⟩⟩, Hrest⟩
  iapply (Rounds.wp_signal 𝒱₀ ER (sched m) (c : Thread nD τ) none (dst := ((c - k : Dev nD) : Thread nD τ)) (κ := K (c - k, .inl ()))
      (d := k) (by rw [duties_bar]; exact hS hk) (amount_bar m (c - k) k) () (R + owedB c (S.erase k)) (owedB_erase c hk R)) $$ [HO Htok Hs]
  · isplitr; · iapply (inv_at m K (c - k, .inl ())); iexact HR
    isplitl [HO]; · iexact HO
    isplitl [Htok]; · iexact Htok
    isplitl [Hs]
    · rw [payload_bar]; unfold barPay; rw [sub_add_cancel]
      isplitl [Hs]; · iexists f; iexact Hs
      iapply (reached_at m K (c, .inr (.inr k))); iexact HR
    · iapply (reached_at m K (c - k, .inl ())); iexact HR
  iintro HO
  iapply Hk
  isplitl [HO]; · iexact HO
  iexact Hrest

theorem sig_done (c : Dev nD) {S : Finset (Fin 16)} (R : CellTallies nD τ sig Unit) (W : Waits sig Unit) :
    iprop(owes (c : Thread nD τ) (R + owedB c S) W ∗ ⌜S = ∅⌝) ⊢ (owes (c : Thread nD τ) R W : sProp 𝕄) := by
  iintro ⟨HO, %h⟩
  subst h
  rw [owedB_empty, add_zero]
  iexact HO

/-! ## The barrier wait -/

theorem wait_bar_step (c : Dev nD) (S : Finset (Fin 16)) (W : Waits sig Unit) {n15 : ℕ} (h15 : n15 = 15)
    {α : Type} {Q : α → sProp 𝕄} {k' : PUnit → Prog (TpuEff nD τ sig (Elt F) Λ₀ .tc) α} :
    iprop(records m K ∗ cred (tallyAt (barCell c) () 15) ∗ owes (c : Thread nD τ) (owedR c S) W ∗ levAts L lv ∗ atPos ER (barCell c) 0 ∅ 0)
      ⊢ iprop(((owes (c : Thread nD τ) (owedR c S) (insert (SemLoc.reg barS, ()) W) ∗ atPos ER (barCell c) 1 ∅ 0 ∗ bigSep E (fun d => barPay c d))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS n15) k') Q) := by
  subst h15
  iintro ⟨#HR, Hc, HO, #Hlev, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := owedR c S) (W := W) (R := 0) (m := 0) (T := ∅)
      (by rw [expect_bar])) $$ [Hc HO Hat]
  · isplitr; · iapply (inv_at m K (c, .inl ())); iexact HR
    isplitl [Hc]; · iexact Hc
    isplitl [HO]; · iexact HO
    isplitr; · iapply (mayWait_bar c S); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## A transfer -/

/-- What the transfer of offset `o` spends: the arrival token of the target's cell, its own departure token, the target's
    slot (what the barrier's duty `o` handed over) and a share of its own statistics. -/
def sendRes (c : Dev nD) (o : Fin 16) : sProp 𝕄 :=
  iprop(tokR c o ∗ tokS c o ∗ barPay c o ∗ slotPts c 0 (shr o) (scrOf (X m) c))

theorem send_step (c n : Dev nD) (k : ℕ) (hk : k < 16) (hn : n = c + (⟨k, hk⟩ : Fin 16)) {S : Finset (Fin 16)}
    (W : Waits sig Unit)
    (hland : ∀ fd : Buf (Elt F) (((c + (⟨k, hk⟩ : Fin 16) : Dev nD) : Thread nD τ).loc cc0_scratch0), ∀ i ∈ slotSet (⟨k, hk⟩ : Fin 16),
      (slotM k hk).view.write (Elt F) fd ((slotM 0 (Nat.zero_lt_succ 15)).view.read (Elt F) (scrOf (X m) c)) Finset.univ i = scrOf (X m) (c + (⟨k, hk⟩ : Fin 16)) i)
    {hsc : (slotM k hk : Memref sig (Dev.tc n : Thread nD τ).2.kind .vmem S2x1024 .f32).view.ref.isScScratch = false}
    {hsrc : (slotM 0 (Nat.zero_lt_succ 15) : Memref sig .tc .vmem S2x1024 .f32).view.WordExact} {hdst : (slotM k hk : Memref sig .tc .vmem S2x1024 .f32).view.WordExact}
    {hsem : DmaTarget.Typed .vmem (.dma (recvSem k hk)) (.remote (Dev.tc n : Thread nD τ) (slotM k hk : Memref sig .tc .vmem S2x1024 .f32) (.dma (sendSem k hk)) hsc)}
    {α : Type} {Q : α → sProp 𝕄} {k' : PUnit → Prog (TpuEff nD τ sig (Elt F) Λ₀ .tc) α} :
    iprop(records m K ∗ owes (c : Thread nD τ) (owedR c S) W
        ∗ bigSep E (fun o => if o ∈ S then sendRes m c o else cred (tallyAt (sendCell c o) () N)) ∗ ⌜(⟨k, hk⟩ : Fin 16) ∈ S ∧ S ⊆ E⌝)
      ⊢ iprop(((owes (c : Thread nD τ) (owedR c (S.erase ⟨k, hk⟩)) W
              ∗ bigSep E (fun o => if o ∈ S.erase ⟨k, hk⟩ then sendRes m c o else cred (tallyAt (sendCell c o) () N)))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (slotM 0 (Nat.zero_lt_succ 15)) (.remote (Dev.tc n : Thread nD τ) (slotM k hk) (.dma (sendSem k hk)) hsc) (.dma (recvSem k hk)) hsrc hdst hsem) k') Q) := by
  subst hn
  iintro ⟨#HR, HO, Hst, %h⟩ Hk
  obtain ⟨ho, hS⟩ := h
  ihave Hst := (Entails.of_eq (phase_take (hS ho) ho)) $$ Hst
  unfold sendRes tokR tokS barPay
  icases Hst with ⟨⟨HtR, HtS, ⟨⟨%fd, Hd⟩, #Hreach⟩, Hsrc⟩, Hrest⟩
  unfold slotPts slotSet
  iapply (Rounds.wp_send_pointsTo 𝒱₀ ER (sched m) (c : Thread nD τ) none (src := slotM 0 (Nat.zero_lt_succ 15)) (dst := slotM k hk)
      (c' := ((c + (⟨k, hk⟩ : Fin 16) : Dev nD) : Thread nD τ)) (q := shr ⟨k, hk⟩) (fs := scrOf (X m) c) (fd := fd)
      (κ₁ := K (c, .inr (.inl ⟨k, hk⟩))) (κ₂ := K (c + (⟨k, hk⟩ : Fin 16), .inr (.inr ⟨k, hk⟩)))
      (r₁ := 0) (r₂ := 0) (d₁ := 0) (d₂ := 0)
      (by rw [duties_send m c ⟨k, hk⟩ (Finset.ne_of_mem_erase (hS ho))]; exact Finset.mem_singleton_self _)
      (by rw [duties_recv m (c + (⟨k, hk⟩ : Fin 16)) ⟨k, hk⟩ (Finset.ne_of_mem_erase (hS ho))]; exact Finset.mem_singleton_self _)
      () () N rfl (amount_send m c ⟨k, hk⟩ 0) (amount_recv m (c + (⟨k, hk⟩ : Fin 16)) ⟨k, hk⟩ 0) (owedR c (S.erase ⟨k, hk⟩)) (owedR_erase c ho) (W := W)
      (Entails.of_eq (by rw [payload_send]; rfl))
      (Entails.of_eq (by rw [payload_recv]; unfold recvPay slotPts; exact pointsTo_congr (hland fd)))) $$ [HO HtR HtS Hd Hsrc]
  · isplitr; · iapply (inv_at m K (c, .inr (.inl ⟨k, hk⟩))); iexact HR
    isplitr; · iapply (inv_at m K (c + (⟨k, hk⟩ : Fin 16), .inr (.inr ⟨k, hk⟩))); iexact HR
    isplitl [Hsrc]; · iexact Hsrc
    isplitl [Hd]; · iexact Hd
    isplitl [HO]; · iexact HO
    isplitl [HtS]; · iexact HtS
    isplitr; · iapply (reached_at m K (c, .inr (.inl ⟨k, hk⟩))); iexact HR
    isplitl [HtR]; · iexact HtR
    iexact Hreach
  iintro ⟨Hc, HO⟩
  iapply Hk
  isplitl [HO]; · iexact HO
  iapply (Entails.of_eq (phase_put (hS ho)))
  isplitl [Hc]; · iexact Hc
  iexact Hrest

theorem send_done (c : Dev nD) {S : Finset (Fin 16)} (W : Waits sig Unit) :
    iprop(owes (c : Thread nD τ) (owedR c S) W ∗ ⌜S = ∅⌝) ⊢ (owes (c : Thread nD τ) 0 W : sProp 𝕄) := by
  iintro ⟨HO, %h⟩
  subst h
  rw [owedR_empty]
  iexact HO

theorem phase_finish {T S : Finset (Fin 16)} {A B : Fin 16 → sProp 𝕄} :
    iprop(bigSep T (fun i => if i ∈ S then A i else B i) ∗ ⌜S = ∅⌝) ⊢ bigSep T B := by
  iintro ⟨H, %h⟩
  iapply (Entails.of_eq (phase_done h)); iexact H

/-! ## The waits on the transfers' semaphores, each followed by closing the cell -/

/-- An arrival: before the wait its credit token and the position; after it slot `o` holding the sender's statistics, and
    the semaphore closed at zero. A departure likewise, with the share of slot 0 coming back. -/
def recvTodo (c : Dev nD) (o : Fin 16) : sProp 𝕄 := iprop(cred (tallyAt (recvCell c o) () N) ∗ atPos ER (recvCell c o) 0 ∅ 0)
def recvDone (c : Dev nD) (o : Fin 16) : sProp 𝕄 := iprop(recvPay m c o ∗ semVal (recvCell c o) 0)
def sendTodo (c : Dev nD) (o : Fin 16) : sProp 𝕄 := iprop(cred (tallyAt (sendCell c o) () N) ∗ atPos ER (sendCell c o) 0 ∅ 0)
def sendDone (c : Dev nD) (o : Fin 16) : sProp 𝕄 := iprop(sendPay m c o ∗ semVal (sendCell c o) 0)

theorem wait_recv_step (c : Dev nD) (k : ℕ) (hk : k < 16) {S : Finset (Fin 16)}
    (W : Waits sig Unit) {sp' : Space} {s' : Shape} {e' : EltTy}
    {src : Memref sig .tc sp' s' e'} {κ' : Kind} {sp : Space} {s : Shape} {e : EltTy} {dst : Memref sig κ' sp s e} {hsrc : src.view.WordExact} {hdst : dst.view.WordExact}
    (hd : dst.view.dmaCredit = N)
    {α : Type} {Q : α → sProp 𝕄} {k' : PUnit → Prog (TpuEff nD τ sig (Elt F) Λ₀ .tc) α} :
    iprop(records m K ∗ owes (c : Thread nD τ) 0 W ∗ bigSep E (fun o => if o ∈ S then recvTodo c o else recvDone m c o) ∗ ⌜(⟨k, hk⟩ : Fin 16) ∈ S ∧ S ⊆ E⌝)
      ⊢ iprop(((owes (c : Thread nD τ) 0 (insert (SemLoc.dma (recvSem k hk), ()) W)
              ∗ bigSep E (fun o => if o ∈ S.erase ⟨k, hk⟩ then recvTodo c o else recvDone m c o))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (recvSem k hk) src dst hsrc hdst) k') Q) := by
  iintro ⟨#HR, HO, Hst, %h⟩ Hk
  obtain ⟨ho, hS⟩ := h
  ihave Hst := (Entails.of_eq (phase_take (hS ho) ho)) $$ Hst
  unfold recvTodo
  icases Hst with ⟨⟨Hc, Hat⟩, Hrest⟩
  iapply (Rounds.wp_wait_rest_token 𝒱₀ ER (sched m) (c : Thread nD τ) none (κ := K (c, .inr (.inr ⟨k, hk⟩)))
      (wpE_waitDma2_eq 𝒱₀ (c : Thread nD τ) none Set.univ) (Set.mem_univ _) () (O := 0) (W := W) (R := 0) (m := 0) (T := ∅)
      (by rw [Nat.zero_add, expect_recv m c ⟨k, hk⟩ (Finset.ne_of_mem_erase (hS ho)), hd])) $$ [Hc HO Hat]
  · isplitr; · iapply (inv_at m K (c, .inr (.inr ⟨k, hk⟩))); iexact HR
    isplitl [Hc]; · rw [hd]; iexact Hc
    isplitl [HO]; · iexact HO
    isplitr; · rw [MayWait_zero]; iempintro
    iexact Hat
  iintro ⟨HO, Hat, -, Hpay⟩
  ihave Hp := (Entails.of_eq (rest_recv m c ⟨k, hk⟩ (Finset.ne_of_mem_erase (hS ho)))) $$ Hpay
  imod (Rounds.cell_close ER (sched m) (Set.mem_univ (K (c, .inr (.inr ⟨k, hk⟩)))) (fun h => h) (R := 0 + 1) (duties_later m (recvCell c ⟨k, hk⟩))) $$ [Hat] with Hz
  · isplitr; · iapply (inv_at m K (c, .inr (.inr ⟨k, hk⟩))); iexact HR
    iexact Hat
  iapply Hk
  isplitl [HO]; · iexact HO
  iapply (Entails.of_eq (phase_put (hS ho)))
  isplitl [Hp Hz]
  · unfold recvDone; isplitl [Hp]; · iexact Hp
    iexact Hz
  iexact Hrest

theorem wait_send_step (c : Dev nD) (k : ℕ) (hk : k < 16) {S : Finset (Fin 16)}
    (W : Waits sig Unit) {sp' : Space} {s' : Shape} {e' : EltTy}
    {src : Memref sig .tc sp' s' e'} {κ' : Kind} {sp : Space} {s : Shape} {e : EltTy} {dst : Memref sig κ' sp s e} {hsrc : src.view.WordExact} {hdst : dst.view.WordExact}
    (hd : dst.view.dmaCredit = N)
    {α : Type} {Q : α → sProp 𝕄} {k' : PUnit → Prog (TpuEff nD τ sig (Elt F) Λ₀ .tc) α} :
    iprop(records m K ∗ owes (c : Thread nD τ) 0 W ∗ bigSep E (fun o => if o ∈ S then sendTodo c o else sendDone m c o) ∗ ⌜(⟨k, hk⟩ : Fin 16) ∈ S ∧ S ⊆ E⌝)
      ⊢ iprop(((owes (c : Thread nD τ) 0 (insert (SemLoc.dma (sendSem k hk), ()) W)
              ∗ bigSep E (fun o => if o ∈ S.erase ⟨k, hk⟩ then sendTodo c o else sendDone m c o))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (sendSem k hk) src dst hsrc hdst) k') Q) := by
  iintro ⟨#HR, HO, Hst, %h⟩ Hk
  obtain ⟨ho, hS⟩ := h
  ihave Hst := (Entails.of_eq (phase_take (hS ho) ho)) $$ Hst
  unfold sendTodo
  icases Hst with ⟨⟨Hc, Hat⟩, Hrest⟩
  iapply (Rounds.wp_wait_rest_token 𝒱₀ ER (sched m) (c : Thread nD τ) none (κ := K (c, .inr (.inl ⟨k, hk⟩)))
      (wpE_waitDma2_eq 𝒱₀ (c : Thread nD τ) none Set.univ) (Set.mem_univ _) () (O := 0) (W := W) (R := 0) (m := 0) (T := ∅)
      (by rw [Nat.zero_add, expect_send m c ⟨k, hk⟩ (Finset.ne_of_mem_erase (hS ho)), hd])) $$ [Hc HO Hat]
  · isplitr; · iapply (inv_at m K (c, .inr (.inl ⟨k, hk⟩))); iexact HR
    isplitl [Hc]; · rw [hd]; iexact Hc
    isplitl [HO]; · iexact HO
    isplitr; · rw [MayWait_zero]; iempintro
    iexact Hat
  iintro ⟨HO, Hat, -, Hpay⟩
  ihave Hp := (Entails.of_eq (rest_send m c ⟨k, hk⟩ (Finset.ne_of_mem_erase (hS ho)))) $$ Hpay
  imod (Rounds.cell_close ER (sched m) (Set.mem_univ (K (c, .inr (.inl ⟨k, hk⟩)))) (fun h => h) (R := 0 + 1) (duties_later m (sendCell c ⟨k, hk⟩))) $$ [Hat] with Hz
  · isplitr; · iapply (inv_at m K (c, .inr (.inl ⟨k, hk⟩))); iexact HR
    iexact Hat
  iapply Hk
  isplitl [HO]; · iexact HO
  iapply (Entails.of_eq (phase_put (hS ho)))
  isplitl [Hp Hz]
  · unfold sendDone; isplitl [Hp]; · iexact Hp
    iexact Hz
  iexact Hrest

/-- The two cells of offset 0 carry no duty: their owner closes them where it stands. -/
theorem close_send0 (c : Dev nD) : iprop(records m K ∗ atPos ER (sendCell c 0) 0 ∅ 0) ⊢ iprop(|={Set.univ}=> semVal (sendCell c 0) 0) := by
  iintro ⟨#HR, Hat⟩
  iapply (Rounds.cell_close ER (sched m) (Set.mem_univ (K (c, .inr (.inl 0)))) (fun h => h) (R := 0) (fun r _ => duties_send0 m c r))
  isplitr; · iapply (inv_at m K (c, .inr (.inl 0))); iexact HR
  iexact Hat
theorem close_recv0 (c : Dev nD) : iprop(records m K ∗ atPos ER (recvCell c 0) 0 ∅ 0) ⊢ iprop(|={Set.univ}=> semVal (recvCell c 0) 0) := by
  iintro ⟨#HR, Hat⟩
  iapply (Rounds.cell_close ER (sched m) (Set.mem_univ (K (c, .inr (.inr 0)))) (fun h => h) (R := 0) (fun r _ => duties_recv0 m c r))
  isplitr; · iapply (inv_at m K (c, .inr (.inr 0))); iexact HR
  iexact Hat

end Steps

end Cert.Kernel.Proto

end
-- ==== Proof.Bits.Views.lean ====
import proofs.«900480_g7700000000000481_dist_softmax_colshard_i_m1024_n1024_v7x_i16_bf16_1_alg».proof.Proof.Bits.Slots

/-!
# Elements and contents of the sixteen slots

Slot `o` of the 16 x 2 x 1024 statistics scratch is the set of elements whose first coordinate is `o`. The sixteen
slots are pairwise disjoint and cover the scratch, so the ownership of the scratch is the separating conjunction of the
ownerships of its slots; the ownership of any set of elements at the full share is the separating conjunction of sixteen
leaf shares of it. A transfer out of slot 0 of one scratch into slot `k` of another leaves, at position `(k, a, b)`,
the source's element at `(0, a, b)`.
-/

noncomputable section

namespace Cert.Kernel.Views

open Idealize.ShloMosaic Idealize.ShloMosaic.TcCoe Idealize.ShloMosaic.ValueIdx Cert.Kernel Cert.Kernel.Gen
open Cert.Kernel.Slots
open Idealize.SL Idealize.SL.RA Idealize.SL.BI
open scoped Idealize.SL.BI
open Idealize.SL.BI.BIBase Idealize.SL.BI.Laws

variable {F : FTy → Type} [FloatOps F] {Ix : Type} [DecidableEq Ix] {Name : Type} [DecidableEq Name] {U : Type} [URA U]
  {Lvl : Type}

local notation "𝕄" => MT nD τ sig Ix (Elt F) Name U Lvl

/-- The elements of slot `o` are those of the rectangle at first coordinate `o`. -/
theorem slotSet_eq (o : Fin 16) : slotSet o = (slotR o.val o.isLt).set := by
  unfold slotSet
  simp only [Memref.view_squeeze, Memref.view_slice, Memref.view_whole, View.set_reshape, View.set_slice_whole]

/-- An element is in slot `o` exactly when its first coordinate is `o`. -/
theorem mem_slotSet {o : Fin 16} {i : S16x2x1024.Idx} : i ∈ slotSet o ↔ (i 0).val = o.val := by
  rw [slotSet_eq, Rect.mem_set_unit]
  constructor
  · intro h
    have h0 := h 0
    simp only [Matrix.cons_val_zero] at h0
    have : S1x2x1024.size 0 = 1 := rfl
    omega
  · intro h a
    match a with
    | ⟨0, _⟩ =>
      show o.val ≤ (i 0).val ∧ (i 0).val < o.val + 1
      omega
    | ⟨1, _⟩ =>
      have h1 : (i 1).val < 2 := (i 1).isLt
      show 0 ≤ (i 1).val ∧ (i 1).val < 0 + 2
      omega
    | ⟨2, _⟩ =>
      have h2 : (i 2).val < 1024 := (i 2).isLt
      show 0 ≤ (i 2).val ∧ (i 2).val < 0 + 1024
      omega

/-- Distinct slots have no element in common. -/
theorem slotSet_disjoint (o o' : Fin 16) (h : o ≠ o') : Disjoint (slotSet o) (slotSet o') := by
  rw [Finset.disjoint_left]
  intro i hi hi'
  rw [mem_slotSet] at hi hi'
  exact h (Fin.ext (hi.symm.trans hi'))

/-- The sixteen slots cover the scratch. -/
theorem biUnion_slotSet : (Finset.univ : Finset (Fin 16)).biUnion slotSet = Finset.univ := by
  ext i
  simp only [Finset.mem_biUnion, Finset.mem_univ, true_and, iff_true]
  exact ⟨⟨(i 0).val, (i 0).isLt⟩, mem_slotSet.mpr rfl⟩

/-- The ownership of the whole scratch is the separating conjunction of the ownerships of its sixteen slots. -/
theorem scr_split (c : Dev nD) (q : PosShare TreeShare) (f : Buf (Elt F) ((c : Thread nD τ).loc cc0_scratch0)) :
    (((c : Thread nD τ).loc cc0_scratch0) ↦{q} f : sProp 𝕄)
      = bigSep Finset.univ (fun o : Fin 16 => ((c : Thread nD τ).loc cc0_scratch0) ↦[slotSet o]{q} f) := by
  have h := pointsTo_biUnion (nD := nD) (τ := τ) (sig := sig) (Ix := Ix) (Val := Elt F) (Name := Name) (U := U) (Lvl := Lvl)
    (ℓ := ((c : Thread nD τ).loc cc0_scratch0)) (q := q) (f := f) (Finset.univ : Finset (Fin 16)) slotSet
    (fun o _ o' _ hne => slotSet_disjoint o o' hne)
  rw [biUnion_slotSet] at h
  exact h

/-- Where the element `(a, b)` of slot `k`, seen as a 2 x 1024 array, sits in the scratch: at `(k, a, b)`. -/
theorem slotM_emb (k : Nat) (hk : k < 16) (a : Fin 2) (b : Fin 1024) :
    (slotM k hk).view.emb (ix2 a b) = ix3 (⟨k, hk⟩ : Fin 16) a b := by
  show (slotR k hk).emb (Shape.reshapeEquiv (squeezes_S1x2x1024_S2x1024).numel_eq (ix2 a b)) = _
  rw [Shape.reshapeEquiv_cons_one (n := 2) (d := ![2, 1024])]
  funext x
  apply Fin.ext
  match x with
  | ⟨0, _⟩ => show k + 1 * 0 = k; omega
  | ⟨1, _⟩ => show 0 + 1 * a.val = a.val; omega
  | ⟨2, _⟩ => show 0 + 1 * b.val = b.val; omega

/-- Every element of slot `k` is `(k, a, b)` for some position `(a, b)`. -/
theorem exists_of_mem_slotSet {k : Nat} {hk : k < 16} {i : S16x2x1024.Idx} (hi : i ∈ slotSet ⟨k, hk⟩) :
    ∃ (a : Fin 2) (b : Fin 1024), i = ix3 (⟨k, hk⟩ : Fin 16) a b := by
  have h0 : (i 0).val = k := mem_slotSet.mp hi
  refine ⟨⟨(i 1).val, (i 1).isLt⟩, ⟨(i 2).val, (i 2).isLt⟩, ?_⟩
  funext x
  apply Fin.ext
  match x with
  | ⟨0, _⟩ => exact h0
  | ⟨1, _⟩ => rfl
  | ⟨2, _⟩ => rfl

/-- What a transfer out of slot 0 of a scratch holding `fs` into slot `k` of a scratch holding `fd` leaves at an element
    of slot `k`: the source's element at the same position of slot 0. -/
theorem landed_at (c c' : Dev nD) (k : Nat) (hk : k < 16)
    (fd : Buf (Elt F) ((c' : Thread nD τ).loc cc0_scratch0)) (fs : Buf (Elt F) ((c : Thread nD τ).loc cc0_scratch0)) :
    ∀ i ∈ slotSet ⟨k, hk⟩,
      (slotM k hk).view.write (Elt F) fd ((slotM 0 (Nat.zero_lt_succ 15)).view.read (Elt F) fs) Finset.univ i
        = fs (ix3 (0 : Fin 16) (⟨(i 1).val, (i 1).isLt⟩ : Fin 2) (⟨(i 2).val, (i 2).isLt⟩ : Fin 1024)) := by
  intro i hi
  obtain ⟨a, b, rfl⟩ := exists_of_mem_slotSet hi
  show (slotM k hk).view.write (Elt F) fd ((slotM 0 (Nat.zero_lt_succ 15)).view.read (Elt F) fs) Finset.univ
      (ix3 (⟨k, hk⟩ : Fin 16) a b) = fs (ix3 (0 : Fin 16) a b)
  refine (congrArg ((slotM k hk).view.write (Elt F) fd ((slotM 0 (Nat.zero_lt_succ 15)).view.read (Elt F) fs) Finset.univ)
    (slotM_emb k hk a b).symm).trans ?_
  refine (View.write_emb_of_mem (v := (slotM k hk).view) (Val := Elt F) fd
    ((slotM 0 (Nat.zero_lt_succ 15)).view.read (Elt F) fs) (M := Finset.univ) (x := ix2 a b) (Finset.mem_univ _)).trans ?_
  refine (cast_eq _ _).trans ((View.read_apply _ _).trans ((cast_eq _ _).trans ?_))
  exact congrArg fs (slotM_emb 0 (Nat.zero_lt_succ 15) a b)

/-! ## Sixteen leaf shares of the full share -/

/-- One step down the binary splitting of a share: its right half for `true`, its left half for `false`. -/
def half (b : Bool) (q : PosShare TreeShare) : PosShare TreeShare := if b then q.right else q.left

/-- The four binary digits of an offset, most significant first. -/
def bits : Fin 16 ≃ Bool × Bool × Bool × Bool where
  toFun o := (o.val.testBit 3, o.val.testBit 2, o.val.testBit 1, o.val.testBit 0)
  invFun p := ⟨p.1.toNat * 8 + p.2.1.toNat * 4 + p.2.2.1.toNat * 2 + p.2.2.2.toNat, by
    obtain ⟨a, b, c, d⟩ := p
    cases a <;> cases b <;> cases c <;> cases d <;> decide⟩
  left_inv := fun o => by revert o; decide
  right_inv := fun p => by revert p; decide

/-- The leaf of the depth-four splitting of the full share reached by four digits. -/
def leaf (p : Bool × Bool × Bool × Bool) : PosShare TreeShare :=
  half p.2.2.2 (half p.2.2.1 (half p.2.1 (half p.1 fullShare)))

theorem shr_eq_leaf (o : Fin 16) : shr o = leaf (bits o) := rfl

section Share
variable (ℓ : Loc nD τ sig) (S : Finset (Idx ℓ)) (f : Buf (Elt F) ℓ)

/-- A share of a set of elements is the separating conjunction of its two halves. -/
theorem share_bool (q : PosShare TreeShare) :
    (ℓ ↦[S]{q} f : sProp 𝕄) = bigSep Finset.univ (fun b : Bool => ℓ ↦[S]{half b q} f) := by
  have hu : (Finset.univ : Finset Bool) = insert false {true} := by decide
  have hs : (ℓ ↦[S]{q} f : sProp 𝕄) ⊣⊢ iprop((ℓ ↦[S]{q.left} f) ∗ ℓ ↦[S]{q.right} f) :=
    pointsTo_share (PosShare.mem_left_op_right q)
  rw [hu, bigSep_insert (by decide), bigSep_singleton]
  exact BI.equiv_iff.mp ⟨hs.1, hs.2⟩

/-- The full share of a set of elements is the separating conjunction of sixteen leaf shares of it. -/
theorem share_split :
    (ℓ ↦[S]{fullShare} f : sProp 𝕄) = bigSep Finset.univ (fun o : Fin 16 => ℓ ↦[S]{shr o} f) := by
  refine Eq.trans ?_ (bigSep_univ_equiv bits (fun p => (ℓ ↦[S]{leaf p} f : sProp 𝕄)))
  refine Eq.trans ?_ (bigSep_univ_prod (fun p : Bool × Bool × Bool × Bool => (ℓ ↦[S]{leaf p} f : sProp 𝕄))).symm
  refine (share_bool ℓ S f fullShare).trans (bigSep_congr fun a _ => ?_)
  refine Eq.trans ?_ (bigSep_univ_prod (fun p : Bool × Bool × Bool => (ℓ ↦[S]{leaf (a, p)} f : sProp 𝕄))).symm
  refine (share_bool ℓ S f (half a fullShare)).trans (bigSep_congr fun b _ => ?_)
  refine Eq.trans ?_ (bigSep_univ_prod (fun p : Bool × Bool => (ℓ ↦[S]{leaf (a, b, p)} f : sProp 𝕄))).symm
  refine (share_bool ℓ S f (half b (half a fullShare))).trans (bigSep_congr fun c _ => ?_)
  exact share_bool ℓ S f (half c (half b (half a fullShare)))

end Share

/-! ## The body's own load and store of slot 0 -/

/-- The rectangle of the body's load and store of its own statistics: slot 0. -/
abbrev r0 : Rect S16x2x1024 := Rect.unit (s := S16x2x1024) ![0, 0, 0] S1x2x1024.size inb_S16x2x1024_S1x2x1024_0_0_0

theorem r0_set : r0.set = slotSet 0 := (slotSet_eq 0).symm

/-- A load of slot 0 reads elements of slot 0 only. -/
theorem load0_sub : scrM.view.setOn r0.toLoadRect.set ⊆ slotSet 0 := by
  intro i hi
  obtain ⟨x, hx, rfl⟩ := Finset.mem_map.mp hi
  rw [← r0_set]
  exact hx

/-- A store to slot 0 writes elements of slot 0 only. -/
theorem store0_sub : (scrM.access r0).setOn Finset.univ ⊆ slotSet 0 := by
  rw [View.setOn_univ, ← r0_set]
  exact (View.set_slice_whole cc0_scratch0 r0).le

/-- Where the element `(0, a, b)` of the stored 1 x 2 x 1024 array sits in the scratch: at `(0, a, b)`. -/
theorem access0_emb (a : Fin 2) (b : Fin 1024) :
    (scrM.access r0).emb (ix3 (0 : Fin 1) a b) = ix3 (0 : Fin 16) a b := by
  show r0.emb (ix3 (0 : Fin 1) a b) = _
  funext x
  apply Fin.ext
  match x with
  | ⟨0, _⟩ => show 0 + 1 * 0 = 0; omega
  | ⟨1, _⟩ => show 0 + 1 * a.val = a.val; omega
  | ⟨2, _⟩ => show 0 + 1 * b.val = b.val; omega

/-- The store's value at an element of slot 0: the payload at the same position. -/
theorem store0_at (c : Dev nD) (f : Buf (Elt F) ((c : Thread nD τ).loc cc0_scratch0)) (w : r0.shape.Idx → Elt F .f32) :
    ∀ i ∈ slotSet 0,
      (scrM.access r0).write (Elt F) f w Finset.univ i
        = w (ix3 (0 : Fin 1) (⟨(i 1).val, (i 1).isLt⟩ : Fin 2) (⟨(i 2).val, (i 2).isLt⟩ : Fin 1024)) := by
  intro i hi
  obtain ⟨a, b, rfl⟩ := exists_of_mem_slotSet (k := 0) (hk := Nat.zero_lt_succ 15) hi
  show (scrM.access r0).write (Elt F) f w Finset.univ (ix3 (0 : Fin 16) a b) = w (ix3 (0 : Fin 1) a b)
  refine (congrArg ((scrM.access r0).write (Elt F) f w Finset.univ) (access0_emb a b).symm).trans ?_
  refine (View.write_emb_of_mem (v := scrM.access r0) (Val := Elt F) f w (M := Finset.univ)
    (x := ix3 (0 : Fin 1) a b) (Finset.mem_univ _)).trans ?_
  exact cast_eq _ _

/-! ## The slots' contents against the specification -/

/-- Slot `k` of device `c + k`, once the transfer out of slot 0 of device `c` has landed, holds what the specification
    says: the statistics of device `(c + k) - k = c`. -/
theorem landed_scrOf_of (X : Dev nD → Vec F S1024x1024 .f32) (c c' : Dev nD) (k : Nat) (hk : k < 16)
    (hc : c' = c + (⟨k, hk⟩ : Fin 16))
    (fd : Buf (Elt F) ((c' : Thread nD τ).loc cc0_scratch0)) (fs : Buf (Elt F) ((c : Thread nD τ).loc cc0_scratch0))
    (hfs : ∀ i ∈ slotSet 0, fs i = Cert.Kernel.Spec.scrOf X c i) :
    ∀ i ∈ slotSet ⟨k, hk⟩,
      (slotM k hk).view.write (Elt F) fd ((slotM 0 (Nat.zero_lt_succ 15)).view.read (Elt F) fs) Finset.univ i
        = Cert.Kernel.Spec.scrOf X c' i := by
  intro i hi
  refine (landed_at c c' k hk fd fs i hi).trans ?_
  obtain ⟨a, b, rfl⟩ := exists_of_mem_slotSet hi
  refine (hfs (ix3 (0 : Fin 16) a b) (mem_slotSet.mpr rfl)).trans ?_
  subst hc
  show k0_pay6 (X (c - (0 : Fin 16))) (ix3 (0 : Fin 1) a b)
    = k0_pay6 (X (c + (⟨k, hk⟩ : Fin 16) - (⟨k, hk⟩ : Fin 16))) (ix3 (0 : Fin 1) a b)
  rw [sub_zero, add_sub_cancel_right]

/-- The same with the source scratch holding exactly what the specification says. -/
theorem landed_scrOf (X : Dev nD → Vec F S1024x1024 .f32) (c : Dev nD) (k : Nat) (hk : k < 16)
    (fd : Buf (Elt F) (((c + (⟨k, hk⟩ : Fin 16) : Dev nD) : Thread nD τ).loc cc0_scratch0)) :
    ∀ i ∈ slotSet (⟨k, hk⟩ : Fin 16),
      (slotM k hk).view.write (Elt F) fd
          ((slotM 0 (Nat.zero_lt_succ 15)).view.read (Elt F) (Cert.Kernel.Spec.scrOf X c)) Finset.univ i
        = Cert.Kernel.Spec.scrOf X (c + (⟨k, hk⟩ : Fin 16)) i :=
  landed_scrOf_of X c (c + (⟨k, hk⟩ : Fin 16)) k hk rfl fd (Cert.Kernel.Spec.scrOf X c) (fun _ _ => rfl)

/-- Slot 0 of device `c`, once the body has stored its own statistics, holds what the specification says. -/
theorem stored_scrOf (X : Dev nD → Vec F S1024x1024 .f32) (c : Dev nD)
    (f : Buf (Elt F) ((c : Thread nD τ).loc cc0_scratch0)) :
    ∀ i ∈ slotSet 0, (scrM.access r0).write (Elt F) f (k0_pay6 (X c)) Finset.univ i = Cert.Kernel.Spec.scrOf X c i := by
  intro i hi
  refine (store0_at c f (k0_pay6 (X c)) i hi).trans ?_
  obtain ⟨a, b, rfl⟩ := exists_of_mem_slotSet (k := 0) (hk := Nat.zero_lt_succ 15) hi
  show k0_pay6 (X c) (ix3 (0 : Fin 1) a b) = k0_pay6 (X (c - (0 : Fin 16))) (ix3 (0 : Fin 1) a b)
  rw [sub_zero]

/-- info: 'Cert.Kernel.Views.stored_scrOf' depends on axioms: [propext, Classical.choice, Quot.sound] -/
#guard_msgs in
#print axioms stored_scrOf

end Cert.Kernel.Views

end
-- ==== Proof.Bits.BodyAux.lean ====
import proofs.«900480_g7700000000000481_dist_softmax_colshard_i_m1024_n1024_v7x_i16_bf16_1_alg».proof.Proof.Bits.Steps
import proofs.«900480_g7700000000000481_dist_softmax_colshard_i_m1024_n1024_v7x_i16_bf16_1_alg».proof.Proof.Bits.Views
import proofs.«900480_g7700000000000481_dist_softmax_colshard_i_m1024_n1024_v7x_i16_bf16_1_alg».proof.Proof.Gen.Kernel.Points

/-!
# Bookkeeping around the body

The devices the kernel's signals and transfers address, in closed form; how a device's holdings at entry are regrouped
into the assertions the phases spend, and how what the phases leave is regrouped into the whole scratch and the
semaphores at zero.
-/

noncomputable section

namespace Cert.Kernel.Proto

open Cert.Kernel Cert.Kernel.Gen Cert.Kernel.Slots Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The addressed devices: the `j`-th signal goes to `c + j = c - (16 - j)`, the `j`-th transfer to `c + j` -/

theorem devS1_eq (c : Dev nD) : (⟨k0_dev1 c, k0_dev1_lt c⟩ : Dev nD) = c - (15 : Fin 16) :=
  Fin.ext ((k0_dev1_eq c).trans (by revert c; decide))
theorem devS2_eq (c : Dev nD) : (⟨k0_dev2 c, k0_dev2_lt c⟩ : Dev nD) = c - (14 : Fin 16) :=
  Fin.ext ((k0_dev2_eq c).trans (by revert c; decide))
theorem devS3_eq (c : Dev nD) : (⟨k0_dev3 c, k0_dev3_lt c⟩ : Dev nD) = c - (13 : Fin 16) :=
  Fin.ext ((k0_dev3_eq c).trans (by revert c; decide))
theorem devS4_eq (c : Dev nD) : (⟨k0_dev4 c, k0_dev4_lt c⟩ : Dev nD) = c - (12 : Fin 16) :=
  Fin.ext ((k0_dev4_eq c).trans (by revert c; decide))
theorem devS5_eq (c : Dev nD) : (⟨k0_dev5 c, k0_dev5_lt c⟩ : Dev nD) = c - (11 : Fin 16) :=
  Fin.ext ((k0_dev5_eq c).trans (by revert c; decide))
theorem devS6_eq (c : Dev nD) : (⟨k0_dev6 c, k0_dev6_lt c⟩ : Dev nD) = c - (10 : Fin 16) :=
  Fin.ext ((k0_dev6_eq c).trans (by revert c; decide))
theorem devS7_eq (c : Dev nD) : (⟨k0_dev7 c, k0_dev7_lt c⟩ : Dev nD) = c - (9 : Fin 16) :=
  Fin.ext ((k0_dev7_eq c).trans (by revert c; decide))
theorem devS8_eq (c : Dev nD) : (⟨k0_dev8 c, k0_dev8_lt c⟩ : Dev nD) = c - (8 : Fin 16) :=
  Fin.ext ((k0_dev8_eq c).trans (by revert c; decide))
theorem devS9_eq (c : Dev nD) : (⟨k0_dev9 c, k0_dev9_lt c⟩ : Dev nD) = c - (7 : Fin 16) :=
  Fin.ext ((k0_dev9_eq c).trans (by revert c; decide))
theorem devS10_eq (c : Dev nD) : (⟨k0_dev10 c, k0_dev10_lt c⟩ : Dev nD) = c - (6 : Fin 16) :=
  Fin.ext ((k0_dev10_eq c).trans (by revert c; decide))
theorem devS11_eq (c : Dev nD) : (⟨k0_dev11 c, k0_dev11_lt c⟩ : Dev nD) = c - (5 : Fin 16) :=
  Fin.ext ((k0_dev11_eq c).trans (by revert c; decide))
theorem devS12_eq (c : Dev nD) : (⟨k0_dev12 c, k0_dev12_lt c⟩ : Dev nD) = c - (4 : Fin 16) :=
  Fin.ext ((k0_dev12_eq c).trans (by revert c; decide))
theorem devS13_eq (c : Dev nD) : (⟨k0_dev13 c, k0_dev13_lt c⟩ : Dev nD) = c - (3 : Fin 16) :=
  Fin.ext ((k0_dev13_eq c).trans (by revert c; decide))
theorem devS14_eq (c : Dev nD) : (⟨k0_dev14 c, k0_dev14_lt c⟩ : Dev nD) = c - (2 : Fin 16) :=
  Fin.ext ((k0_dev14_eq c).trans (by revert c; decide))
theorem devS15_eq (c : Dev nD) : (⟨k0_dev15 c, k0_dev15_lt c⟩ : Dev nD) = c - (1 : Fin 16) :=
  Fin.ext ((k0_dev15_eq c).trans (by revert c; decide))
theorem devT1_eq (c : Dev nD) : (⟨k0_dev16 c, k0_dev16_lt c⟩ : Dev nD) = c + (⟨1, by decide⟩ : Fin 16) :=
  Fin.ext ((k0_dev16_eq c).trans (by revert c; decide))
theorem devT2_eq (c : Dev nD) : (⟨k0_dev17 c, k0_dev17_lt c⟩ : Dev nD) = c + (⟨2, by decide⟩ : Fin 16) :=
  Fin.ext ((k0_dev17_eq c).trans (by revert c; decide))
theorem devT3_eq (c : Dev nD) : (⟨k0_dev18 c, k0_dev18_lt c⟩ : Dev nD) = c + (⟨3, by decide⟩ : Fin 16) :=
  Fin.ext ((k0_dev18_eq c).trans (by revert c; decide))
theorem devT4_eq (c : Dev nD) : (⟨k0_dev19 c, k0_dev19_lt c⟩ : Dev nD) = c + (⟨4, by decide⟩ : Fin 16) :=
  Fin.ext ((k0_dev19_eq c).trans (by revert c; decide))
theorem devT5_eq (c : Dev nD) : (⟨k0_dev20 c, k0_dev20_lt c⟩ : Dev nD) = c + (⟨5, by decide⟩ : Fin 16) :=
  Fin.ext ((k0_dev20_eq c).trans (by revert c; decide))
theorem devT6_eq (c : Dev nD) : (⟨k0_dev21 c, k0_dev21_lt c⟩ : Dev nD) = c + (⟨6, by decide⟩ : Fin 16) :=
  Fin.ext ((k0_dev21_eq c).trans (by revert c; decide))
theorem devT7_eq (c : Dev nD) : (⟨k0_dev22 c, k0_dev22_lt c⟩ : Dev nD) = c + (⟨7, by decide⟩ : Fin 16) :=
  Fin.ext ((k0_dev22_eq c).trans (by revert c; decide))
theorem devT8_eq (c : Dev nD) : (⟨k0_dev23 c, k0_dev23_lt c⟩ : Dev nD) = c + (⟨8, by decide⟩ : Fin 16) :=
  Fin.ext ((k0_dev23_eq c).trans (by revert c; decide))
theorem devT9_eq (c : Dev nD) : (⟨k0_dev24 c, k0_dev24_lt c⟩ : Dev nD) = c + (⟨9, by decide⟩ : Fin 16) :=
  Fin.ext ((k0_dev24_eq c).trans (by revert c; decide))
theorem devT10_eq (c : Dev nD) : (⟨k0_dev25 c, k0_dev25_lt c⟩ : Dev nD) = c + (⟨10, by decide⟩ : Fin 16) :=
  Fin.ext ((k0_dev25_eq c).trans (by revert c; decide))
theorem devT11_eq (c : Dev nD) : (⟨k0_dev26 c, k0_dev26_lt c⟩ : Dev nD) = c + (⟨11, by decide⟩ : Fin 16) :=
  Fin.ext ((k0_dev26_eq c).trans (by revert c; decide))
theorem devT12_eq (c : Dev nD) : (⟨k0_dev27 c, k0_dev27_lt c⟩ : Dev nD) = c + (⟨12, by decide⟩ : Fin 16) :=
  Fin.ext ((k0_dev27_eq c).trans (by revert c; decide))
theorem devT13_eq (c : Dev nD) : (⟨k0_dev28 c, k0_dev28_lt c⟩ : Dev nD) = c + (⟨13, by decide⟩ : Fin 16) :=
  Fin.ext ((k0_dev28_eq c).trans (by revert c; decide))
theorem devT14_eq (c : Dev nD) : (⟨k0_dev29 c, k0_dev29_lt c⟩ : Dev nD) = c + (⟨14, by decide⟩ : Fin 16) :=
  Fin.ext ((k0_dev29_eq c).trans (by revert c; decide))
theorem devT15_eq (c : Dev nD) : (⟨k0_dev30 c, k0_dev30_lt c⟩ : Dev nD) = c + (⟨15, by decide⟩ : Fin 16) :=
  Fin.ext ((k0_dev30_eq c).trans (by revert c; decide))

/-! ## The one grid point, the windows -/

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev rX : Rect S1024x1024 := Rect.unit (s := S1024x1024) ![0, 0] S1024x1024.size inb_S1024x1024_S1024x1024_0_0
theorem hz2 : (![0, 0] : Fin 2 → Nat) = fun _ => 0 := funext fun a => by fin_cases a <;> rfl
theorem read_x (f : (cc0_stg0_0 : Ref sig .tc).ty.Contents (Elt F)) :
    (Memref.whole cc0_stg0_0 : Memref sig .tc .vmem S1024x1024 .f32).view.readAt (Elt F) rX.toLoadRect f = f :=
  Memref.readAt_unit_zero (Elt F) cc0_stg0_0 hz2 _ f
theorem read_out (f : (cc0_stg1_0 : Ref sig .tc).ty.Contents (Elt F)) :
    (Memref.whole cc0_stg1_0 : Memref sig .tc .vmem S1024x1024 .bf16).view.readAt (Elt F) rX.toLoadRect f = f :=
  Memref.readAt_unit_zero (Elt F) cc0_stg1_0 hz2 _ f
theorem write_out (f w : (cc0_stg1_0 : Ref sig .tc).ty.Contents (Elt F)) :
    ((Memref.whole cc0_stg1_0 : Memref sig .tc .vmem S1024x1024 .bf16).access rX : View sig .tc _ _ _).write (Elt F) f w Finset.univ = w :=
  Memref.write_access_unit_zero_univ (Elt F) cc0_stg1_0 hz2 _ f w

/-! ## Regrouping -/

/-- A device's positions: its barrier cell's, and for departures and arrivals the unused offset 0 apart from the fifteen. -/
theorem positions_eq (c : Dev nD) :
    positions (F := F) c = iprop(atPos ER (barCell c) 0 ∅ 0
      ∗ (atPos ER (sendCell c 0) 0 ∅ 0 ∗ bigSep E (fun o => atPos ER (sendCell c o) 0 ∅ 0))
      ∗ (atPos ER (recvCell c 0) 0 ∅ 0 ∗ bigSep E (fun o => atPos ER (recvCell c o) 0 ∅ 0))) := by
  unfold positions
  rw [bigSep_univ_sum, bigSep_univ_sum, bigSep_univ_of_subsingleton (), bigSep_univ_split (0 : Fin 16), bigSep_univ_split (0 : Fin 16)]
  rfl

/-- The own semaphores at zero, the same way. -/
theorem semVals_eq (c : Dev nD) :
    (bigSep Finset.univ fun j : Fin 16 ⊕ Fin 16 => (semVal (kcell (c, .inr j)) 0 : sProp 𝕄))
      = iprop((semVal (sendCell c 0) 0 ∗ bigSep E (fun o => semVal (sendCell c o) 0))
        ∗ (semVal (recvCell c 0) 0 ∗ bigSep E (fun o => semVal (recvCell c o) 0))) := by
  rw [bigSep_univ_sum, bigSep_univ_split (0 : Fin 16), bigSep_univ_split (0 : Fin 16)]
  rfl

/-- The whole scratch is its sixteen slots: slot 0 and the fifteen others. -/
theorem scr_slots (c : Dev nD) (f : Buf (Elt F) ((c : Thread nD τ).loc cc0_scratch0)) :
    scrPts (F := F) c f = iprop(slotPts c 0 fullShare f ∗ bigSep E (fun k => slotPts c k fullShare f)) := by
  unfold scrPts slotPts
  rw [Views.scr_split c fullShare f, bigSep_univ_split (0 : Fin 16)]
  rfl

/-- Slot 0 at the full share is its sixteen shares: the one kept and the fifteen lent to the transfers. -/
theorem slot0_shares (c : Dev nD) (f : Buf (Elt F) ((c : Thread nD τ).loc cc0_scratch0)) :
    slotPts (F := F) c 0 fullShare f = iprop(slotPts c 0 (shr 0) f ∗ bigSep E (fun o => slotPts c 0 (shr o) f)) := by
  unfold slotPts
  rw [Views.share_split ((c : Thread nD τ).loc cc0_scratch0) (slotSet 0) f, bigSep_univ_split (0 : Fin 16)]
  rfl

theorem mk_sig (c : Dev nD) (f : Buf (Elt F) ((c : Thread nD τ).loc cc0_scratch0)) :
    iprop((bigSep E fun k => tokB (F := F) c k) ∗ bigSep E (fun k => slotPts c k fullShare f)) ⊢ bigSep E (sigRes c) := by
  rw [← bigSep_sep']
  exact bigSep_mono fun k _ => show iprop(tokB c k ∗ slotPts c k fullShare f) ⊢ sigRes c k from by
    unfold sigRes
    iintro ⟨H1, H2⟩
    isplitl [H1]; · iexact H1
    iexists f; iexact H2

theorem mk_send (c : Dev nD) :
    iprop((bigSep E fun o => tokR (F := F) c o) ∗ (bigSep E fun o => tokS c o) ∗ (bigSep E fun o => barPay c o)
        ∗ bigSep E (fun o => slotPts c 0 (shr o) (scrOf (X m) c)))
      ⊢ bigSep E (fun o => if o ∈ E then sendRes m c o else cred (tallyAt (sendCell c o) () N)) := by
  rw [← phase_all, ← bigSep_sep', ← bigSep_sep', ← bigSep_sep']
  exact bigSep_mono fun o _ => by unfold sendRes; exact BI.Entails.refl _

theorem mk_recv (c : Dev nD) :
    iprop((bigSep E fun o => cred (tallyAt (recvCell c o) () N)) ∗ bigSep E (fun o => atPos ER (recvCell c o) 0 ∅ 0))
      ⊢ bigSep E (fun o => if o ∈ E then recvTodo (F := F) c o else recvDone m c o) := by
  rw [← phase_all, ← bigSep_sep']
  exact bigSep_mono fun o _ => by unfold recvTodo; exact BI.Entails.refl _

theorem mk_sendw (c : Dev nD) :
    iprop((bigSep E fun o => cred (tallyAt (sendCell c o) () N)) ∗ bigSep E (fun o => atPos ER (sendCell c o) 0 ∅ 0))
      ⊢ bigSep E (fun o => if o ∈ E then sendTodo (F := F) c o else sendDone m c o) := by
  rw [← phase_all, ← bigSep_sep']
  exact bigSep_mono fun o _ => by unfold sendTodo; exact BI.Entails.refl _

theorem recvDone_eq (c : Dev nD) :
    bigSep E (recvDone m c) = iprop((bigSep E fun o => slotPts c o fullShare (scrOf (X m) c)) ∗ bigSep E (fun o => semVal (recvCell c o) 0)) := by
  rw [← bigSep_sep']; rfl
theorem sendDone_eq (c : Dev nD) :
    bigSep E (sendDone m c) = iprop((bigSep E fun o => slotPts c 0 (shr o) (scrOf (X m) c)) ∗ bigSep E (fun o => semVal (sendCell c o) 0)) := by
  rw [← bigSep_sep']; rfl

end Cert.Kernel.Proto

end
-- ==== Proof.Bits.Body.lean ====
import proofs.«900480_g7700000000000481_dist_softmax_colshard_i_m1024_n1024_v7x_i16_bf16_1_alg».proof.Proof.Bits.BodyAux

/-!
# One device's body

From what the launch hands a device — the shared records, its positions and tokens, its credit for the waits others pay,
its scratch and its two staged blocks — the body runs: fifteen signals, each handing the target the slot it will write;
the local maxima, exponentials and sums; the barrier wait, which brings the fifteen slots to write; the fifteen transfers
of slot 0, each reading its own share of it; the waits for the fifteen arrivals and the fifteen departures, which bring
the slots back filled and the shares back; and the rescaling from the sixteen slots.
-/

noncomputable section

namespace Cert.Kernel.Proto

open Cert.Kernel Cert.Kernel.Gen Cert.Kernel.Slots Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × CI → ℕ)

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop((ghost m K c ∗ cred (tallyAt (barCell c) () 15) ∗ (bigSep E fun o => cred (tallyAt (recvCell c o) () N)) ∗ levAts L lv ∗ ∃ f, scrPts c f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (X m c) ∗ stg c cc0_stg1_0 (outAt m c))

theorem owes_any (c : Dev nD) {W' : Waits sig Unit} {B : Set (SemLoc sig × Unit)} (hB : ∀ x, x ∈ B) :
    (owes (c : Thread nD τ) 0 W' : sProp 𝕄) ⊢ iprop(∃ W : Waits sig Unit, ⌜(↑W : Set (SemLoc sig × Unit)) ⊆ B⌝ ∗ owes (c : Thread nD τ) 0 W) := by
  iintro H
  iexists W'
  isplitr; · ipureintro; exact fun x _ => hB x
  iexact H

set_option maxHeartbeats 4000000 in
set_option maxRecDepth 65536 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost linear payToks
  iintro ⟨⟨⟨⟨#HR, Hpos, HtB, HtR, HtS⟩, HcB, HcR, #Hlev, ⟨%f0, Hscr⟩⟩, Ho, ⟨%d0, %g0, %hg0, Hx⟩, ⟨%d1, %g1, %hg1, Hout⟩⟩, Hk⟩
  have hx : g0 = X m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  unfold O₀
  ihave Hpos := (Entails.of_eq (positions_eq c)) $$ Hpos
  icases Hpos with ⟨HatB, ⟨HaS0, HaS⟩, ⟨HaR0, HaR⟩⟩
  ihave Hscr := (Entails.of_eq (scr_slots c f0)) $$ Hscr
  icases Hscr with ⟨Hs0, Hsl⟩
  ihave Hsig := (mk_sig c f0) $$ [HtB Hsl]
  · isplitl [HtB]; · iexact HtB
    iexact Hsl
  -- the fifteen signals
  iapply (sig_step m K c _ (15 : Fin 16) (devS1_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (14 : Fin 16) (devS2_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (13 : Fin 16) (devS3_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (12 : Fin 16) (devS4_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (11 : Fin 16) (devS5_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (10 : Fin 16) (devS6_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (9 : Fin 16) (devS7_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (8 : Fin 16) (devS8_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (7 : Fin 16) (devS9_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (6 : Fin 16) (devS10_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (5 : Fin 16) (devS11_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (4 : Fin 16) (devS12_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (3 : Fin 16) (devS13_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (2 : Fin 16) (devS14_eq c) (owedR c E) _ rfl) $$ [HO Hsig]
  · isplitr; · iexact HR
    isplitl [HO]; · iexact HO
    isplitl [Hsig]; · iexact Hsig
    ipureintro; decide
  iintro ⟨HO, Hsig⟩
  iapply (sig_step m K c _ (1 : Fin 16) (devS15_eq c) (owedR c E) _ rfl) $$ [HO Hsig]
  · isplitr; · iexact HR
    isplitl [HO]; · iexact HO
    isplitl [Hsig]; · iexact Hsig
    ipureintro; decide
  iintro ⟨HO, Hsig⟩
  ihave HO := (sig_done (F := F) c (owedR c E) _) $$ [HO]
  · isplitl [HO]; · iexact HO
    ipureintro; decide
  -- its own block, and its statistics into slot 0
  iapply (wp_load 𝒱₀ (c : Thread nD τ) none Set.univ (m := (Memref.whole cc0_stg0_0 : Memref sig .tc .vmem S1024x1024 .f32)) (Finset.subset_univ _)) $$ Hx; iintro Hx
  rw [read_x]
  iapply (wp_load 𝒱₀ (c : Thread nD τ) none Set.univ (m := scrM) Views.load0_sub) $$ Hs0; iintro Hs0
  iapply (wp_store 𝒱₀ (c : Thread nD τ) none Set.univ (m := scrM) (r := Views.r0) (Mk := Finset.univ) Views.store0_sub) $$ Hs0; iintro Hs0
  ihave Hs0 := (Entails.of_eq (pointsTo_congr (Views.stored_scrOf (X m) c f0))) $$ Hs0
  -- the barrier
  iapply (wait_bar_step m K c E _ rfl) $$ [HcB HO HatB]
  · isplitr; · iexact HR
    isplitl [HcB]; · iexact HcB
    isplitl [HO]; · iexact HO
    isplitr; · iexact Hlev
    iexact HatB
  iintro ⟨HO, HatB, Hpay⟩
  -- the fifteen transfers
  ihave Hs0 := (Entails.of_eq (slot0_shares c (scrOf (X m) c))) $$ Hs0
  icases Hs0 with ⟨Hsh0, Hshs⟩
  ihave Hst := (mk_send m c) $$ [HtR HtS Hpay Hshs]
  · isplitl [HtR]; · iexact HtR
    isplitl [HtS]; · iexact HtS
    isplitl [Hpay]; · iexact Hpay
    iexact Hshs
  iapply (send_step m K c _ 1 (by decide) (devT1_eq c) _ (Views.landed_scrOf (X m) c 1 (by decide))) $$ [HO Hst]
  · isplitr; · iexact HR
    isplitl [HO]; · iexact HO
    isplitl [Hst]; · iexact Hst
    ipureintro; decide
  iintro ⟨HO, Hst⟩
  iapply (send_step m K c _ 2 (by decide) (devT2_eq c) _ (Views.landed_scrOf (X m) c 2 (by decide))) $$ [HO Hst]
  · isplitr; · iexact HR
    isplitl [HO]; · iexact HO
    isplitl [Hst]; · iexact Hst
    ipureintro; decide
  iintro ⟨HO, Hst⟩
  iapply (send_step m K c _ 3 (by decide) (devT3_eq c) _ (Views.landed_scrOf (X m) c 3 (by decide))) $$ [HO Hst]
  · isplitr; · iexact HR
    isplitl [HO]; · iexact HO
    isplitl [Hst]; · iexact Hst
    ipureintro; decide
  iintro ⟨HO, Hst⟩
  iapply (send_step m K c _ 4 (by decide) (devT4_eq c) _ (Views.landed_scrOf (X m) c 4 (by decide))) $$ [HO Hst]
  · isplitr; · iexact HR
    isplitl [HO]; · iexact HO
    isplitl [Hst]; · iexact Hst
    ipureintro; decide
  iintro ⟨HO, Hst⟩
  iapply (send_step m K c _ 5 (by decide) (devT5_eq c) _ (Views.landed_scrOf (X m) c 5 (by decide))) $$ [HO Hst]
  · isplitr; · iexact HR
    isplitl [HO]; · iexact HO
    isplitl [Hst]; · iexact Hst
    ipureintro; decide
  iintro ⟨HO, Hst⟩
  iapply (send_step m K c _ 6 (by decide) (devT6_eq c) _ (Views.landed_scrOf (X m) c 6 (by decide))) $$ [HO Hst]
  · isplitr; · iexact HR
    isplitl [HO]; · iexact HO
    isplitl [Hst]; · iexact Hst
    ipureintro; decide
  iintro ⟨HO, Hst⟩
  iapply (send_step m K c _ 7 (by decide) (devT7_eq c) _ (Views.landed_scrOf (X m) c 7 (by decide))) $$ [HO Hst]
  · isplitr; · iexact HR
    isplitl [HO]; · iexact HO
    isplitl [Hst]; · iexact Hst
    ipureintro; decide
  iintro ⟨HO, Hst⟩
  iapply (send_step m K c _ 8 (by decide) (devT8_eq c) _ (Views.landed_scrOf (X m) c 8 (by decide))) $$ [HO Hst]
  · isplitr; · iexact HR
    isplitl [HO]; · iexact HO
    isplitl [Hst]; · iexact Hst
    ipureintro; decide
  iintro ⟨HO, Hst⟩
  iapply (send_step m K c _ 9 (by decide) (devT9_eq c) _ (Views.landed_scrOf (X m) c 9 (by decide))) $$ [HO Hst]
  · isplitr; · iexact HR
    isplitl [HO]; · iexact HO
    isplitl [Hst]; · iexact Hst
    ipureintro; decide
  iintro ⟨HO, Hst⟩
  iapply (send_step m K c _ 10 (by decide) (devT10_eq c) _ (Views.landed_scrOf (X m) c 10 (by decide))) $$ [HO Hst]
  · isplitr; · iexact HR
    isplitl [HO]; · iexact HO
    isplitl [Hst]; · iexact Hst
    ipureintro; decide
  iintro ⟨HO, Hst⟩
  iapply (send_step m K c _ 11 (by decide) (devT11_eq c) _ (Views.landed_scrOf (X m) c 11 (by decide))) $$ [HO Hst]
  · isplitr; · iexact HR
    isplitl [HO]; · iexact HO
    isplitl [Hst]; · iexact Hst
    ipureintro; decide
  iintro ⟨HO, Hst⟩
  iapply (send_step m K c _ 12 (by decide) (devT12_eq c) _ (Views.landed_scrOf (X m) c 12 (by decide))) $$ [HO Hst]
  · isplitr; · iexact HR
    isplitl [HO]; · iexact HO
    isplitl [Hst]; · iexact Hst
    ipureintro; decide
  iintro ⟨HO, Hst⟩
  iapply (send_step m K c _ 13 (by decide) (devT13_eq c) _ (Views.landed_scrOf (X m) c 13 (by decide))) $$ [HO Hst]
  · isplitr; · iexact HR
    isplitl [HO]; · iexact HO
    isplitl [Hst]; · iexact Hst
    ipureintro; decide
  iintro ⟨HO, Hst⟩
  iapply (send_step m K c _ 14 (by decide) (devT14_eq c) _ (Views.landed_scrOf (X m) c 14 (by decide))) $$ [HO Hst]
  · isplitr; · iexact HR
    isplitl [HO]; · iexact HO
    isplitl [Hst]; · iexact Hst
    ipureintro; decide
  iintro ⟨HO, Hst⟩
  iapply (send_step m K c _ 15 (by decide) (devT15_eq c) _ (Views.landed_scrOf (X m) c 15 (by decide))) $$ [HO Hst]
  · isplitr; · iexact HR
    isplitl [HO]; · iexact HO
    isplitl [Hst]; · iexact Hst
    ipureintro; decide
  iintro ⟨HO, Hst⟩
  ihave HO := (send_done (F := F) c _) $$ [HO]
  · isplitl [HO]; · iexact HO
    ipureintro; decide
  ihave HcS := (phase_finish (F := F)) $$ [Hst]
  · isplitl [Hst]; · iexact Hst
    ipureintro; decide
  -- the local exponentials into the result block
  iapply (wp_load 𝒱₀ (c : Thread nD τ) none Set.univ (m := (Memref.whole cc0_stg1_0 : Memref sig .tc .vmem S1024x1024 .bf16)) (Finset.subset_univ _)) $$ Hout; iintro Hout
  iapply (wp_store 𝒱₀ (c : Thread nD τ) none Set.univ (m := (Memref.whole cc0_stg1_0 : Memref sig .tc .vmem S1024x1024 .bf16)) (r := rX) (Mk := Finset.univ) (Finset.subset_univ _)) $$ Hout; iintro Hout
  rw [write_out]
  -- the fifteen arrivals
  ihave HstR := (mk_recv m c) $$ [HcR HaR]
  · isplitl [HcR]; · iexact HcR
    iexact HaR
  iapply (wait_recv_step m K c 1 (by decide) _ (dst := slotM 1 (by decide)) rfl) $$ [HO HstR]
  · isplitr; · iexact HR
    isplitl [HO]; · iexact HO
    isplitl [HstR]; · iexact HstR
    ipureintro; decide
  iintro ⟨HO, HstR⟩
  iapply (wait_recv_step m K c 2 (by decide) _ (dst := slotM 2 (by decide)) rfl) $$ [HO HstR]
  · isplitr; · iexact HR
    isplitl [HO]; · iexact HO
    isplitl [HstR]; · iexact HstR
    ipureintro; decide
  iintro ⟨HO, HstR⟩
  iapply (wait_recv_step m K c 3 (by decide) _ (dst := slotM 3 (by decide)) rfl) $$ [HO HstR]
  · isplitr; · iexact HR
    isplitl [HO]; · iexact HO
    isplitl [HstR]; · iexact HstR
    ipureintro; decide
  iintro ⟨HO, HstR⟩
  iapply (wait_recv_step m K c 4 (by decide) _ (dst := slotM 4 (by decide)) rfl) $$ [HO HstR]
  · isplitr; · iexact HR
    isplitl [HO]; · iexact HO
    isplitl [HstR]; · iexact HstR
    ipureintro; decide
  iintro ⟨HO, HstR⟩
  iapply (wait_recv_step m K c 5 (by decide) _ (dst := slotM 5 (by decide)) rfl) $$ [HO HstR]
  · isplitr; · iexact HR
    isplitl [HO]; · iexact HO
    isplitl [HstR]; · iexact HstR
    ipureintro; decide
  iintro ⟨HO, HstR⟩
  iapply (wait_recv_step m K c 6 (by decide) _ (dst := slotM 6 (by decide)) rfl) $$ [HO HstR]
  · isplitr; · iexact HR
    isplitl [HO]; · iexact HO
    isplitl [HstR]; · iexact HstR
    ipureintro; decide
  iintro ⟨HO, HstR⟩
  iapply (wait_recv_step m K c 7 (by decide) _ (dst := slotM 7 (by decide)) rfl) $$ [HO HstR]
  · isplitr; · iexact HR
    isplitl [HO]; · iexact HO
    isplitl [HstR]; · iexact HstR
    ipureintro; decide
  iintro ⟨HO, HstR⟩
  iapply (wait_recv_step m K c 8 (by decide) _ (dst := slotM 8 (by decide)) rfl) $$ [HO HstR]
  · isplitr; · iexact HR
    isplitl [HO]; · iexact HO
    isplitl [HstR]; · iexact HstR
    ipureintro; decide
  iintro ⟨HO, HstR⟩
  iapply (wait_recv_step m K c 9 (by decide) _ (dst := slotM 9 (by decide)) rfl) $$ [HO HstR]
  · isplitr; · iexact HR
    isplitl [HO]; · iexact HO
    isplitl [HstR]; · iexact HstR
    ipureintro; decide
  iintro ⟨HO, HstR⟩
  iapply (wait_recv_step m K c 10 (by decide) _ (dst := slotM 10 (by decide)) rfl) $$ [HO HstR]
  · isplitr; · iexact HR
    isplitl [HO]; · iexact HO
    isplitl [HstR]; · iexact HstR
    ipureintro; decide
  iintro ⟨HO, HstR⟩
  iapply (wait_recv_step m K c 11 (by decide) _ (dst := slotM 11 (by decide)) rfl) $$ [HO HstR]
  · isplitr; · iexact HR
    isplitl [HO]; · iexact HO
    isplitl [HstR]; · iexact HstR
    ipureintro; decide
  iintro ⟨HO, HstR⟩
  iapply (wait_recv_step m K c 12 (by decide) _ (dst := slotM 12 (by decide)) rfl) $$ [HO HstR]
  · isplitr; · iexact HR
    isplitl [HO]; · iexact HO
    isplitl [HstR]; · iexact HstR
    ipureintro; decide
  iintro ⟨HO, HstR⟩
  iapply (wait_recv_step m K c 13 (by decide) _ (dst := slotM 13 (by decide)) rfl) $$ [HO HstR]
  · isplitr; · iexact HR
    isplitl [HO]; · iexact HO
    isplitl [HstR]; · iexact HstR
    ipureintro; decide
  iintro ⟨HO, HstR⟩
  iapply (wait_recv_step m K c 14 (by decide) _ (dst := slotM 14 (by decide)) rfl) $$ [HO HstR]
  · isplitr; · iexact HR
    isplitl [HO]; · iexact HO
    isplitl [HstR]; · iexact HstR
    ipureintro; decide
  iintro ⟨HO, HstR⟩
  iapply (wait_recv_step m K c 15 (by decide) _ (dst := slotM 15 (by decide)) rfl) $$ [HO HstR]
  · isplitr; · iexact HR
    isplitl [HO]; · iexact HO
    isplitl [HstR]; · iexact HstR
    ipureintro; decide
  iintro ⟨HO, HstR⟩
  ihave HstR := (phase_finish (F := F)) $$ [HstR]
  · isplitl [HstR]; · iexact HstR
    ipureintro; decide
  -- the fifteen departures
  ihave HstS := (mk_sendw m c) $$ [HcS HaS]
  · isplitl [HcS]; · iexact HcS
    iexact HaS
  iapply (wait_send_step m K c 1 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 2 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 3 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 4 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 5 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 6 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 7 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 8 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 9 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 10 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 11 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 12 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 13 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 14 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  iapply (wait_send_step m K c 15 (by decide) _ (dst := slotM 0 (Nat.zero_lt_succ 15)) rfl) $$ [HO HstS]
  · isplitr; · iexact HR
    isplitl [HO]; · iexact HO
    isplitl [HstS]; · iexact HstS
    ipureintro; decide
  iintro ⟨HO, HstS⟩
  ihave HstS := (phase_finish (F := F)) $$ [HstS]
  · isplitl [HstS]; · iexact HstS
    ipureintro; decide
  -- the two unused cells close; the slots and the shares rejoin
  imod (close_send0 m K c) $$ [HaS0] with HzS0
  · isplitr; · iexact HR
    iexact HaS0
  imod (close_recv0 m K c) $$ [HaR0] with HzR0
  · isplitr; · iexact HR
    iexact HaR0
  ihave HstR := (Entails.of_eq (recvDone_eq m c)) $$ HstR
  icases HstR with ⟨Hslots, HzR⟩
  ihave HstS := (Entails.of_eq (sendDone_eq m c)) $$ HstS
  icases HstS with ⟨Hshs, HzS⟩
  ihave Hs0 := (Entails.of_eq (slot0_shares c (scrOf (X m) c)).symm) $$ [Hsh0 Hshs]
  · isplitl [Hsh0]; · iexact Hsh0
    iexact Hshs
  ihave Hscr := (Entails.of_eq (scr_slots c (scrOf (X m) c)).symm) $$ [Hs0 Hslots]
  · isplitl [Hs0]; · iexact Hs0
    iexact Hslots
  unfold scrPts
  -- the global statistics, and the rescaled result
  iapply (wp_load 𝒱₀ (c : Thread nD τ) none Set.univ (m := scrM) (Finset.subset_univ _)) $$ Hscr; iintro Hscr
  iapply (wp_load 𝒱₀ (c : Thread nD τ) none Set.univ (m := scrM) (Finset.subset_univ _)) $$ Hscr; iintro Hscr
  iapply (wp_load 𝒱₀ (c : Thread nD τ) none Set.univ (m := (Memref.whole cc0_stg1_0 : Memref sig .tc .vmem S1024x1024 .bf16)) (Finset.subset_univ _)) $$ Hout; iintro Hout
  rw [read_out]
  iapply (wp_load 𝒱₀ (c : Thread nD τ) none Set.univ (m := (Memref.whole cc0_stg1_0 : Memref sig .tc .vmem S1024x1024 .bf16)) (Finset.subset_univ _)) $$ Hout; iintro Hout
  iapply (wp_store 𝒱₀ (c : Thread nD τ) none Set.univ (m := (Memref.whole cc0_stg1_0 : Memref sig .tc .vmem S1024x1024 .bf16)) (r := rX) (Mk := Finset.univ) (Finset.subset_univ _)) $$ Hout; iintro Hout
  rw [write_out, wp_ret]; imodintro
  iapply Hk
  unfold bodyPost Φ₁ Dat.owesAt Pipeline.owesWithin
  rw [show (dats m ρ 0 c).owed t0_0.succ = 0 from rfl, semVals_eq]
  isplitl [Hscr HzS0 HzS HzR0 HzR]
  · isplitl [Hscr]; · unfold scrPts; iexact Hscr
    isplitl [HzS0 HzS]
    · isplitl [HzS0]; · iexact HzS0
      iexact HzS
    isplitl [HzR0]; · iexact HzR0
    iexact HzR
  isplitl [HO]
  · iapply (owes_any (F := F) c (fun _ => Or.inl trivial))
    iexact HO
  isplitl [Hx]
  · iexists _; isplitr; · (ipureintro; rfl)
    iexact Hx
  iexists _; isplitr; · (ipureintro; rfl)
  iexact Hout

set_option maxRecDepth 65536 in
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 65536 in
/-- The pipeline's body obligation on device `c`: its one grid point is the body above. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.Kernel.Proto.body_obligation' depends on axioms: [propext, Classical.choice, Quot.sound] -/
#guard_msgs in #print axioms body_obligation

end Body

end Cert.Kernel.Proto

end
-- ==== Proof.Bits.Launch.lean ====
import proofs.«900480_g7700000000000481_dist_softmax_colshard_i_m1024_n1024_v7x_i16_bf16_1_alg».proof.Proof.Bits.Ghost
import proofs.«900480_g7700000000000481_dist_softmax_colshard_i_m1024_n1024_v7x_i16_bf16_1_alg».proof.Proof.Gen.Kernel.Points

/-!
# From the devices' bodies to the run of the program

Every device holds thirty-three cells: its barrier cell, and a departure and an arrival cell per offset. The launch mints,
for every cell, the tokens of its duties, and deals them to the devices that pay: the token of duty `k` of device `p`'s
barrier cell goes to device `p + k`, the token of the arrival cell `(p, o)` to device `p - o`, the token of a departure cell
stays. What the sixteen devices owe at launch adds up, cell by cell, to fifteen units on every barrier cell and one
transfer's credit on every arrival cell of a nonzero offset: the credit each device waits with.
-/

noncomputable section

namespace Cert.Kernel.Proto

open Cert.Kernel Cert.Kernel.Gen Cert.Kernel.Slots Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

theorem ownSemFacts : Pipeline.OwnSemFacts cfg0.spec osem := by decide

theorem share_eq (c : Dev nD) (w : Fin cfg0.W) : (dats m ρ 0 c).share w = fullShare := by unfold Dat.share; split <;> rfl

/-- A number for each semaphore: distinct cell indices name semaphores of distinct numbers. -/
def semCode : SemLoc sig → ℕ
  | .reg _ => 0
  | .dma q => q.val + 1

theorem csem_injective : Function.Injective csem := by
  intro a b h
  have hc := congrArg semCode h
  rcases a with u | o | o <;> rcases b with u' | o' | o'
  · rfl
  · have : (0 : ℕ) = 2 + o'.val + 1 := hc; omega
  · have : (0 : ℕ) = 18 + o'.val + 1 := hc; omega
  · have : 2 + o.val + 1 = (0 : ℕ) := hc; omega
  · have : 2 + o.val + 1 = 2 + o'.val + 1 := hc
    exact congrArg (fun x => Sum.inr (Sum.inl x)) (Fin.ext (by omega))
  · have : 2 + o.val + 1 = 18 + o'.val + 1 := hc; have := o.isLt; omega
  · have : 18 + o.val + 1 = (0 : ℕ) := hc; omega
  · have : 18 + o.val + 1 = 2 + o'.val + 1 := hc; have := o'.isLt; omega
  · have : 18 + o.val + 1 = 18 + o'.val + 1 := hc
    exact congrArg (fun x => Sum.inr (Sum.inr x)) (Fin.ext (by omega))

theorem kcell_injective : Function.Injective (kcell : Dev nD × CI → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def xCells : Finset (GSem nD τ sig) := Finset.univ.map ⟨kcell, kcell_injective⟩

/-- The tokens minted on one device: one per duty name of its barrier cell, one per departure and per arrival cell. -/
abbrev TI : Type := Fin 16 ⊕ (Fin 16 ⊕ Fin 16)
abbrev tcell : TI → CI
  | .inl _ => .inl ()
  | .inr j => .inr j
abbrev tduty : TI → Fin 16
  | .inl k => k
  | .inr _ => 0
abbrev tokOf (cj : Dev nD × TI) : GSem nD τ sig × ℕ × Fin 16 := (kcell (cj.1, tcell cj.2), 0, tduty cj.2)

theorem tokOf_injective : Function.Injective (tokOf : Dev nD × TI → GSem nD τ sig × ℕ × Fin 16) := by
  rintro ⟨c, j⟩ ⟨c', j'⟩ h
  have hk : (c, tcell j) = (c', tcell j') := kcell_injective (congrArg (fun x : GSem nD τ sig × ℕ × Fin 16 => x.1) h)
  have hd : tduty j = tduty j' := congrArg (fun x : GSem nD τ sig × ℕ × Fin 16 => x.2.2) h
  have h1 : c = c' := congrArg Prod.fst hk
  have h2 : tcell j = tcell j' := congrArg Prod.snd hk
  subst h1
  rcases j with k | j <;> rcases j' with k' | j'
  · have : k = k' := hd
    rw [this]
  · exact absurd h2 (fun h => by cases h)
  · exact absurd h2 (fun h => by cases h)
  · have : j = j' := Sum.inr.inj h2
    rw [this]

def xToks : Finset (GSem nD τ sig × ℕ × Fin 16) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun k : Fin 16 => dutyTok ER (barCell c) 0 k)
    ∗ (bigSep Finset.univ fun o : Fin 16 => dutyTok ER (sendCell c o) 0 0)
    ∗ bigSep Finset.univ fun o : Fin 16 => dutyTok ER (recvCell c o) 0 0)

/-- What the launch element deals device `c`. -/
def G (c : Dev nD) : sProp 𝕄 :=
  iprop((bigSep Finset.univ fun j : CI => roundState ER (sched m) (kcell (c, j)) 0)
    ∗ (bigSep Finset.univ fun j : CI => iprop(atPos ER (kcell (c, j)) 0 ∅ 0 ∗ reached ER (kcell (c, j)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) :
      bigSep xCells Φ = bigSep Finset.univ fun c : Dev nD => bigSep Finset.univ fun j : CI => Φ (kcell (c, j)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_univ_sum]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated, every device's share made -/

/-- The departure and arrival semaphores are the kernel's own thirty-two; -/
theorem ownSems0_eq (c : Dev nD) :
    (Pipeline.ownSems0 (Ix := Unit) (Name := ℕ) (U := UU) (Lvl := ℕ) (Val := Elt F) (τ := τ) osem c : sProp 𝕄)
      = bigSep Finset.univ fun j : Fin 16 ⊕ Fin 16 => semVal (kcell (c, .inr j)) 0 := rfl

/-- the barrier semaphore is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CI => semVal (kcell (c, j)) 0 : sProp 𝕄) := by
  rw [ownSems0_eq, unscopedSems0_eq, bigSep_univ_sum (fun j : CI => (semVal (kcell (c, j)) 0 : sProp 𝕄)),
    bigSep_univ_of_subsingleton () (Φ := fun u : Unit => (semVal (kcell (c, Sum.inl u)) 0 : sProp 𝕄))]
  show (_ : sProp 𝕄) ⊢ iprop(semVal (kcell (c, Sum.inl ())) 0 ∗ bigSep Finset.univ fun b : Fin 16 ⊕ Fin 16 => semVal (kcell (c, Sum.inr b)) 0)
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CI => iprop(∃ κ : ℕ, cellInv ER (sched m) κ (kcell (c, j))))
          ∗ (bigSep Finset.univ fun j : CI => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CI => semVal (kcell (c, j)) 0) ∗ bigSep Finset.univ fun j : CI => roundState ER (sched m) (kcell (c, j)) 0)
      ⊢ (|={Set.univ}=> bigSep Finset.univ fun j : CI => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CI → ℕ) (c : Dev nD) : iprop(records m K ∗ linear c) ⊢ G' m c := by
  unfold G' ghost
  iintro H
  iexists K
  iexact H

/-- The devices' places: by a fixed offset down, and up. -/
def downBy (k : Fin 16) : Dev nD ≃ Dev nD :=
  ⟨fun c => c - k, fun c => c + k, fun c => by revert c k; decide, fun c => by revert c k; decide⟩
def upBy (o : Fin 16) : Dev nD ≃ Dev nD :=
  ⟨fun c => c + o, fun c => c - o, fun c => by revert c o; decide, fun c => by revert c o; decide⟩

/-- A family over (device, name) dealt along a bijection of the devices per name, the name 0 left out. -/
theorem deal (Ψ : Dev nD → Fin 16 → sProp 𝕄) (e : Fin 16 → Dev nD ≃ Dev nD) :
    (bigSep Finset.univ fun c : Dev nD => bigSep Finset.univ fun k : Fin 16 => Ψ c k)
      ⊢ bigSep Finset.univ fun c : Dev nD => bigSep E fun k => Ψ (e k c) k := by
  rw [bigSep_univ_comm (fun (c : Dev nD) (k : Fin 16) => Ψ c k),
    bigSep_congr (s := Finset.univ) (fun (k : Fin 16) _ => bigSep_univ_equiv (e k) (fun c : Dev nD => Ψ c k)),
    bigSep_univ_comm (fun (k : Fin 16) (c : Dev nD) => Ψ (e k c) k)]
  exact bigSep_mono fun c _ => bigSep_subset (Finset.subset_univ _)

/-- The tokens dealt to their payers. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨HB, HS, HR⟩
  isplitl [HB]
  · iapply (deal (fun (c : Dev nD) (k : Fin 16) => (dutyTok ER (barCell c) 0 k : sProp 𝕄)) downBy); iexact HB
  isplitl [HR]
  · iapply (deal (fun (c : Dev nD) (o : Fin 16) => (dutyTok ER (recvCell c o) 0 0 : sProp 𝕄)) upBy); iexact HR
  · iapply (deal (fun (c : Dev nD) (o : Fin 16) => (dutyTok ER (sendCell c o) 0 0 : sProp 𝕄)) (fun _ => Equiv.refl _)); iexact HS

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : CI => iprop(∃ κ : ℕ, cellInv ER (sched m) κ (kcell (c, j))))
          ∗ (bigSep Finset.univ fun j : CI => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun j : CI => (atPos ER (kcell (c, j)) 0 ∅ 0 : sProp 𝕄)) (fun j => reached ER (kcell (c, j)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : CI => (atPos ER (kcell (c, j)) 0 ∅ 0 : sProp 𝕄)) payToks).symm).trans
      (bigSep_mono fun c _ => show _ ⊢ linear c from Entails.of_eq (by unfold linear positions; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem E_card : E.card = 15 := by decide

theorem add_sub_dev (x k : Fin 16) : x + k - k = x := by revert x k; decide
theorem sub_add_dev (x k : Fin 16) : x - k + k = x := by revert x k; decide

/-- Unit tallies on one cell add up to their number. -/
theorem sum_tallyAt_one (g : GSem nD τ sig) (s : Finset (Fin 16)) :
    (∑ _k ∈ s, (tallyAt g () 1 : CellTallies nD τ sig Unit)) = tallyAt g () s.card := by
  classical
  induction s using Finset.induction_on with
  | empty => rw [Finset.sum_empty, Finset.card_empty, tallyAt_zero]
  | insert a s ha ih => rw [Finset.sum_insert ha, ih, Finset.card_insert_of_notMem ha, tallyAt_add, Nat.add_comm]

/-- The barrier units the devices owe device `c`: one from each of the fifteen others. -/
theorem cred_bar (c : Dev nD) :
    (bigSep E fun k => Pipeline.launchCred (fun d : Dev nD => (tallyAt (barCell (d - k)) () 1 : CellTallies nD τ sig Unit)) c : sProp 𝕄)
      ⊢ cred (tallyAt (barCell c) () 15) := by
  refine (bigSep_mono (Ψ := fun _ => (cred (tallyAt (barCell c) () 1) : sProp 𝕄)) fun k _ =>
    Pipeline.launchCred_tallyAt (.reg barS) (fun d => d - k) (fun d => d + k) (fun x => add_sub_dev x k) (fun x => sub_add_dev x k) () 1 c).trans ?_
  rw [← Pipeline.cred_finsetSum, sum_tallyAt_one, E_card]
  exact BI.Entails.refl _

/-- The arrival credits the devices owe device `c`: one per nonzero offset. -/
theorem cred_recv (c : Dev nD) :
    (bigSep E fun o => Pipeline.launchCred (fun d : Dev nD => (tallyAt (recvCell (d + o) o) () N : CellTallies nD τ sig Unit)) c : sProp 𝕄)
      ⊢ bigSep E fun o => cred (tallyAt (recvCell c o) () N) :=
  bigSep_mono fun o _ =>
    Pipeline.launchCred_tallyAt (.dma (recvSem o.val o.isLt)) (fun d => d + o) (fun d => d - o) (fun x => sub_add_dev x o) (fun x => add_sub_dev x o) () N c

theorem creds (c : Dev nD) :
    (Pipeline.launchCred O₀ c : sProp 𝕄)
      ⊢ iprop(cred (tallyAt (barCell c) () 15) ∗ bigSep E fun o => cred (tallyAt (recvCell c o) () N)) := by
  rw [show (O₀ : Dev nD → CellTallies nD τ sig Unit)
      = fun d => (∑ o ∈ E, tallyAt (recvCell (d + o) o) () N) + ∑ k ∈ E, tallyAt (barCell (d - k)) () 1 from rfl,
    Pipeline.launchCred_add (fun d : Dev nD => ∑ o ∈ E, (tallyAt (recvCell (d + o) o) () N : CellTallies nD τ sig Unit))
      (fun d : Dev nD => ∑ k ∈ E, (tallyAt (barCell (d - k)) () 1 : CellTallies nD τ sig Unit)) c,
    Pipeline.launchCred_sum E (fun (o : Fin 16) (d : Dev nD) => (tallyAt (recvCell (d + o) o) () N : CellTallies nD τ sig Unit)) c,
    Pipeline.launchCred_sum E (fun (k : Fin 16) (d : Dev nD) => (tallyAt (barCell (d - k)) () 1 : CellTallies nD τ sig Unit)) c]
  iintro ⟨HR, HB⟩
  isplitl [HB]
  · iapply (cred_bar (F := F) c); iexact HB
  · iapply (cred_recv (F := F) c); iexact HR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (scrOf (X m) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given each
    device's body: every weakly fair execution of the program terminates, and every final state has each windowed array
    at its computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-! ## The final arrays read back -/

/-- A device's block as staged is its argument array as launched. -/
theorem X_eq (d : Dev nD) : X m d = m ((d : Thread nD τ).loc main_arg0) := by
  unfold X
  exact Memref.read_access_unit_zero (Elt F) main_arg0 (funext fun a => Nat.zero_mul _) _ _

/-- The result array after the run holds the device's result block. -/
theorem finalA_out (c : Dev nD) : finalA m ρ c (1 : Fin 2) = outAt m c := by
  unfold finalA
  have h := (dats (F := F) m ρ 0 c).arrAt_succ (1 : Fin 2) t0_0
  rw [if_pos (flush0_1 t0_0)] at h
  refine (congrArg ((dats (F := F) m ρ 0 c).arrAt (1 : Fin 2)) (N_0 : cfg0.N = t0_0.val + 1)).trans (h.trans ?_)
  exact Memref.write_access_unit_zero_univ (Elt F) main_v1 (funext fun a => Nat.zero_mul _) _ _ _

/-- The run with every device's arrays named: the result block as specified, the argument unchanged. -/
theorem run_value (hbody : ∀ c : Dev nD, BodyObligation (dats (F := F) m ρ 0 c) (defs₀ (F := F)) 𝒱₀ () Set.univ) :
    θ_run (Cert.Kernel.defs (F := F)) (onTc (τ := Cert.Kernel.τ) (Cert.Kernel.main (F := F))) ⟨m, fun _ => 0, ρ⟩
      (fun r => ∀ c : Dev nD,
        r.2.mem ((c.tc : Thread nD τ).loc main_v1) = Spec.outOf (F := F) (fun d => m ((d.tc : Thread nD τ).loc main_arg0)) c
        ∧ r.2.mem ((c.tc : Thread nD τ).loc main_arg0) = m ((c.tc : Thread nD τ).loc main_arg0)) :=
  (θ_run defs _ _).mono (fun r h c =>
    ⟨((h c (1 : Fin 2)).trans (finalA_out m ρ c)).trans (by
        unfold outAt
        rw [show X m = fun d : Dev nD => m ((d.tc : Thread nD τ).loc main_arg0) from funext (X_eq m)]),
      (h c (0 : Fin 2)).trans (finalA_x m ρ c)⟩) (run_main m ρ hbody)

/-- info: 'Cert.Kernel.Proto.run_value' depends on axioms: [propext, Classical.choice, Quot.sound] -/
#guard_msgs in #print axioms run_value

end Cert.Kernel.Proto

end
-- ==== Proof.SoftmaxLaw.lean ====
import Idealize.ShloMosaic.PureOps.Ideal.Laws
import Mathlib.Data.Fintype.Lattice
import Mathlib.Order.ConditionallyCompleteLattice.Finset

/-!
# The softmax of a row that is cut into blocks

A row of real numbers is cut into blocks `d : ι`, block `d` holding the entries `x d k`, `k : κ`. Each block knows
its own maximum `m d`, its exponentials `exp (x d k - m d)` and their sum `s d`. From the pairs `(m d, s d)` of all
blocks, listed in any order `σ`, the maximum of the whole row is `M = max_d m d` and the sum of the whole row's
exponentials relative to `M` is `∑_d s d * exp (m d - M)`, because `exp (x - m) * exp (m - M) = exp (x - M)`; so a block's
exponentials times `exp (m d - M)` divided by that sum are the softmax of the row at the block's entries.
Here both sides are written over the extended reals with the ideal exponential and division, and shown equal when every
entry is a real number: then every maximum is a real number and every sum is a positive real number.
-/

noncomputable section

namespace Cert.SoftmaxLaw

open Idealize.ShloMosaic
open scoped BigOperators

variable {ι κ ν : Type} [Fintype ι] [Fintype κ] [Fintype ν]

/-! ## The two sides, over the extended reals -/

/-- The maximum of block `d`. -/
def bmax (X : ι → κ → EReal) (d : ι) : EReal := Finset.univ.sup (X d)
/-- Block `d`'s exponentials relative to its own maximum. -/
def bexp (X : ι → κ → EReal) (d : ι) (k : κ) : EReal := Ideal.exp (X d k - bmax X d)
/-- Their sum. -/
def bsum (X : ι → κ → EReal) (d : ι) : EReal := ∑ k, bexp X d k
/-- The maximum of the blocks' maxima, the blocks listed in the order `σ`. -/
def gmax (X : ι → κ → EReal) (σ : ι → ι) : EReal := Finset.univ.sup fun o => bmax X (σ o)
/-- The blocks' sums, each rescaled to the common maximum, added up. -/
def gsum (X : ι → κ → EReal) (σ : ι → ι) : EReal := ∑ o, bsum X (σ o) * Ideal.exp (bmax X (σ o) - gmax X σ)
/-- What block `c` ends with at its entry `j`: its exponential there times its rescaling factor. -/
def kernelVal (X : ι → κ → EReal) (σ : ι → ι) (c : ι) (j : κ) : EReal :=
  bexp X c j * Ideal.div (Ideal.exp (bmax X c - gmax X σ)) (gsum X σ)

/-- The maximum of a whole row. -/
def rmax (Y : ν → EReal) : EReal := Finset.univ.sup Y
/-- The softmax of a whole row at its entry `n`. -/
def refVal (Y : ν → EReal) (n : ν) : EReal :=
  Ideal.div (Ideal.exp (Y n - rmax Y)) (∑ n', Ideal.exp (Y n' - rmax Y))

/-! ## A maximum taken from minus infinity -/

/-- The single-precision pattern of minus infinity is the least extended real. -/
theorem ofBits_neg_inf : Ideal.ofBits .f32 0xFF800000#32 = (⊥ : EReal) := by
  simp [Ideal.ofBits, Ideal.ieee]

/-- So a running maximum started there is the supremum of the family. -/
theorem fold_maxf_bot {α : Type} [Fintype α] (f : α → EReal) :
    Finset.univ.fold (FloatOps.maximumf (F := Ideal) (φ := .f32)) (⊥ : EReal) f = Finset.univ.sup f := rfl

/-! ## Real numbers inside the extended reals -/

/-- A finite sum of real numbers, taken in the extended reals, is the real sum. -/
theorem coe_sum {α : Type} (s : Finset α) (f : α → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The ideal division of a real number by a nonzero real number is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The maximum of finitely many (at least one) real numbers is one of them, so a real number. -/
theorem sup_coe {α : Type} [Fintype α] [Nonempty α] (f : α → ℝ) :
    ∃ m : ℝ, Finset.univ.sup (fun k => (f k : EReal)) = (m : EReal) := by
  obtain ⟨k, hk⟩ := exists_eq_ciSup_of_finite (f := fun k => (f k : EReal))
  exact ⟨f k, by rw [Finset.sup_univ_eq_iSup]; exact hk.symm⟩

/-! ## The law over the real numbers -/

/-- For ANY numbers `m d` and `M` (not only the maxima): the blocks' sums, each rescaled from its own `m d` to `M`, add up
    to the whole row's sum relative to `M`, in whatever order the blocks are listed. -/
theorem sum_rescale (x : ι → κ → ℝ) (σ : ι ≃ ι) (m : ι → ℝ) (M : ℝ) :
    (∑ o, (∑ k, Real.exp (x (σ o) k - m (σ o))) * Real.exp (m (σ o) - M))
      = ∑ p : ι × κ, Real.exp (x p.1 p.2 - M) := by
  rw [Fintype.sum_prod_type, ← Equiv.sum_comp σ (fun d => ∑ k, Real.exp (x d k - M))]
  refine Finset.sum_congr rfl fun o _ => ?_
  rw [Finset.sum_mul]
  refine Finset.sum_congr rfl fun k _ => ?_
  rw [← Real.exp_add]; congr 1; ring

/-- So rescaling block by block is rescaling the whole row. -/
theorem law_real (x : ι → κ → ℝ) (σ : ι ≃ ι) (m : ι → ℝ) (M : ℝ) (c : ι) (j : κ) :
    Real.exp (x c j - m c) * (Real.exp (m c - M) / ∑ o, (∑ k, Real.exp (x (σ o) k - m (σ o))) * Real.exp (m (σ o) - M))
      = Real.exp (x c j - M) / ∑ p : ι × κ, Real.exp (x p.1 p.2 - M) := by
  rw [sum_rescale, ← mul_div_assoc, ← Real.exp_add]; congr 2; ring

/-! ## The law over the extended reals, for real entries -/

/-- Blocks of real entries, listed in any order `σ`; `Y` the whole row, `e` placing entry `k` of block `d` in it. -/
theorem law [Nonempty ι] [Nonempty κ] (x : ι → κ → ℝ) (σ : ι ≃ ι) (e : ι × κ ≃ ν) (Y : ν → EReal)
    (hY : ∀ d k, Y (e (d, k)) = (x d k : EReal)) (c : ι) (j : κ) :
    kernelVal (fun d k => (x d k : EReal)) σ c j = refVal Y (e (c, j)) := by
  classical
  -- every block's maximum is a real number, and so is the maximum of those
  choose m hm using fun d => sup_coe (x d)
  have hbmax : ∀ d, bmax (fun d k => (x d k : EReal)) d = (m d : EReal) := hm
  obtain ⟨M, hM⟩ := sup_coe (fun o => m (σ o))
  have hgmax : gmax (fun d k => (x d k : EReal)) σ = (M : EReal) := by
    unfold gmax; simp only [hbmax]; exact hM
  -- the whole row's maximum is the same number
  have hrmax : rmax Y = (M : EReal) := by
    rw [← hgmax]; unfold rmax gmax bmax
    simp only [Finset.sup_univ_eq_iSup]
    rw [← Equiv.iSup_comp e, iSup_prod, ← Equiv.iSup_comp σ]
    simp only [hY]
  -- the kernel's side is a real number
  have hbexp : ∀ d k, bexp (fun d k => (x d k : EReal)) d k = ((Real.exp (x d k - m d) : ℝ) : EReal) := by
    intro d k; unfold bexp; rw [hbmax, ← EReal.coe_sub]; rfl
  have hbsum : ∀ d, bsum (fun d k => (x d k : EReal)) d = ((∑ k, Real.exp (x d k - m d) : ℝ) : EReal) := by
    intro d; unfold bsum; simp only [hbexp]; exact coe_sum _ _
  have hgsum : gsum (fun d k => (x d k : EReal)) σ
      = ((∑ o, (∑ k, Real.exp (x (σ o) k - m (σ o))) * Real.exp (m (σ o) - M) : ℝ) : EReal) := by
    unfold gsum; simp only [hbsum, hbmax, hgmax, ← EReal.coe_sub, Ideal.exp_coe, ← EReal.coe_mul]; exact coe_sum _ _
  have hpos : (0 : ℝ) < ∑ p : ι × κ, Real.exp (x p.1 p.2 - M) :=
    Finset.sum_pos (fun p _ => Real.exp_pos _) Finset.univ_nonempty
  have hS := sum_rescale x σ m M
  have hK : kernelVal (fun d k => (x d k : EReal)) σ c j
      = ((Real.exp (x c j - m c) * (Real.exp (m c - M)
          / ∑ o, (∑ k, Real.exp (x (σ o) k - m (σ o))) * Real.exp (m (σ o) - M)) : ℝ) : EReal) := by
    unfold kernelVal
    rw [hbexp, hbmax, hgmax, hgsum, ← EReal.coe_sub, Ideal.exp_coe, div_coe_coe _ (by rw [hS]; exact hpos.ne'),
      ← EReal.coe_mul]
  -- and so is the reference's
  have hR : refVal Y (e (c, j)) = ((Real.exp (x c j - M) / ∑ p : ι × κ, Real.exp (x p.1 p.2 - M) : ℝ) : EReal) := by
    unfold refVal
    have hsum : (∑ n', Ideal.exp (Y n' - rmax Y)) = ((∑ p : ι × κ, Real.exp (x p.1 p.2 - M) : ℝ) : EReal) := by
      rw [← Equiv.sum_comp e, ← coe_sum]
      refine Finset.sum_congr rfl fun p _ => ?_
      rw [hrmax, show Y (e p) = (x p.1 p.2 : EReal) from hY p.1 p.2, ← EReal.coe_sub]; rfl
    rw [hsum, hrmax, hY, ← EReal.coe_sub, Ideal.exp_coe, div_coe_coe _ hpos.ne']
  rw [hK, hR, law_real]

/-- info: 'Cert.SoftmaxLaw.law' depends on axioms: [propext, Classical.choice, Quot.sound] -/
#guard_msgs in #print axioms law

end Cert.SoftmaxLaw

end
-- ==== Proof.Finite.lean ====
import proofs.«900480_g7700000000000481_dist_softmax_colshard_i_m1024_n1024_v7x_i16_bf16_1_alg».proof.Pre_finite_inputs_Kernel
import Idealize.ShloMosaic.Lib.ReduceAll
import Idealize.ShloMosaic.Lib.ValueIdx
import Idealize.ShloMosaic.PureOps.Ideal.Laws

/-!
# Finite inputs are real numbers

The precondition says of a block that every entry's absolute value is below plus infinity. Over the extended reals
an entry whose absolute value `max x (-x)` is below the top element is neither the top nor the bottom element, so it
is a real number.
-/

noncomputable section

namespace Cert.Finite

open Idealize.ShloMosaic Idealize.ShloMosaic.ValueIdx

/-- The single-precision pattern of plus infinity is the greatest extended real. -/
theorem ofBits_pos_inf : Ideal.ofBits .f32 0x7F800000#32 = (⊤ : EReal) := by
  simp [Ideal.ofBits, Ideal.ieee]

/-- An extended real whose absolute value is below the top element is a real number. -/
theorem real_of_abs_lt_top {x : EReal} (h : max x (-x) < ⊤) : ∃ r : ℝ, x = (r : EReal) := by
  have h1 : x ≠ ⊤ := fun e => by rw [e] at h; simp at h
  have h2 : x ≠ ⊥ := fun e => by rw [e] at h; simp at h
  exact ⟨x.toReal, (EReal.coe_toReal h1 h2).symm⟩

/-- Every entry of a block of which the precondition holds is a real number. -/
theorem real_of_pre [Cert.Pre_finite_inputs_Kernel.Facts] (X : FVec Ideal Cert.Pre_finite_inputs_Kernel.S1024x1024 .f32)
    (h : Cert.Pre_finite_inputs_Kernel.fn (F := Ideal) X = fun _ => 1#1) (i : Cert.Pre_finite_inputs_Kernel.S1024x1024.Idx) :
    ∃ r : ℝ, X i = (r : EReal) := by
  have h0 := congrFun h ix0
  dsimp only [Cert.Pre_finite_inputs_Kernel.fn] at h0
  haveI : Subsingleton Cert.Pre_finite_inputs_Kernel.S_.Idx := ⟨fun a b => funext fun d => d.elim0⟩
  have hi := Host.reduce_andi_all _ _ _ _ _ h0 i
  have hc : Ideal.cmp .olt (max (X i) (-(X i))) (Ideal.ofBits .f32 0x7F800000#32) = 1#1 := hi
  rw [ofBits_pos_inf] at hc
  refine real_of_abs_lt_top ?_
  by_contra hn
  simp [Ideal.cmp, hn] at hc

/-- info: 'Cert.Finite.real_of_pre' depends on axioms: [propext, Classical.choice, Quot.sound] -/
#guard_msgs in #print axioms real_of_pre

end Cert.Finite

end
-- ==== Proof.RefValue.lean ====
import proofs.«900480_g7700000000000481_dist_softmax_colshard_i_m1024_n1024_v7x_i16_bf16_1_alg».proof.Proof.Gen.ReferenceIdeal.Read
import proofs.«900480_g7700000000000481_dist_softmax_colshard_i_m1024_n1024_v7x_i16_bf16_1_alg».proof.Proof.SoftmaxLaw
import Idealize.ShloMosaic.Lib.ValueIdx

/-!
# The reference's result at an index

The reference takes the maximum of each whole row of the 1024 x 16384 array, subtracts it, exponentiates, sums each row
and divides. Read at row `r`, column `n`, with exact arithmetic, the result is the softmax of row `r` at `n`
(`SoftmaxLaw.refVal`): the initial value of the maximum is minus infinity, that of the sum is zero, and the change of
format at the end changes no value.
-/

noncomputable section

namespace Cert.ReferenceIdeal.RefValue

open Cert.ReferenceIdeal Cert.ReferenceIdeal.Gen Cert.ReferenceIdeal.Read Idealize.ShloMosaic Idealize.ShloMosaic.ValueIdx
open scoped BigOperators

/-- Row `r` of the array. -/
def row (x0 : FVec Ideal S1024x16384 .f32) (r : Fin 1024) : Fin 16384 → EReal := fun n => x0 (ix2 r n)

/-- The row maximum: a running maximum from minus infinity over the row's 16384 entries. -/
theorem rowmax_apply (x0 : FVec Ideal S1024x16384 .f32) (r : Fin 1024) :
    val_main_v0 (F := Ideal) x0 (ix1 r) = SoftmaxLaw.rmax (row x0 r) := by
  unfold val_main_v0
  rw [Host.reduce_eq_fold_single FloatOps.maximumf x0 _ reducesTo_S1024x16384_S1024_d1
    (by decide : S1024x16384.Reduces [1] S1024) h_S_ (ix1 r), val_main_cst_apply]
  show Finset.univ.fold (FloatOps.maximumf (F := Ideal) (φ := .f32)) (Ideal.ofBits .f32 0xFF800000#32) _ = _
  rw [SoftmaxLaw.ofBits_neg_inf, SoftmaxLaw.fold_maxf_bot]
  unfold SoftmaxLaw.rmax row
  refine congrArg Finset.univ.sup (funext fun k => ?_)
  exact congrArg x0 (funext fun a => Fin.ext (by match a with | ⟨0, _⟩ => rfl | ⟨1, _⟩ => rfl))

/-- The exponential of an entry less its row's maximum. -/
theorem exp_apply (x0 : FVec Ideal S1024x16384 .f32) (r : Fin 1024) (n : Fin 16384) :
    val_main_v4 (F := Ideal) x0 (ix2 r n) = Ideal.exp (row x0 r n - SoftmaxLaw.rmax (row x0 r)) := by
  rw [val_main_v4_apply, val_main_v3_apply, val_main_v2_apply, val_main_v1_apply,
    show idx_main_v1 (idx_main_v2 (ix2 r n)) = ix1 r from
      funext fun a => Fin.ext (by match a with | ⟨0, _⟩ => rfl),
    rowmax_apply]
  rfl

/-- The row's sum of exponentials: zero plus the sum over the row's 16384 entries. -/
theorem sum_apply (x0 : FVec Ideal S1024x16384 .f32) (r : Fin 1024) :
    val_main_v5 (F := Ideal) x0 (ix1 r) = ∑ n, Ideal.exp (row x0 r n - SoftmaxLaw.rmax (row x0 r)) := by
  rw [val_main_v5_apply, val_main_cst_0_apply]
  show Ideal.ofBits .f32 0x00000000#32 + _ = _
  rw [Ideal.ofBits_zero_f32, zero_add]
  refine Finset.sum_congr rfl fun k _ => ?_
  rw [show idx_main_v5 (ix1 r) k = ix2 r k from
    funext fun a => Fin.ext (by match a with | ⟨0, _⟩ => rfl | ⟨1, _⟩ => rfl)]
  exact exp_apply x0 r k

/-- The reference's result at row `r`, column `n` is the softmax of row `r` at `n`. -/
theorem ref_apply (x0 : FVec Ideal S1024x16384 .f32) (r : Fin 1024) (n : Fin 16384) :
    val_main_v9 (F := Ideal) x0 (ix2 r n) = SoftmaxLaw.refVal (row x0 r) n := by
  rw [val_main_v9_apply, val_main_v8_apply, val_main_v7_apply, val_main_v6_apply,
    show idx_main_v6 (idx_main_v7 (ix2 r n)) = ix1 r from
      funext fun a => Fin.ext (by match a with | ⟨0, _⟩ => rfl),
    sum_apply, exp_apply]
  rfl

/-- info: 'Cert.ReferenceIdeal.RefValue.ref_apply' depends on axioms: [propext, Classical.choice, Quot.sound] -/
#guard_msgs in #print axioms ref_apply

end Cert.ReferenceIdeal.RefValue

end
-- ==== Proof.VecRead.lean ====
import Idealize.ShloMosaic.Lib.ValueIdx
import Idealize.ShloMosaic.Lib.ValueLayout
import Idealize.ShloMosaic.Lib.Pipeline.Value
import Idealize.ShloMosaic.PureOps.Ideal.Laws
import proofs.«900480_g7700000000000481_dist_softmax_colshard_i_m1024_n1024_v7x_i16_bf16_1_alg».proof.Proof.SoftmaxLaw

/-!
# Reductions and re-layouts of the kernel's vectors, read at one entry

A block is 1024 rows by 1024 columns; the statistics of sixteen blocks are laid 16 by 1024. A maximum along an axis,
started from minus infinity, is the supremum of the entries along it; a sum along an axis, started from zero, is their
sum; a per-row quantity spread along the columns (or a per-column one along the rows) reads the quantity itself; a unit
axis dropped or added moves no entry; two rows stacked read the first row at position 0 and the second at position 1.
-/

noncomputable section

namespace Cert.VecRead

open Idealize.ShloMosaic Idealize.ShloMosaic.ValueIdx
open scoped BigOperators

/-- The maximum of each row of a block. -/
theorem rowmax_at (v : FVec Ideal ⟨2, ![1024, 1024]⟩ .f32) (h : Shape.Reduces ⟨2, ![1024, 1024]⟩ [1] ⟨1, ![1024]⟩)
    (hφ : FKind.Formats .f32) (hacc : (0xFF800000#32 : BitVec 32) = FKind.maximumf.neutral .f32 hφ) (r : Fin 1024) :
    multiReduction .maximumf [1] ⟨1, ![1024]⟩ v 0xFF800000#32 h hφ hacc (ix1 r)
      = Finset.univ.sup fun k : Fin 1024 => v (ix2 r k) := by
  refine (Ideal.multiReduction_maximumf_single v _ h hφ hacc (ix1 r)).trans ?_
  show Finset.univ.fold (FloatOps.maximumf (F := Ideal) (φ := .f32)) (Ideal.ofBits .f32 0xFF800000#32) _ = _
  rw [SoftmaxLaw.ofBits_neg_inf, SoftmaxLaw.fold_maxf_bot]
  refine Finset.sup_congr rfl fun k _ => ?_
  exact congrArg v (funext fun a => Fin.ext (by match a with | ⟨0, _⟩ => rfl | ⟨1, _⟩ => rfl))

/-- The sum of each row of a block. -/
theorem rowsum_at (v : FVec Ideal ⟨2, ![1024, 1024]⟩ .f32) (h : Shape.Reduces ⟨2, ![1024, 1024]⟩ [1] ⟨1, ![1024]⟩)
    (hφ : FKind.Formats .f32) (hacc : (0x00000000#32 : BitVec 32) = FKind.add.neutral .f32 hφ) (r : Fin 1024) :
    multiReduction .add [1] ⟨1, ![1024]⟩ v 0x00000000#32 h hφ hacc (ix1 r) = ∑ k : Fin 1024, v (ix2 r k) := by
  refine (Ideal.multiReduction_add_single v _ h hφ hacc (ix1 r)).trans ?_
  refine Finset.sum_congr rfl fun k _ => ?_
  exact congrArg v (funext fun a => Fin.ext (by match a with | ⟨0, _⟩ => rfl | ⟨1, _⟩ => rfl))

/-- The maximum over the sixteen slots, for each row. -/
theorem colmax_at (v : FVec Ideal ⟨2, ![16, 1024]⟩ .f32) (h : Shape.Reduces ⟨2, ![16, 1024]⟩ [0] ⟨1, ![1024]⟩)
    (hφ : FKind.Formats .f32) (hacc : (0xFF800000#32 : BitVec 32) = FKind.maximumf.neutral .f32 hφ) (r : Fin 1024) :
    multiReduction .maximumf [0] ⟨1, ![1024]⟩ v 0xFF800000#32 h hφ hacc (ix1 r)
      = Finset.univ.sup fun o : Fin 16 => v (ix2 o r) := by
  refine (Ideal.multiReduction_maximumf_single v _ h hφ hacc (ix1 r)).trans ?_
  show Finset.univ.fold (FloatOps.maximumf (F := Ideal) (φ := .f32)) (Ideal.ofBits .f32 0xFF800000#32) _ = _
  rw [SoftmaxLaw.ofBits_neg_inf, SoftmaxLaw.fold_maxf_bot]
  refine Finset.sup_congr rfl fun o _ => ?_
  exact congrArg v (funext fun a => Fin.ext (by match a with | ⟨0, _⟩ => rfl | ⟨1, _⟩ => rfl))

/-- The sum over the sixteen slots, for each row. -/
theorem colsum_at (v : FVec Ideal ⟨2, ![16, 1024]⟩ .f32) (h : Shape.Reduces ⟨2, ![16, 1024]⟩ [0] ⟨1, ![1024]⟩)
    (hφ : FKind.Formats .f32) (hacc : (0x00000000#32 : BitVec 32) = FKind.add.neutral .f32 hφ) (r : Fin 1024) :
    multiReduction .add [0] ⟨1, ![1024]⟩ v 0x00000000#32 h hφ hacc (ix1 r) = ∑ o : Fin 16, v (ix2 o r) := by
  refine (Ideal.multiReduction_add_single v _ h hφ hacc (ix1 r)).trans ?_
  refine Finset.sum_congr rfl fun o _ => ?_
  exact congrArg v (funext fun a => Fin.ext (by match a with | ⟨0, _⟩ => rfl | ⟨1, _⟩ => rfl))

/-- A per-row quantity spread along the 1024 columns of a block reads the row's quantity. -/
theorem col_bcast_at {φ : FTy} (v : FVec Ideal ⟨1, ![1024]⟩ φ) (h1 : Shape.ShapeCasts ⟨1, ![1024]⟩ ⟨2, ![1024, 1]⟩)
    (h2 : Shape.Broadcasts ⟨2, ![1024, 1]⟩ ⟨2, ![1024, 1024]⟩) (r k : Fin 1024) :
    broadcastTo ⟨2, ![1024, 1024]⟩ (shapeCast ⟨2, ![1024, 1]⟩ v h1) h2 (ix2 r k) = v (ix1 r) := by
  refine (broadcastTo_apply _ h2 (ix2 r k) (ix2 r (0 : Fin 1)) fun a => ?_).trans ?_
  · match a with
    | ⟨0, _⟩ => show r.val = if (1024 : Nat) = 1 then 0 else r.val; rw [if_neg (by decide)]
    | ⟨1, _⟩ => show 0 = if (1 : Nat) = 1 then 0 else k.val; rw [if_pos rfl]
  · exact shapeCast_apply v h1 _ _ (by
      rw [Shape.rowMajor_val_one, Shape.rowMajor_val_two]
      show r.val = r.val * 1 + 0
      omega)

/-- A per-row quantity laid as one line of 1024 and repeated for the sixteen slots reads the row's quantity. -/
theorem row_bcast_at {φ : FTy} (v : FVec Ideal ⟨1, ![1024]⟩ φ) (h1 : Shape.ShapeCasts ⟨1, ![1024]⟩ ⟨2, ![1, 1024]⟩)
    (h2 : Shape.Broadcasts ⟨2, ![1, 1024]⟩ ⟨2, ![16, 1024]⟩) (o : Fin 16) (r : Fin 1024) :
    broadcastTo ⟨2, ![16, 1024]⟩ (shapeCast ⟨2, ![1, 1024]⟩ v h1) h2 (ix2 o r) = v (ix1 r) :=
  (broadcastTo_1b_ab_apply _ h2 o r).trans (shapeCast_a_1a_apply v h1 0 r)

/-- Sixteen slots of one line each, with the unit middle axis dropped. -/
theorem drop_mid_at {φ : FTy} (v : FVec Ideal ⟨3, ![16, 1, 1024]⟩ φ)
    (h : Shape.ShapeCasts ⟨3, ![16, 1, 1024]⟩ ⟨2, ![16, 1024]⟩) (o : Fin 16) (r : Fin 1024) :
    shapeCast ⟨2, ![16, 1024]⟩ v h (ix2 o r) = v (ix3 o (0 : Fin 1) r) :=
  shapeCast_apply v h _ _ (by
    rw [Shape.rowMajor_val_three, Shape.rowMajor_val_two]
    show (o.val * 1 + 0) * 1024 + r.val = o.val * 1024 + r.val
    omega)

/-- Two lines stacked and given a leading unit axis: position 0 reads the first line. -/
theorem stack_at_zero {φ : FTy} (a b : FVec Ideal ⟨1, ![1024]⟩ φ) (h1 : Shape.ShapeCasts ⟨1, ![1024]⟩ ⟨2, ![1, 1024]⟩)
    (hc : Shape.Concatenates [⟨2, ![1, 1024]⟩, ⟨2, ![1, 1024]⟩] ⟨2, ![2, 1024]⟩ 0)
    (h3 : Shape.ShapeCasts ⟨2, ![2, 1024]⟩ ⟨3, ![1, 2, 1024]⟩) (u : Fin 1) (r : Fin 1024) :
    shapeCast ⟨3, ![1, 2, 1024]⟩ (concatenate ⟨2, ![2, 1024]⟩ 0
        [⟨⟨2, ![1, 1024]⟩, shapeCast ⟨2, ![1, 1024]⟩ a h1⟩, ⟨⟨2, ![1, 1024]⟩, shapeCast ⟨2, ![1, 1024]⟩ b h1⟩] hc) h3
      (ix3 u (0 : Fin 2) r) = a (ix1 r) :=
  (shapeCast_ab_1ab_apply _ h3 u 0 r).trans
    ((concatenate_pair_apply_left 0 _ _ hc (ix2 (0 : Fin 2) r) rfl (ix2 (0 : Fin 1) r)
      (fun c => match c with | ⟨0, _⟩ => rfl | ⟨1, _⟩ => rfl)).trans (shapeCast_a_1a_apply a h1 0 r))

/-- Position 1 reads the second line. -/
theorem stack_at_one {φ : FTy} (a b : FVec Ideal ⟨1, ![1024]⟩ φ) (h1 : Shape.ShapeCasts ⟨1, ![1024]⟩ ⟨2, ![1, 1024]⟩)
    (hc : Shape.Concatenates [⟨2, ![1, 1024]⟩, ⟨2, ![1, 1024]⟩] ⟨2, ![2, 1024]⟩ 0)
    (h3 : Shape.ShapeCasts ⟨2, ![2, 1024]⟩ ⟨3, ![1, 2, 1024]⟩) (u : Fin 1) (r : Fin 1024) :
    shapeCast ⟨3, ![1, 2, 1024]⟩ (concatenate ⟨2, ![2, 1024]⟩ 0
        [⟨⟨2, ![1, 1024]⟩, shapeCast ⟨2, ![1, 1024]⟩ a h1⟩, ⟨⟨2, ![1, 1024]⟩, shapeCast ⟨2, ![1, 1024]⟩ b h1⟩] hc) h3
      (ix3 u (1 : Fin 2) r) = b (ix1 r) :=
  (shapeCast_ab_1ab_apply _ h3 u 1 r).trans
    ((concatenate_pair_apply_right 0 _ _ hc (ix2 (1 : Fin 2) r) rfl rfl (ix2 (0 : Fin 1) r)
      (fun c hc' => match c, hc' with
        | ⟨0, _⟩, hc' => absurd rfl hc'
        | ⟨1, _⟩, _ => rfl) rfl).trans (shapeCast_a_1a_apply b h1 0 r))

/-- info: 'Cert.VecRead.stack_at_one' depends on axioms: [propext, Classical.choice, Quot.sound] -/
#guard_msgs in #print axioms stack_at_one

end Cert.VecRead

end
-- ==== Proof.KernelValue.lean ====
import proofs.«900480_g7700000000000481_dist_softmax_colshard_i_m1024_n1024_v7x_i16_bf16_1_alg».proof.Proof.Spec
import proofs.«900480_g7700000000000481_dist_softmax_colshard_i_m1024_n1024_v7x_i16_bf16_1_alg».proof.Proof.VecRead

/-!
# A device's result at an entry

Device `c` holds block `X c`. Read at row `r`, the maxima of the rows of a block are the suprema of the rows'
entries, the exponentials are taken relative to them, and their row sums are the block's sums; slot `o` of the
statistics holds those of block `c - o`. The result block at row `r`, column `j`, is then the quantity
`SoftmaxLaw.kernelVal` of row `r` of the sixteen blocks, listed in the order `o ↦ c - o`, at block `c` and column `j`.
-/

noncomputable section

namespace Cert.KernelIdeal.KernelValue

open Idealize.ShloMosaic Idealize.ShloMosaic.ValueIdx Cert.KernelIdeal Cert.KernelIdeal.Gen Cert.KernelIdeal.Spec
open scoped BigOperators

/-! ## The statistics of one block -/

/-- The row maxima of a block. -/
theorem pay3_at (X : FVec Ideal S1024x1024 .f32) (r : Fin 1024) :
    k0_pay3 (F := Ideal) X (ix1 r) = Finset.univ.sup fun k : Fin 1024 => X (ix2 r k) := by
  unfold k0_pay3 k0_pay2
  refine (VecRead.rowmax_at _ _ _ _ r).trans ?_
  refine Finset.sup_congr rfl fun k _ => ?_
  exact congrFun (shapeCast_self X _) _

/-- The exponentials of a block relative to its row maxima. -/
theorem pay4_at (X : FVec Ideal S1024x1024 .f32) (r k : Fin 1024) :
    k0_pay4 (F := Ideal) X (ix2 r k) = Ideal.exp (X (ix2 r k) - k0_pay3 (F := Ideal) X (ix1 r)) := by
  unfold k0_pay4
  show Ideal.exp (k0_pay2 (F := Ideal) X (ix2 r k) - broadcastTo S1024x1024 (shapeCast S1024x1 (k0_pay3 (F := Ideal) X) _) _ (ix2 r k)) = _
  refine congrArg Ideal.exp (congrArg₂ (· - ·) ?_ ?_)
  · unfold k0_pay2; exact congrFun (shapeCast_self X _) _
  · exact VecRead.col_bcast_at _ _ _ r k

/-- The statistics a block publishes: its row maxima at position 0 … -/
theorem pay6_at_zero (X : FVec Ideal S1024x1024 .f32) (u : Fin 1) (r : Fin 1024) :
    k0_pay6 (F := Ideal) X (ix3 u (0 : Fin 2) r) = k0_pay3 (F := Ideal) X (ix1 r) := by
  unfold k0_pay6
  exact VecRead.stack_at_zero _ _ _ _ _ u r

/-- … and the row sums of its exponentials at position 1. -/
theorem pay6_at_one (X : FVec Ideal S1024x1024 .f32) (u : Fin 1) (r : Fin 1024) :
    k0_pay6 (F := Ideal) X (ix3 u (1 : Fin 2) r) = ∑ k : Fin 1024, k0_pay4 (F := Ideal) X (ix2 r k) := by
  unfold k0_pay6
  exact (VecRead.stack_at_one _ _ _ _ _ u r).trans (VecRead.rowsum_at _ _ _ _ r)

/-! ## The sixteen slots combined -/

/-- The maximum over the sixteen slots' maxima. -/
theorem gmax_at (v470 : FVec Ideal S16x1x1024 .f32) (h1 : S16x1x1024.ShapeCasts S16x1024)
    (h2 : S16x1024.Reduces [0] S1024) (hφ : FKind.Formats .f32)
    (hacc : (0xFF800000#32 : BitVec 32) = FKind.maximumf.neutral .f32 hφ) (r : Fin 1024) :
    multiReduction .maximumf [0] S1024 (shapeCast S16x1024 v470 h1) 0xFF800000#32 h2 hφ hacc (ix1 r)
      = Finset.univ.sup fun o : Fin 16 => v470 (ix3 o (0 : Fin 1) r) :=
  (VecRead.colmax_at _ _ _ _ r).trans (Finset.sup_congr rfl fun o _ => VecRead.drop_mid_at v470 _ o r)

/-- The rescaled result, from a block's own maxima `v66`, the slots' maxima `v470` and sums `v472`, and the block's
    exponentials `v485`. -/
theorem pay1_at (v66 : FVec Ideal S1024 .f32) (v470 v472 : FVec Ideal S16x1x1024 .f32)
    (v485 : FVec Ideal S1024x1024 .bf16) (r j : Fin 1024) :
    k0_pay1 (F := Ideal) v66 v470 v472 v485 (ix2 r j)
      = v485 (ix2 r j) * Ideal.div
          (Ideal.exp (v66 (ix1 r) - Finset.univ.sup fun o : Fin 16 => v470 (ix3 o (0 : Fin 1) r)))
          (∑ o : Fin 16, v472 (ix3 o (0 : Fin 1) r)
            * Ideal.exp (v470 (ix3 o (0 : Fin 1) r) - Finset.univ.sup fun o' : Fin 16 => v470 (ix3 o' (0 : Fin 1) r))) := by
  unfold k0_pay1
  show (shapeCast S1024x1024 v485 _ (ix2 r j)) * (broadcastTo S1024x1024 (shapeCast S1024x1 _ _) _ (ix2 r j)) = _
  refine congrArg₂ (· * ·) (congrFun (shapeCast_self v485 _) _) ?_
  refine (VecRead.col_bcast_at _ _ _ r j).trans ?_
  show Ideal.div (Ideal.exp (v66 (ix1 r) - _)) _ = _
  refine congrArg₂ Ideal.div (congrArg Ideal.exp (congrArg (v66 (ix1 r) - ·) (gmax_at v470 _ _ _ _ r))) ?_
  refine (VecRead.colsum_at _ _ _ _ r).trans ?_
  refine Finset.sum_congr rfl fun o _ => ?_
  show (shapeCast S16x1024 v472 _ (ix2 o r))
    * Ideal.exp (shapeCast S16x1024 v470 _ (ix2 o r) - broadcastTo S16x1024 (shapeCast S1x1024 _ _) _ (ix2 o r)) = _
  refine congrArg₂ (· * ·) (VecRead.drop_mid_at v472 _ o r)
    (congrArg Ideal.exp (congrArg₂ (· - ·) (VecRead.drop_mid_at v470 _ o r) ?_))
  exact (VecRead.row_bcast_at _ _ _ o r).trans (gmax_at v470 _ _ _ _ r)

/-! ## The statistics scratch read back -/

/-- The load of all slots' maxima reads position 0 of each slot … -/
theorem read_max_at (f : FVec Ideal S16x2x1024 .f32) (o : Fin 16) (u : Fin 1) (r : Fin 1024) :
    (Memref.whole cc0_scratch0 : Memref sig .tc .vmem S16x2x1024 .f32).view.readAt (Elt Ideal) rMax.toLoadRect f (ix3 o u r)
      = f (ix3 o (0 : Fin 2) r) := by
  show f _ = f _
  refine congrArg f (funext fun a => Fin.ext ?_)
  have hu := u.isLt
  match a with
  | ⟨0, _⟩ => show 0 + 1 * o.val = o.val; omega
  | ⟨1, _⟩ => show 0 + 1 * u.val = 0; omega
  | ⟨2, _⟩ => show 0 + 1 * r.val = r.val; omega

/-- … and the load of all slots' sums reads position 1. -/
theorem read_sum_at (f : FVec Ideal S16x2x1024 .f32) (o : Fin 16) (u : Fin 1) (r : Fin 1024) :
    (Memref.whole cc0_scratch0 : Memref sig .tc .vmem S16x2x1024 .f32).view.readAt (Elt Ideal) rSum.toLoadRect f (ix3 o u r)
      = f (ix3 o (1 : Fin 2) r) := by
  show f _ = f _
  refine congrArg f (funext fun a => Fin.ext ?_)
  have hu := u.isLt
  match a with
  | ⟨0, _⟩ => show 0 + 1 * o.val = o.val; omega
  | ⟨1, _⟩ => show 1 + 1 * u.val = 1; omega
  | ⟨2, _⟩ => show 0 + 1 * r.val = r.val; omega

/-! ## The result block -/

/-- Row `r` of the sixteen blocks. -/
def rows (X : Dev nD → FVec Ideal S1024x1024 .f32) (r : Fin 1024) : Fin 16 → Fin 1024 → EReal :=
  fun d k => X d (ix2 r k)

theorem bmax_eq (X : Dev nD → FVec Ideal S1024x1024 .f32) (r : Fin 1024) (d : Fin 16) :
    k0_pay3 (F := Ideal) (X d) (ix1 r) = SoftmaxLaw.bmax (rows X r) d := pay3_at (X d) r

theorem bexp_eq (X : Dev nD → FVec Ideal S1024x1024 .f32) (r : Fin 1024) (d : Fin 16) (k : Fin 1024) :
    k0_pay4 (F := Ideal) (X d) (ix2 r k) = SoftmaxLaw.bexp (rows X r) d k := by
  rw [pay4_at, bmax_eq]; rfl

theorem bsum_eq (X : Dev nD → FVec Ideal S1024x1024 .f32) (r : Fin 1024) (d : Fin 16) (u : Fin 1) :
    k0_pay6 (F := Ideal) (X d) (ix3 u (1 : Fin 2) r) = SoftmaxLaw.bsum (rows X r) d := by
  rw [pay6_at_one]; unfold SoftmaxLaw.bsum
  exact Finset.sum_congr rfl fun k _ => bexp_eq X r d k

/-- Slot `o` of device `c`'s statistics at position 0 is the maximum of block `c - o`, at position 1 its sum. -/
theorem scr_at_zero (X : Dev nD → FVec Ideal S1024x1024 .f32) (c : Dev nD) (o : Fin 16) (r : Fin 1024) :
    scrOf (F := Ideal) X c (ix3 o (0 : Fin 2) r) = SoftmaxLaw.bmax (rows X r) (c - o) :=
  (pay6_at_zero (X (c - o)) 0 r).trans (bmax_eq X r (c - o))

theorem scr_at_one (X : Dev nD → FVec Ideal S1024x1024 .f32) (c : Dev nD) (o : Fin 16) (r : Fin 1024) :
    scrOf (F := Ideal) X c (ix3 o (1 : Fin 2) r) = SoftmaxLaw.bsum (rows X r) (c - o) :=
  bsum_eq X r (c - o) 0

/-- Device `c`'s result block at row `r`, column `j`. -/
theorem out_apply (X : Dev nD → FVec Ideal S1024x1024 .f32) (c : Dev nD) (r j : Fin 1024) :
    outOf (F := Ideal) X c (ix2 r j) = SoftmaxLaw.kernelVal (rows X r) (fun o => c - o) c j := by
  unfold outOf
  refine (pay1_at _ _ _ _ r j).trans ?_
  unfold SoftmaxLaw.kernelVal SoftmaxLaw.gsum SoftmaxLaw.gmax
  have hmax : ∀ o : Fin 16,
      (Memref.whole cc0_scratch0 : Memref sig .tc .vmem S16x2x1024 .f32).view.readAt (Elt Ideal) rMax.toLoadRect
          (scrOf (F := Ideal) X c) (ix3 o (0 : Fin 1) r) = SoftmaxLaw.bmax (rows X r) (c - o) :=
    fun o => (read_max_at _ o 0 r).trans (scr_at_zero X c o r)
  have hsum : ∀ o : Fin 16,
      (Memref.whole cc0_scratch0 : Memref sig .tc .vmem S16x2x1024 .f32).view.readAt (Elt Ideal) rSum.toLoadRect
          (scrOf (F := Ideal) X c) (ix3 o (0 : Fin 1) r) = SoftmaxLaw.bsum (rows X r) (c - o) :=
    fun o => (read_sum_at _ o 0 r).trans (scr_at_one X c o r)
  refine congrArg₂ (· * ·) (bexp_eq X r c j) (congrArg₂ Ideal.div
    (congrArg Ideal.exp (congrArg₂ (· - ·) (bmax_eq X r c) (Finset.sup_congr rfl fun o _ => hmax o)))
    (Finset.sum_congr rfl fun o _ => ?_))
  exact congrArg₂ (· * ·) (hsum o)
    (congrArg Ideal.exp (congrArg₂ (· - ·) (hmax o) (Finset.sup_congr rfl fun o' _ => hmax o')))

/-- info: 'Cert.KernelIdeal.KernelValue.out_apply' depends on axioms: [propext, Classical.choice, Quot.sound] -/
#guard_msgs in #print axioms out_apply

end Cert.KernelIdeal.KernelValue

end
-- ==== Proof.Bridge.lean ====
import proofs.«900480_g7700000000000481_dist_softmax_colshard_i_m1024_n1024_v7x_i16_bf16_1_alg».proof.Defs
import proofs.«900480_g7700000000000481_dist_softmax_colshard_i_m1024_n1024_v7x_i16_bf16_1_alg».proof.Proof.Gen.KernelIdeal
import proofs.«900480_g7700000000000481_dist_softmax_colshard_i_m1024_n1024_v7x_i16_bf16_1_alg».proof.Proof.Gen.ReferenceIdeal
import proofs.«900480_g7700000000000481_dist_softmax_colshard_i_m1024_n1024_v7x_i16_bf16_1_alg».proof.Proof.Gen.Pre_finite_inputs_Kernel
import proofs.«900480_g7700000000000481_dist_softmax_colshard_i_m1024_n1024_v7x_i16_bf16_1_alg».proof.Proof.Gen.Pre_finite_inputs_ReferenceIdeal
import proofs.«900480_g7700000000000481_dist_softmax_colshard_i_m1024_n1024_v7x_i16_bf16_1_alg».proof.Proof.Gen.ReferenceIdeal.Run
import proofs.«900480_g7700000000000481_dist_softmax_colshard_i_m1024_n1024_v7x_i16_bf16_1_alg».proof.Proof.Gen.ReferenceIdeal.Read
import proofs.«900480_g7700000000000481_dist_softmax_colshard_i_m1024_n1024_v7x_i16_bf16_1_alg».proof.Proof.SoftmaxLaw
import proofs.«900480_g7700000000000481_dist_softmax_colshard_i_m1024_n1024_v7x_i16_bf16_1_alg».proof.Proof.Finite
import proofs.«900480_g7700000000000481_dist_softmax_colshard_i_m1024_n1024_v7x_i16_bf16_1_alg».proof.Proof.RefValue
import proofs.«900480_g7700000000000481_dist_softmax_colshard_i_m1024_n1024_v7x_i16_bf16_1_alg».proof.Proof.KernelValue

/-!
# The sixteen result blocks are the blocks of the reference's result

The 1024 x 16384 array is cut along its columns into sixteen blocks of 1024 columns; column `k` of block `d` is column
`d * 1024 + k` of the whole. Row `r` of the whole array is therefore row `r` of the sixteen blocks laid side by side, and
for finite entries the softmax law says that what device `c` computes at `(r, j)` from the sixteen blocks' statistics is
the softmax of the whole row at column `c * 1024 + j`: block `c` of the reference's result.
-/

noncomputable section

namespace Cert.Bridge

open Idealize.ShloMosaic Idealize.ShloMosaic.ValueIdx Idealize.SL.Sem
open Cert.ReferenceIdeal.Read
open scoped BigOperators

/-- Column `k` of block `d` is column `d * 1024 + k` of the whole row. -/
def colEquiv : Fin 16 × Fin 1024 ≃ Fin 16384 := finProdFinEquiv.trans (finCongr (by norm_num))

theorem colEquiv_val (d : Fin 16) (k : Fin 1024) : (colEquiv (d, k)).val = d.val * 1024 + k.val := by
  show k.val + 1024 * d.val = _
  omega

/-- Where entry `(r, k)` of block `d` lies in the whole array. -/
theorem idx_block (h : Layout.Tiles ⟨2, ![1024, 1024]⟩ ⟨2, ![1024, 16384]⟩ 1 16) (d : Fin 16) (r k : Fin 1024) :
    h.idx d (ix2 r k) = ix2 r (colEquiv (d, k)) := by
  funext a
  refine Fin.ext ?_
  match a with
  | ⟨0, _⟩ => rfl
  | ⟨1, _⟩ => exact (colEquiv_val d k).symm

/-- For finite entries, device `c`'s result block is block `c` of the reference's result. -/
theorem value_eq (X : Fin 16 → FVec Ideal ⟨2, ![1024, 1024]⟩ .f32) (x0 : FVec Ideal ⟨2, ![1024, 16384]⟩ .f32)
    (h : Layout.Tiles ⟨2, ![1024, 1024]⟩ ⟨2, ![1024, 16384]⟩ 1 16)
    (hfin : ∀ d i, ∃ t : ℝ, X d i = (t : EReal))
    (hagree : ∀ d, X d = Layout.block ⟨2, ![1024, 1024]⟩ ⟨2, ![1024, 16384]⟩ 1 16 d x0 h) (c : Fin 16) :
    Cert.KernelIdeal.Spec.outOf (F := Ideal) X c
      = Layout.block ⟨2, ![1024, 1024]⟩ ⟨2, ![1024, 16384]⟩ 1 16 c (val_main_v9 (F := Ideal) x0) h := by
  funext i
  obtain ⟨r, j, rfl⟩ : ∃ (r : Fin 1024) (j : Fin 1024), i = ix2 r j := ⟨i 0, i 1, eq_ix2 i⟩
  rw [Layout.block_apply, idx_block, Cert.ReferenceIdeal.RefValue.ref_apply, Cert.KernelIdeal.KernelValue.out_apply]
  choose x hx using fun (d : Fin 16) (k : Fin 1024) => hfin d (ix2 r k)
  have hrows : Cert.KernelIdeal.KernelValue.rows X r = fun d k => (x d k : EReal) :=
    funext fun d => funext fun k => hx d k
  rw [hrows]
  refine SoftmaxLaw.law x (Equiv.subLeft c) colEquiv (Cert.ReferenceIdeal.RefValue.row x0 r) (fun d k => ?_) c j
  show x0 (ix2 r (colEquiv (d, k))) = _
  rw [← idx_block h, ← hx d k, hagree d]
  rfl

/-- The reference runs and leaves its argument unchanged. -/
theorem frame_ri : Cert.frame_ReferenceIdeal := fun m ρ _ =>
  (θ_run Cert.ReferenceIdeal.defs _ _).mono (fun _ h c => (h c).2) (Cert.ReferenceIdeal.Value.run (F := Ideal) m ρ)

/-- Given that every device ends with its result block as specified and its argument unchanged, the sixteen result
    blocks are the blocks of the reference's result. -/
theorem algebraic_of_run
    (hrun : ∀ (m : (ℓ : Loc Cert.KernelIdeal.nD Cert.KernelIdeal.τ Cert.KernelIdeal.sig) → Buf (Elt Ideal) ℓ)
        (g : Dev Cert.KernelIdeal.nD → PrngReg),
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v1)
              = Cert.KernelIdeal.Spec.outOf (F := Ideal)
                  (fun d => m ((d.tc : Thread Cert.KernelIdeal.nD Cert.KernelIdeal.τ).loc Cert.KernelIdeal.main_arg0)) c
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))) :
    Cert.algebraic_KernelIdeal_ReferenceIdeal := by
  intro m g m' g' hpre hagree
  refine ⟨val_main_v9 (F := Ideal)
    (m' (((0 : Dev Cert.ReferenceIdeal.nD).tc : Thread Cert.ReferenceIdeal.nD Cert.ReferenceIdeal.τ).loc Cert.ReferenceIdeal.main_arg0)),
    ?_, ?_⟩
  · refine (θ_run _ _ _).mono (fun r h c => ⟨?_, (h c).2⟩) (hrun m g)
    rw [(h c).1]
    exact value_eq _ _ (by decide) (fun d i => Cert.Finite.real_of_pre _ (hpre d) i) hagree c
  · refine (θ_run _ _ _).mono (fun r h => ⟨?_, (h 0).2⟩) (Cert.ReferenceIdeal.Value.run (F := Ideal) m' g')
    rw [(h 0).1]
    exact val_main_v9_eq _

/-- info: 'Cert.Bridge.frame_ri' depends on axioms: [propext, Classical.choice, Quot.sound] -/
#guard_msgs in #print axioms frame_ri

/-- info: 'Cert.Bridge.algebraic_of_run' depends on axioms: [propext, Classical.choice, Quot.sound] -/
#guard_msgs in #print axioms algebraic_of_run

end Cert.Bridge

end
-- ==== Proof.lean ====
/-
  The certificate of a softmax over the rows of a 1024 x 16384 array whose columns are cut into sixteen blocks, one per
  device. Each device takes the row maxima and the row sums of `exp (x - max)` of its own block, the sixteen devices
  exchange these statistics (a handshake on the barrier semaphore, then fifteen remote copies each), and each rescales its
  own exponentials by `exp (m_loc - m_glob) / s_glob`. Over the extended reals, for finite inputs, that is the softmax of
  the whole row: `exp (x - m_loc) · exp (m_loc - m_glob) = exp (x - m_glob)`, the global maximum is the maximum of the
  blocks' maxima, and the whole row's sum regroups as the sum over the blocks of `s · exp (m - m_glob)`.

  The three frames: the kernel's run (Launch.lean's `run_value`, at the word-level program and at the idealized one) with
  the values dropped, and the reference's run. `preserves` has no conjunct. `algebraic`: the kernel's run names each
  device's result block as a pure function of all devices' blocks (Spec.lean's `outOf`), and that function is the device's
  block of the reference's result (Bridge.lean).
-/
import proofs.«900480_g7700000000000481_dist_softmax_colshard_i_m1024_n1024_v7x_i16_bf16_1_alg».proof.Defs
import proofs.«900480_g7700000000000481_dist_softmax_colshard_i_m1024_n1024_v7x_i16_bf16_1_alg».proof.Proof.Gen.Kernel
import proofs.«900480_g7700000000000481_dist_softmax_colshard_i_m1024_n1024_v7x_i16_bf16_1_alg».proof.Proof.Gen.KernelIdeal
import proofs.«900480_g7700000000000481_dist_softmax_colshard_i_m1024_n1024_v7x_i16_bf16_1_alg».proof.Proof.Gen.ReferenceIdeal
import proofs.«900480_g7700000000000481_dist_softmax_colshard_i_m1024_n1024_v7x_i16_bf16_1_alg».proof.Proof.Gen.Pre_finite_inputs_Kernel
import proofs.«900480_g7700000000000481_dist_softmax_colshard_i_m1024_n1024_v7x_i16_bf16_1_alg».proof.Proof.Gen.Pre_finite_inputs_ReferenceIdeal
import proofs.«900480_g7700000000000481_dist_softmax_colshard_i_m1024_n1024_v7x_i16_bf16_1_alg».proof.Proof.Body
import proofs.«900480_g7700000000000481_dist_softmax_colshard_i_m1024_n1024_v7x_i16_bf16_1_alg».proof.Proof.Launch
import proofs.«900480_g7700000000000481_dist_softmax_colshard_i_m1024_n1024_v7x_i16_bf16_1_alg».proof.Proof.Bits.Body
import proofs.«900480_g7700000000000481_dist_softmax_colshard_i_m1024_n1024_v7x_i16_bf16_1_alg».proof.Proof.Bits.Launch
import proofs.«900480_g7700000000000481_dist_softmax_colshard_i_m1024_n1024_v7x_i16_bf16_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ =>
  (θ_run (Cert.Kernel.defs (F := Bits)) _ _).mono (fun _ h c => (h c).2)
    (Cert.Kernel.Proto.run_value (F := Bits) m ρ (Cert.Kernel.Proto.body_obligation m ρ))

theorem frame_ki : Cert.frame_KernelIdeal := fun m ρ _ =>
  (θ_run (Cert.KernelIdeal.defs (F := Ideal)) _ _).mono (fun _ h c => (h c).2)
    (Cert.KernelIdeal.Proto.run_value (F := Ideal) m ρ (Cert.KernelIdeal.Proto.body_obligation m ρ))

theorem algebraic : Cert.algebraic_KernelIdeal_ReferenceIdeal :=
  Cert.Bridge.algebraic_of_run fun m g =>
    Cert.KernelIdeal.Proto.run_value (F := Ideal) m g (Cert.KernelIdeal.Proto.body_obligation m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.Bridge.frame_ri, trivial, algebraic⟩

end Cert.Proof

end
